-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2x524288 : Shape := ⟨2, ![2, 524288]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128x32 .f32) (main_arg9 : FVec F S32 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x32 .f32) (main_arg9 : FVec F S32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S65536x256 .f32) (main_arg1 : IVec S2x524288 32) (main_arg2 : FVec F S256 .f32) (main_arg3 : FVec F S256 .f32) (main_arg4 : FVec F S256x128 .f32) (main_arg5 : FVec F S128 .f32) (main_arg6 : FVec F S128x128 .f32) (main_arg7 : FVec F S128 .f32) (main_arg8 : FVec F S128x32 .f32) (main_arg9 : FVec F S32 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S65536x256 : Shape := ⟨2, ![65536, 256]⟩
abbrev S2x524288 : Shape := ⟨2, ![2, 524288]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S65536 : Shape := ⟨1, ![65536]⟩
abbrev S524288x1 : Shape := ⟨2, ![524288, 1]⟩
abbrev S65536x1 : Shape := ⟨2, ![65536, 1]⟩
abbrev S1x256 : Shape := ⟨2, ![1, 256]⟩
abbrev S1x128 : Shape := ⟨2, ![1, 128]⟩
abbrev S1x32 : Shape := ⟨2, ![1, 32]⟩
abbrev S65536x128 : Shape := ⟨2, ![65536, 128]⟩
abbrev S2048x256 : Shape := ⟨2, ![2048, 256]⟩
abbrev S2048x1 : Shape := ⟨2, ![2048, 1]⟩
abbrev S2048x128 : Shape := ⟨2, ![2048, 128]⟩
abbrev S2048 : Shape := ⟨1, ![2048]⟩
abbrev S524288x128 : Shape := ⟨2, ![524288, 128]⟩
abbrev S65536x32 : Shape := ⟨2, ![65536, 32]⟩
abbrev S2048x32 : Shape := ⟨2, ![2048, 32]⟩
abbrev S524288x32 : Shape := ⟨2, ![524288, 32]⟩

abbrev nBuf : Space → Nat
  | .hbm => 78
  | .vmem => 50
  | .smem => 0
  | _ => 0

abbrev bufTy : (tb : Table) → Fin (tcTables nBuf tb) → BufTy
  | .hbm, ⟨0, _⟩ => ⟨S65536x256, .f32⟩
  | .hbm, ⟨1, _⟩ => ⟨S2x524288, .i32⟩
  | .hbm, ⟨2, _⟩ => ⟨S256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x32, .f32⟩
  | .hbm, ⟨9, _⟩ => ⟨S32, .f32⟩
  | .hbm, ⟨10, _⟩ => ⟨S1x524288, .i32⟩
  | .hbm, ⟨11, _⟩ => ⟨S524288, .i32⟩
  | .hbm, ⟨12, _⟩ => ⟨S1x524288, .i32⟩
  | .hbm, ⟨13, _⟩ => ⟨S524288, .i32⟩
  | .hbm, ⟨14, _⟩ => ⟨S_, .f32⟩
  | .hbm, ⟨15, _⟩ => ⟨S524288, .f32⟩
  | .hbm, ⟨16, _⟩ => ⟨S_, .f32⟩
  | .hbm, ⟨17, _⟩ => ⟨S65536, .f32⟩
  | .hbm, ⟨18, _⟩ => ⟨S524288x1, .i32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S65536x1, .f32⟩
  | .hbm, ⟨25, _⟩ => ⟨S1x256, .f32⟩
  | .hbm, ⟨26, _⟩ => ⟨S1x256, .f32⟩
  | .hbm, ⟨27, _⟩ => ⟨S1x128, .f32⟩
  | .hbm, ⟨28, _⟩ => ⟨S1x128, .f32⟩
  | .hbm, ⟨29, _⟩ => ⟨S1x32, .f32⟩
  | .hbm, ⟨30, _⟩ => ⟨S256x128, .bf16⟩
  | .hbm, ⟨31, _⟩ => ⟨S128x128, .bf16⟩
  | .hbm, ⟨32, _⟩ => ⟨S128x32, .bf16⟩
  | .hbm, ⟨33, _⟩ => ⟨S65536x128, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S524288x128, .f32⟩
  | .hbm, ⟨43, _⟩ => ⟨S_, .f32⟩
  | .hbm, ⟨44, _⟩ => ⟨S65536x128, .f32⟩
  | .hbm, ⟨45, _⟩ => ⟨S524288x1, .i32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S_, .i32⟩
  | .hbm, ⟨50, _⟩ => ⟨S524288, .i32⟩
  | .hbm, ⟨51, _⟩ => ⟨S524288, .i1⟩
  | .hbm, ⟨52, _⟩ => ⟨S_, .i32⟩
  | .hbm, ⟨53, _⟩ => ⟨S524288, .i32⟩
  | .hbm, ⟨54, _⟩ => ⟨S524288, .i32⟩
  | .hbm, ⟨55, _⟩ => ⟨S524288, .i32⟩
  | .hbm, ⟨56, _⟩ => ⟨S524288x1, .i32⟩
  | .hbm, ⟨57, _⟩ => ⟨S524288x128, .f32⟩
  | .hbm, ⟨58, _⟩ => ⟨S_, .f32⟩
  | .hbm, ⟨59, _⟩ => ⟨S65536x128, .f32⟩
  | .hbm, ⟨60, _⟩ => ⟨S524288x1, .i32⟩
  | .hbm, ⟨61, _⟩ => ⟨S65536x128, .f32⟩
  | .hbm, ⟨62, _⟩ => ⟨S65536x128, .f32⟩
  | .hbm, ⟨63, _⟩ => ⟨S65536x32, .f32⟩
  | .hbm, ⟨64, _⟩ => ⟨S_, .i32⟩
  | .hbm, ⟨65, _⟩ => ⟨S524288, .i32⟩
  | .hbm, ⟨66, _⟩ => ⟨S524288, .i1⟩
  | .hbm, ⟨67, _⟩ => ⟨S_, .i32⟩
  | .hbm, ⟨68, _⟩ => ⟨S524288, .i32⟩
  | .hbm, ⟨69, _⟩ => ⟨S524288, .i32⟩
  | .hbm, ⟨70, _⟩ => ⟨S524288, .i32⟩
  | .hbm, ⟨71, _⟩ => ⟨S524288x1, .i32⟩
  | .hbm, ⟨72, _⟩ => ⟨S524288x32, .f32⟩
  | .hbm, ⟨73, _⟩ => ⟨S_, .f32⟩
  | .hbm, ⟨74, _⟩ => ⟨S65536x32, .f32⟩
  | .hbm, ⟨75, _⟩ => ⟨S524288x1, .i32⟩
  | .hbm, ⟨76, _⟩ => ⟨S65536x32, .f32⟩
  | .hbm, ⟨77, _⟩ => ⟨S65536x32, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S256x128, .bf16⟩
  | .local _ .vmem, ⟨5, _⟩ => ⟨S2048x1, .f32⟩
  | .local _ .vmem, ⟨6, _⟩ => ⟨S2048x1, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x1, .f32⟩
  | .local _ .vmem, ⟨14, _⟩ => ⟨S2048x1, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S128x128, .bf16⟩
  | .local _ .vmem, ⟨21, _⟩ => ⟨S2048x1, .f32⟩
  | .local _ .vmem, ⟨22, _⟩ => ⟨S2048x1, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x1, .f32⟩
  | .local _ .vmem, ⟨30, _⟩ => ⟨S2048x1, .f32⟩
  | .local _ .vmem, ⟨31, _⟩ => ⟨S1x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S128x32, .bf16⟩
  | .local _ .vmem, ⟨37, _⟩ => ⟨S2048x1, .f32⟩
  | .local _ .vmem, ⟨38, _⟩ => ⟨S2048x1, .f32⟩
  | .local _ .vmem, ⟨39, _⟩ => ⟨S2048x32, .f32⟩
  | .local _ .vmem, ⟨40, _⟩ => ⟨S2048x32, .f32⟩
  | .local _ .vmem, ⟨41, _⟩ => ⟨S2048x32, .f32⟩
  | .local _ .vmem, ⟨42, _⟩ => ⟨S2048x32, .f32⟩
  | .local _ .vmem, ⟨43, _⟩ => ⟨S2048x32, .f32⟩
  | .local _ .vmem, ⟨44, _⟩ => ⟨S2048x32, .f32⟩
  | .local _ .vmem, ⟨45, _⟩ => ⟨S2048x1, .f32⟩
  | .local _ .vmem, ⟨46, _⟩ => ⟨S2048x1, .f32⟩
  | .local _ .vmem, ⟨47, _⟩ => ⟨S1x32, .f32⟩
  | .local _ .vmem, ⟨48, _⟩ => ⟨S2048x32, .f32⟩
  | .local _ .vmem, ⟨49, _⟩ => ⟨S2048x32, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  shapeCasts_S65536_S65536x1 : S65536.ShapeCasts S65536x1
  shapeCasts_S256_S1x256 : S256.ShapeCasts S1x256
  shapeCasts_S128_S1x128 : S128.ShapeCasts S1x128
  shapeCasts_S32_S1x32 : S32.ShapeCasts S1x32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  bcast_S_S65536x128 : S_.BroadcastsInDim S65536x128 (![] : Fin 0 → Fin S65536x128.rank)
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  bcast_S_S65536x32 : S_.BroadcastsInDim S65536x32 (![] : Fin 0 → Fin S65536x32.rank)
  shapeCasts_S2048x32_S2048x32 : S2048x32.ShapeCasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  scatter_S65536_S524288x1_S524288_n_0_0_1_wf : ScatterDims.WF S65536 S524288x1 S524288 [] [0] [0] 1
  dot_S2048x256_S256x128_S2048x128_1_0_0_1_n_n_wf : DotDims.WF S2048x256 S256x128 S2048x128 [1] [0] [0] [1] [] []
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S2048x128_S128x128_S2048x128_1_0_0_1_n_n_wf : DotDims.WF S2048x128 S128x128 S2048x128 [1] [0] [0] [1] [] []
  dot_S2048x128_S128x32_S2048x32_1_0_0_1_n_n_wf : DotDims.WF S2048x128 S128x32 S2048x32 [1] [0] [0] [1] [] []
  gather_S65536x32_S524288x1_S524288x32_1_0_n_n_0_1_132_wf : GatherDims.WF S65536x32 S524288x1 S524288x32 [1] [0] [] [0] [] 1 ![1, 32]
  scatter_S65536x32_S524288x1_S524288x32_1_0_0_1_wf : ScatterDims.WF S65536x32 S524288x1 S524288x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S65536x1.size a
  hwx0_4 : ∀ i : grid0.Coords, EltTy.bits .f32 = 32 ∨ (Rect.block (s := S65536x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S65536x1.size a
  hwx1_2 : ∀ i : grid1.Coords, EltTy.bits .f32 = 32 ∨ (Rect.block (s := S65536x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S65536x128.size a
  hwx1_4 : ∀ i : grid1.Coords, EltTy.bits .f32 = 32 ∨ (Rect.block (s := S65536x128) S2048x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S65536x128.size a
  hwx2_0 : ∀ i : grid2.Coords, EltTy.bits .f32 = 32 ∨ (Rect.block (s := S65536x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S65536x1.size a
  hwx2_2 : ∀ i : grid2.Coords, EltTy.bits .f32 = 32 ∨ (Rect.block (s := S65536x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S65536x128.size a
  hwx2_3 : ∀ i : grid2.Coords, EltTy.bits .f32 = 32 ∨ (Rect.block (s := S65536x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S65536x128.size a
  hwx3_0 : ∀ i : grid3.Coords, EltTy.bits .f32 = 32 ∨ (Rect.block (s := S65536x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S65536x128.size a
  hwx3_1 : ∀ i : grid3.Coords, EltTy.bits .f32 = 32 ∨ (Rect.block (s := S65536x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S65536x1.size a
  hwx3_2 : ∀ i : grid3.Coords, EltTy.bits .f32 = 32 ∨ (Rect.block (s := S65536x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S65536x128.size a
  hwx3_4 : ∀ i : grid3.Coords, EltTy.bits .f32 = 32 ∨ (Rect.block (s := S65536x128) S2048x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S65536x128.size a
  hwx4_0 : ∀ i : grid4.Coords, EltTy.bits .f32 = 32 ∨ (Rect.block (s := S65536x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .bf16 = 32 ∨ (Rect.block (s := S128x32) S128x32.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S65536x1.size a
  hwx4_2 : ∀ i : grid4.Coords, EltTy.bits .f32 = 32 ∨ (Rect.block (s := S65536x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x32.size a ≤ S65536x32.size a
  hwx4_3 : ∀ i : grid4.Coords, EltTy.bits .f32 = 32 ∨ (Rect.block (s := S65536x32) S2048x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x32.size a ≤ S65536x32.size a
  hwx5_0 : ∀ i : grid5.Coords, EltTy.bits .f32 = 32 ∨ (Rect.block (s := S65536x32) S2048x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x32.size a ≤ S65536x32.size a
  hwx5_1 : ∀ i : grid5.Coords, EltTy.bits .f32 = 32 ∨ (Rect.block (s := S65536x32) S2048x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S65536x1.size a
  hwx5_2 : ∀ i : grid5.Coords, EltTy.bits .f32 = 32 ∨ (Rect.block (s := S65536x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x32.size a ≤ S65536x32.size a
  hwx5_4 : ∀ i : grid5.Coords, EltTy.bits .f32 = 32 ∨ (Rect.block (s := S65536x32) S2048x32.size (cc5_transform_4 i) (hinb5_4 i)).WholeWords (EltTy.packing .f32)

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def gather_S65536x32_S524288x1_S524288x32_1_0_n_n_0_1_132 : GatherDims S65536x32 S524288x1 S524288x32 where
  offsetDims := [1]
  collapsedSliceDims := [0]
  operandBatchingDims := []
  startIndicesBatchingDims := []
  startIndexMap := [0]
  indexVectorDim := 1
  sliceSizes := ![1, 32]
  wf := gather_S65536x32_S524288x1_S524288x32_1_0_n_n_0_1_132_wf
def scatter_S65536x32_S524288x1_S524288x32_1_0_0_1 : ScatterDims S65536x32 S524288x1 S524288x32 where
  updateWindowDims := [1]
  insertedWindowDims := [0]
  scatterDimsToOperandDims := [0]
  indexVectorDim := 1
  wf := scatter_S65536x32_S524288x1_S524288x32_1_0_0_1_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v43) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2048x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S2048x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S2048x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S2048x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S65536x256 : Shape := ⟨2, ![65536, 256]⟩
abbrev S2x524288 : Shape := ⟨2, ![2, 524288]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S65536 : Shape := ⟨1, ![65536]⟩
abbrev S65536x1 : Shape := ⟨2, ![65536, 1]⟩
abbrev S1x256 : Shape := ⟨2, ![1, 256]⟩
abbrev S65536x128 : Shape := ⟨2, ![65536, 128]⟩
abbrev S524288x1 : Shape := ⟨2, ![524288, 1]⟩
abbrev S524288x128 : Shape := ⟨2, ![524288, 128]⟩
abbrev S1x128 : Shape := ⟨2, ![1, 128]⟩
abbrev S65536x32 : Shape := ⟨2, ![65536, 32]⟩
abbrev S524288x32 : Shape := ⟨2, ![524288, 32]⟩
abbrev S1x32 : Shape := ⟨2, ![1, 32]⟩

abbrev nBuf : Space → Nat
  | .hbm => 211
  | .vmem => 0
  | .smem => 0
  | _ => 0

abbrev hbmTy0_0 (i : Nat) : BufTy := match i % 128 with
  | 0 => ⟨S65536x256, .f32⟩
  | 1 => ⟨S2x524288, .i32⟩
  | 2 => ⟨S256, .f32⟩
  | 3 => ⟨S256, .f32⟩
  | 4 => ⟨S256x128, .f32⟩
  | 5 => ⟨S128, .f32⟩
  | 6 => ⟨S128x128, .f32⟩
  | 7 => ⟨S128, .f32⟩
  | 8 => ⟨S128x32, .f32⟩
  | 9 => ⟨S32, .f32⟩
  | 10 => ⟨S1x524288, .i32⟩
  | 11 => ⟨S524288, .i32⟩
  | 12 => ⟨S1x524288, .i32⟩
  | 13 => ⟨S524288, .i32⟩
  | 14 => ⟨S_, .f32⟩
  | 15 => ⟨S65536, .f32⟩
  | 16 => ⟨S65536x1, .f32⟩
  | 17 => ⟨S_, .f32⟩
  | 18 => ⟨S65536x1, .f32⟩
  | 19 => ⟨S65536x1, .f32⟩
  | 20 => ⟨S65536x256, .f32⟩
  | 21 => ⟨S65536x256, .f32⟩
  | 22 => ⟨S65536x256, .f32⟩
  | 23 => ⟨S_, .f32⟩
  | 24 => ⟨S65536, .f32⟩
  | 25 => ⟨S65536x1, .f32⟩
  | 26 => ⟨S_, .f32⟩
  | 27 => ⟨S65536x1, .f32⟩
  | 28 => ⟨S65536x1, .f32⟩
  | 29 => ⟨S65536x256, .f32⟩
  | 30 => ⟨S65536x256, .f32⟩
  | 31 => ⟨S_, .f32⟩
  | 32 => ⟨S65536x1, .f32⟩
  | 33 => ⟨S65536x1, .f32⟩
  | 34 => ⟨S65536x1, .f32⟩
  | 35 => ⟨S65536x256, .f32⟩
  | 36 => ⟨S65536x256, .f32⟩
  | 37 => ⟨S1x256, .f32⟩
  | 38 => ⟨S65536x256, .f32⟩
  | 39 => ⟨S65536x256, .f32⟩
  | 40 => ⟨S1x256, .f32⟩
  | 41 => ⟨S65536x256, .f32⟩
  | 42 => ⟨S65536x256, .f32⟩
  | 43 => ⟨S65536x128, .f32⟩
  | 44 => ⟨S_, .f32⟩
  | 45 => ⟨S524288, .f32⟩
  | 46 => ⟨S_, .f32⟩
  | 47 => ⟨S65536, .f32⟩
  | 48 => ⟨S524288x1, .i32⟩
  | 49 => ⟨S65536, .f32⟩
  | 50 => ⟨S_, .f32⟩
  | 51 => ⟨S65536, .f32⟩
  | 52 => ⟨S65536, .f32⟩
  | 53 => ⟨S65536, .f32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S524288, .f32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S524288, .f32⟩
  | 72 => ⟨S524288, .f32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x128, .f32⟩
  | 82 => ⟨S524288x1, .f32⟩
  | 83 => ⟨S524288x128, .f32⟩
  | 84 => ⟨S524288x128, .f32⟩
  | 85 => ⟨S_, .f32⟩
  | 86 => ⟨S65536x128, .f32⟩
  | 87 => ⟨S524288x1, .i32⟩
  | 88 => ⟨S65536x128, .f32⟩
  | 89 => ⟨S65536, .f32⟩
  | 90 => ⟨S65536x1, .f32⟩
  | 91 => ⟨S65536x128, .f32⟩
  | 92 => ⟨S65536x128, .f32⟩
  | 93 => ⟨S65536x128, .f32⟩
  | 94 => ⟨S1x128, .f32⟩
  | 95 => ⟨S65536x128, .f32⟩
  | 96 => ⟨S65536x128, .f32⟩
  | 97 => ⟨S_, .f32⟩
  | 98 => ⟨S65536x128, .f32⟩
  | 99 => ⟨S65536x128, .f32⟩
  | 100 => ⟨S65536x128, .f32⟩
  | 101 => ⟨S_, .f32⟩
  | 102 => ⟨S524288, .f32⟩
  | 103 => ⟨S_, .f32⟩
  | 104 => ⟨S65536, .f32⟩
  | 105 => ⟨S524288x1, .i32⟩
  | 106 => ⟨S65536, .f32⟩
  | 107 => ⟨S_, .f32⟩
  | 108 => ⟨S65536, .f32⟩
  | 109 => ⟨S65536, .f32⟩
  | 110 => ⟨S65536, .f32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S524288x1, .i32⟩
  | 119 => ⟨S524288, .f32⟩
  | 120 => ⟨S_, .i32⟩
  | 121 => ⟨S524288, .i32⟩
  | 122 => ⟨S524288, .i1⟩
  | 123 => ⟨S_, .i32⟩
  | 124 => ⟨S524288, .i32⟩
  | 125 => ⟨S524288, .i32⟩
  | 126 => ⟨S524288, .i32⟩
  | 127 => ⟨S524288x1, .i32⟩
  | _ => ⟨S65536x256, .f32⟩

abbrev hbmTy0_1 (i : Nat) : BufTy := match i % 128 with
  | 0 => ⟨S524288, .f32⟩
  | 1 => ⟨S524288, .f32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288x128, .f32⟩
  | 11 => ⟨S524288x1, .f32⟩
  | 12 => ⟨S524288x128, .f32⟩
  | 13 => ⟨S524288x128, .f32⟩
  | 14 => ⟨S_, .f32⟩
  | 15 => ⟨S65536x128, .f32⟩
  | 16 => ⟨S524288x1, .i32⟩
  | 17 => ⟨S65536x128, .f32⟩
  | 18 => ⟨S65536, .f32⟩
  | 19 => ⟨S65536x1, .f32⟩
  | 20 => ⟨S65536x128, .f32⟩
  | 21 => ⟨S65536x128, .f32⟩
  | 22 => ⟨S65536x128, .f32⟩
  | 23 => ⟨S1x128, .f32⟩
  | 24 => ⟨S65536x128, .f32⟩
  | 25 => ⟨S65536x128, .f32⟩
  | 26 => ⟨S_, .f32⟩
  | 27 => ⟨S65536x128, .f32⟩
  | 28 => ⟨S65536x128, .f32⟩
  | 29 => ⟨S65536x32, .f32⟩
  | 30 => ⟨S_, .f32⟩
  | 31 => ⟨S524288, .f32⟩
  | 32 => ⟨S_, .f32⟩
  | 33 => ⟨S65536, .f32⟩
  | 34 => ⟨S524288x1, .i32⟩
  | 35 => ⟨S65536, .f32⟩
  | 36 => ⟨S_, .f32⟩
  | 37 => ⟨S65536, .f32⟩
  | 38 => ⟨S65536, .f32⟩
  | 39 => ⟨S65536, .f32⟩
  | 40 => ⟨S_, .i32⟩
  | 41 => ⟨S524288, .i32⟩
  | 42 => ⟨S524288, .i1⟩
  | 43 => ⟨S_, .i32⟩
  | 44 => ⟨S524288, .i32⟩
  | 45 => ⟨S524288, .i32⟩
  | 46 => ⟨S524288, .i32⟩
  | 47 => ⟨S524288x1, .i32⟩
  | 48 => ⟨S524288, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288, .f32⟩
  | 58 => ⟨S524288, .f32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S524288x1, .i32⟩
  | 67 => ⟨S524288x32, .f32⟩
  | 68 => ⟨S524288x1, .f32⟩
  | 69 => ⟨S524288x32, .f32⟩
  | 70 => ⟨S524288x32, .f32⟩
  | 71 => ⟨S_, .f32⟩
  | 72 => ⟨S65536x32, .f32⟩
  | 73 => ⟨S524288x1, .i32⟩
  | 74 => ⟨S65536x32, .f32⟩
  | 75 => ⟨S65536, .f32⟩
  | 76 => ⟨S65536x1, .f32⟩
  | 77 => ⟨S65536x32, .f32⟩
  | 78 => ⟨S65536x32, .f32⟩
  | 79 => ⟨S65536x32, .f32⟩
  | 80 => ⟨S1x32, .f32⟩
  | 81 => ⟨S65536x32, .f32⟩
  | 82 => ⟨S65536x32, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call0_cst : Ref sig .tc := ⟨.hbm, 97, rfl⟩
abbrev main_call0_v0 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_18 : Ref sig .tc := ⟨.hbm, 120, rfl⟩
abbrev main_v88 : Ref sig .tc := ⟨.hbm, 121, rfl⟩
abbrev main_v89 : Ref sig .tc := ⟨.hbm, 122, rfl⟩
abbrev main_c_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_20 : Ref sig .tc := ⟨.hbm, 130, rfl⟩
abbrev main_v96 : Ref sig .tc := ⟨.hbm, 131, rfl⟩
abbrev main_v97 : Ref sig .tc := ⟨.hbm, 132, rfl⟩
abbrev main_c_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_22 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_call1_cst : Ref sig .tc := ⟨.hbm, 154, rfl⟩
abbrev main_call1_v0 : Ref sig .tc := ⟨.hbm, 155, rfl⟩
abbrev main_v117 : Ref sig .tc := ⟨.hbm, 156, rfl⟩
abbrev main_v118 : Ref sig .tc := ⟨.hbm, 157, rfl⟩
abbrev main_cst_23 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_25 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_26 : Ref sig .tc := ⟨.hbm, 168, rfl⟩
abbrev main_v126 : Ref sig .tc := ⟨.hbm, 169, rfl⟩
abbrev main_v127 : Ref sig .tc := ⟨.hbm, 170, rfl⟩
abbrev main_c_27 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_28 : Ref sig .tc := ⟨.hbm, 177, rfl⟩
abbrev main_v133 : Ref sig .tc := ⟨.hbm, 178, rfl⟩
abbrev main_v134 : Ref sig .tc := ⟨.hbm, 179, rfl⟩
abbrev main_c_29 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_30 : Ref sig .tc := ⟨.hbm, 187, rfl⟩
abbrev main_v141 : Ref sig .tc := ⟨.hbm, 188, rfl⟩
abbrev main_v142 : Ref sig .tc := ⟨.hbm, 189, rfl⟩
abbrev main_c_31 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_32 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S65536x128 : S_.BroadcastsInDim S65536x128 (![] : Fin 0 → Fin S65536x128.rank)
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S524288x1_S524288x32_0_1 : S524288x1.BroadcastsInDim S524288x32 (![0, 1] : Fin 2 → Fin S524288x32.rank)
  bcast_S_S65536x32 : S_.BroadcastsInDim S65536x32 (![] : Fin 0 → Fin S65536x32.rank)
  bcast_S65536x1_S65536x32_0_1 : S65536x1.BroadcastsInDim S65536x32 (![0, 1] : Fin 2 → Fin S65536x32.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  dot_S65536x256_S256x128_S65536x128_1_0_0_1_n_n_wf : DotDims.WF S65536x256 S256x128 S65536x128 [1] [0] [0] [1] [] []
  scatter_S65536_S524288x1_S524288_n_0_0_1_wf : ScatterDims.WF S65536 S524288x1 S524288 [] [0] [0] 1
  gather_S65536_S524288x1_S524288_n_0_n_n_0_1_1_wf : GatherDims.WF S65536 S524288x1 S524288 [] [0] [] [0] [] 1 ![1]
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S65536x128_S128x128_S65536x128_1_0_0_1_n_n_wf : DotDims.WF S65536x128 S128x128 S65536x128 [1] [0] [0] [1] [] []
  dot_S65536x128_S128x32_S65536x32_1_0_0_1_n_n_wf : DotDims.WF S65536x128 S128x32 S65536x32 [1] [0] [0] [1] [] []
  gather_S65536x32_S524288x1_S524288x32_1_0_n_n_0_1_132_wf : GatherDims.WF S65536x32 S524288x1 S524288x32 [1] [0] [] [0] [] 1 ![1, 32]
  scatter_S65536x32_S524288x1_S524288x32_1_0_0_1_wf : ScatterDims.WF S65536x32 S524288x1 S524288x32 [1] [0] [0] 1

variable [Facts₀]

def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x32_S65536x32_1_0_0_1_n_n : DotDims S65536x128 S128x32 S65536x32 where
  lhsContracting := [1]
  rhsContracting := [0]
  lhsNonContracting := [0]
  rhsNonContracting := [1]
  lhsBatch := []
  rhsBatch := []
  wf := dot_S65536x128_S128x32_S65536x32_1_0_0_1_n_n_wf
def gather_S65536x32_S524288x1_S524288x32_1_0_n_n_0_1_132 : GatherDims S65536x32 S524288x1 S524288x32 where
  offsetDims := [1]
  collapsedSliceDims := [0]
  operandBatchingDims := []
  startIndicesBatchingDims := []
  startIndexMap := [0]
  indexVectorDim := 1
  sliceSizes := ![1, 32]
  wf := gather_S65536x32_S524288x1_S524288x32_1_0_n_n_0_1_132_wf
def scatter_S65536x32_S524288x1_S524288x32_1_0_0_1 : ScatterDims S65536x32 S524288x1 S524288x32 where
  updateWindowDims := [1]
  insertedWindowDims := [0]
  scatterDimsToOperandDims := [0]
  indexVectorDim := 1
  wf := scatter_S65536x32_S524288x1_S524288x32_1_0_0_1_wf

class Facts : Prop extends Facts₀ where

variable [Facts]
-- ==== Proof.KernelRun.lean ====
/-
  The idealized kernel's run with its result named.

  @main is six launches among stretches of host operations. Every weakly fair execution terminates without a fault,
  leaves the ten argument arrays as they were, and leaves in the result array what the last boundary of the run holds
  there: the contents obtained from the launch memory by applying, in program order, each stretch of host operations
  and each launch's write-backs. The statement is the frame's, with one more conjunct for the result array; the later
  modules compute that boundary value from the arguments.
-/
import proofs.«127040_j36644660970265_2_alg».proof.Proof.PatchedKernelIdealFrame

set_option maxRecDepth 16384

noncomputable section

namespace Cert.KernelIdeal.Named

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and every argument array as launched. -/
theorem run_named : θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Named

end
-- ==== Proof.KernelKeep.lean ====
/-
  What survives each step of the run.

  The run passes ten boundaries: a stretch of host operations rewrites only the buffers its operations name, and a
  launch rewrites only its own arrays — an input array with what it already held, an output array with its
  write-backs. So a buffer that no operation of a stretch writes, and that a launch does not have or has only as an
  input, holds after the step what it held before it. One equation per buffer and step, for exactly the buffers later
  steps read: the two index vectors cut from the edge array, the column of reciprocal square roots of the degrees, the
  three bias rows, the two later weight matrices, and each launch result that a later stretch and a later launch both
  read.
-/
import proofs.«127040_j36644660970265_2_alg».proof.Proof.PatchedKernelIdealFrame

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem keep_v1_2 (c : Dev nD) : W2 m ρ c (Proc.devRef .tc main_v1) = W1 m ρ c (Proc.devRef .tc main_v1) :=
  W2_of_ne m ρ c main_v1 (by decide)
theorem keep_v1_3 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v1_4 (c : Dev nD) : W4 m ρ c (Proc.devRef .tc main_v1) = W3 m ρ c (Proc.devRef .tc main_v1) :=
  W4_of_ne m ρ c main_v1 (by decide)
theorem keep_v1_5 (c : Dev nD) : W5 m ρ c (Proc.devRef .tc main_v1) = W4 m ρ c (Proc.devRef .tc main_v1) :=
  W5_of_ne m ρ c main_v1 (by decide)
theorem keep_v1_6 (c : Dev nD) : W6 m ρ c (Proc.devRef .tc main_v1) = W5 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v1_7 (c : Dev nD) : W7 m ρ c (Proc.devRef .tc main_v1) = W6 m ρ c (Proc.devRef .tc main_v1) :=
  W7_of_ne m ρ c main_v1 (by decide)
theorem keep_v1_8 (c : Dev nD) : W8 m ρ c (Proc.devRef .tc main_v1) = W7 m ρ c (Proc.devRef .tc main_v1) :=
  W8_of_ne m ρ c main_v1 (by decide)
theorem keep_v3_2 (c : Dev nD) : W2 m ρ c (Proc.devRef .tc main_v3) = W1 m ρ c (Proc.devRef .tc main_v3) :=
  W2_of_ne m ρ c main_v3 (by decide)
theorem keep_v3_3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v3_4 (c : Dev nD) : W4 m ρ c (Proc.devRef .tc main_v3) = W3 m ρ c (Proc.devRef .tc main_v3) :=
  W4_of_ne m ρ c main_v3 (by decide)
theorem keep_v3_5 (c : Dev nD) : W5 m ρ c (Proc.devRef .tc main_v3) = W4 m ρ c (Proc.devRef .tc main_v3) :=
  W5_of_ne m ρ c main_v3 (by decide)
theorem keep_v3_6 (c : Dev nD) : W6 m ρ c (Proc.devRef .tc main_v3) = W5 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v3_7 (c : Dev nD) : W7 m ρ c (Proc.devRef .tc main_v3) = W6 m ρ c (Proc.devRef .tc main_v3) :=
  W7_of_ne m ρ c main_v3 (by decide)
theorem keep_v3_8 (c : Dev nD) : W8 m ρ c (Proc.devRef .tc main_v3) = W7 m ρ c (Proc.devRef .tc main_v3) :=
  W8_of_ne m ρ c main_v3 (by decide)
theorem keep_v11_2 (c : Dev nD) : W2 m ρ c (Proc.devRef .tc main_v11) = W1 m ρ c (Proc.devRef .tc main_v11) :=
  (W2_arr m ρ c 4).trans (((dat0 (V1 m ρ) c).arrAt_in 4 rfl _).trans (A_eq0 (V1 m ρ) c 4))
theorem keep_v11_3 (c : Dev nD) : W3 m ρ c (Proc.devRef .tc main_v11) = W2 m ρ c (Proc.devRef .tc main_v11) :=
  StableHlo.after_of_forall_not_mem (b := Proc.devRef .tc main_v11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v11_4 (c : Dev nD) : W4 m ρ c (Proc.devRef .tc main_v11) = W3 m ρ c (Proc.devRef .tc main_v11) :=
  (W4_arr m ρ c 2).trans (((dat1 (V3 m ρ) c).arrAt_in 2 rfl _).trans (A_eq1 (V3 m ρ) c 2))
theorem keep_v11_5 (c : Dev nD) : W5 m ρ c (Proc.devRef .tc main_v11) = W4 m ρ c (Proc.devRef .tc main_v11) :=
  (W5_arr m ρ c 2).trans (((dat2 (V4 m ρ) c).arrAt_in 2 rfl _).trans (A_eq2 (V4 m ρ) c 2))
theorem keep_v11_6 (c : Dev nD) : W6 m ρ c (Proc.devRef .tc main_v11) = W5 m ρ c (Proc.devRef .tc main_v11) :=
  StableHlo.after_of_forall_not_mem (b := Proc.devRef .tc main_v11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v11_7 (c : Dev nD) : W7 m ρ c (Proc.devRef .tc main_v11) = W6 m ρ c (Proc.devRef .tc main_v11) :=
  (W7_arr m ρ c 2).trans (((dat3 (V6 m ρ) c).arrAt_in 2 rfl _).trans (A_eq3 (V6 m ρ) c 2))
theorem keep_v11_8 (c : Dev nD) : W8 m ρ c (Proc.devRef .tc main_v11) = W7 m ρ c (Proc.devRef .tc main_v11) :=
  (W8_arr m ρ c 2).trans (((dat4 (V7 m ρ) c).arrAt_in 2 rfl _).trans (A_eq4 (V7 m ρ) c 2))
theorem keep_v11_9 (c : Dev nD) : W9 m ρ c (Proc.devRef .tc main_v11) = W8 m ρ c (Proc.devRef .tc main_v11) :=
  StableHlo.after_of_forall_not_mem (b := Proc.devRef .tc main_v11) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v14_2 (c : Dev nD) : W2 m ρ c (Proc.devRef .tc main_v14) = W1 m ρ c (Proc.devRef .tc main_v14) :=
  W2_of_ne m ρ c main_v14 (by decide)
theorem keep_v14_3 (c : Dev nD) : W3 m ρ c (Proc.devRef .tc main_v14) = W2 m ρ c (Proc.devRef .tc main_v14) :=
  StableHlo.after_of_forall_not_mem (b := Proc.devRef .tc main_v14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v18_2 (c : Dev nD) : W2 m ρ c (Proc.devRef .tc main_v18) = W1 m ρ c (Proc.devRef .tc main_v18) :=
  W2_of_ne m ρ c main_v18 (by decide)
theorem keep_v18_3 (c : Dev nD) : W3 m ρ c (Proc.devRef .tc main_v18) = W2 m ρ c (Proc.devRef .tc main_v18) :=
  StableHlo.after_of_forall_not_mem (b := Proc.devRef .tc main_v18) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v18_4 (c : Dev nD) : W4 m ρ c (Proc.devRef .tc main_v18) = W3 m ρ c (Proc.devRef .tc main_v18) :=
  W4_of_ne m ρ c main_v18 (by decide)
theorem keep_v15_2 (c : Dev nD) : W2 m ρ c (Proc.devRef .tc main_v15) = W1 m ρ c (Proc.devRef .tc main_v15) :=
  W2_of_ne m ρ c main_v15 (by decide)
theorem keep_v15_3 (c : Dev nD) : W3 m ρ c (Proc.devRef .tc main_v15) = W2 m ρ c (Proc.devRef .tc main_v15) :=
  StableHlo.after_of_forall_not_mem (b := Proc.devRef .tc main_v15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v15_4 (c : Dev nD) : W4 m ρ c (Proc.devRef .tc main_v15) = W3 m ρ c (Proc.devRef .tc main_v15) :=
  W4_of_ne m ρ c main_v15 (by decide)
theorem keep_v15_5 (c : Dev nD) : W5 m ρ c (Proc.devRef .tc main_v15) = W4 m ρ c (Proc.devRef .tc main_v15) :=
  W5_of_ne m ρ c main_v15 (by decide)
theorem keep_v15_6 (c : Dev nD) : W6 m ρ c (Proc.devRef .tc main_v15) = W5 m ρ c (Proc.devRef .tc main_v15) :=
  StableHlo.after_of_forall_not_mem (b := Proc.devRef .tc main_v15) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v19_2 (c : Dev nD) : W2 m ρ c (Proc.devRef .tc main_v19) = W1 m ρ c (Proc.devRef .tc main_v19) :=
  W2_of_ne m ρ c main_v19 (by decide)
theorem keep_v19_3 (c : Dev nD) : W3 m ρ c (Proc.devRef .tc main_v19) = W2 m ρ c (Proc.devRef .tc main_v19) :=
  StableHlo.after_of_forall_not_mem (b := Proc.devRef .tc main_v19) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v19_4 (c : Dev nD) : W4 m ρ c (Proc.devRef .tc main_v19) = W3 m ρ c (Proc.devRef .tc main_v19) :=
  W4_of_ne m ρ c main_v19 (by decide)
theorem keep_v19_5 (c : Dev nD) : W5 m ρ c (Proc.devRef .tc main_v19) = W4 m ρ c (Proc.devRef .tc main_v19) :=
  W5_of_ne m ρ c main_v19 (by decide)
theorem keep_v19_6 (c : Dev nD) : W6 m ρ c (Proc.devRef .tc main_v19) = W5 m ρ c (Proc.devRef .tc main_v19) :=
  StableHlo.after_of_forall_not_mem (b := Proc.devRef .tc main_v19) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v19_7 (c : Dev nD) : W7 m ρ c (Proc.devRef .tc main_v19) = W6 m ρ c (Proc.devRef .tc main_v19) :=
  W7_of_ne m ρ c main_v19 (by decide)
theorem keep_v16_2 (c : Dev nD) : W2 m ρ c (Proc.devRef .tc main_v16) = W1 m ρ c (Proc.devRef .tc main_v16) :=
  W2_of_ne m ρ c main_v16 (by decide)
theorem keep_v16_3 (c : Dev nD) : W3 m ρ c (Proc.devRef .tc main_v16) = W2 m ρ c (Proc.devRef .tc main_v16) :=
  StableHlo.after_of_forall_not_mem (b := Proc.devRef .tc main_v16) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v16_4 (c : Dev nD) : W4 m ρ c (Proc.devRef .tc main_v16) = W3 m ρ c (Proc.devRef .tc main_v16) :=
  W4_of_ne m ρ c main_v16 (by decide)
theorem keep_v16_5 (c : Dev nD) : W5 m ρ c (Proc.devRef .tc main_v16) = W4 m ρ c (Proc.devRef .tc main_v16) :=
  W5_of_ne m ρ c main_v16 (by decide)
theorem keep_v16_6 (c : Dev nD) : W6 m ρ c (Proc.devRef .tc main_v16) = W5 m ρ c (Proc.devRef .tc main_v16) :=
  StableHlo.after_of_forall_not_mem (b := Proc.devRef .tc main_v16) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v16_7 (c : Dev nD) : W7 m ρ c (Proc.devRef .tc main_v16) = W6 m ρ c (Proc.devRef .tc main_v16) :=
  W7_of_ne m ρ c main_v16 (by decide)
theorem keep_v16_8 (c : Dev nD) : W8 m ρ c (Proc.devRef .tc main_v16) = W7 m ρ c (Proc.devRef .tc main_v16) :=
  W8_of_ne m ρ c main_v16 (by decide)
theorem keep_v16_9 (c : Dev nD) : W9 m ρ c (Proc.devRef .tc main_v16) = W8 m ρ c (Proc.devRef .tc main_v16) :=
  StableHlo.after_of_forall_not_mem (b := Proc.devRef .tc main_v16) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v20_3 (c : Dev nD) : W3 m ρ c (Proc.devRef .tc main_v20) = W2 m ρ c (Proc.devRef .tc main_v20) :=
  StableHlo.after_of_forall_not_mem (b := Proc.devRef .tc main_v20) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v32_6 (c : Dev nD) : W6 m ρ c (Proc.devRef .tc main_v32) = W5 m ρ c (Proc.devRef .tc main_v32) :=
  StableHlo.after_of_forall_not_mem (b := Proc.devRef .tc main_v32) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_v44_9 (c : Dev nD) : W9 m ρ c (Proc.devRef .tc main_v44) = W8 m ρ c (Proc.devRef .tc main_v44) :=
  StableHlo.after_of_forall_not_mem (b := Proc.devRef .tc main_v44) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg0_1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Named

end
-- ==== Proof.Spec.lean ====
/-
  The four whole-array functions the kernel's six launches compute, read entry by entry on the extended reals.

  A launch here works on bands of 2048 consecutive rows, and every entry of its result depends only on the same row of
  its row-banded operands and on the small operands it keeps whole; so each launch is one function of whole arrays:

  * `lnProd`: a row of `x` is centred at its mean, multiplied by the reciprocal square root of (its mean square
    deviation + ε), scaled and shifted by two vectors given as one-row matrices; the normalised row is multiplied into
    a weight matrix, and entry `(p, q)` of the product is scaled by `d (p, 0)`.
  * `scaledProd`: entry `(p, q)` of a plain matrix product, scaled by `d (p, 0)`.
  * `combineRelu`, `combineLin`: `d (p, 0) · (a (p, q) + y (p, q)) + b (0, q)`, the first followed by `max · 0`.

  Both means divide by the literal 256 and ε is the literal the two programs share; they are kept as bit patterns.
-/
import Idealize.ShloMosaic.PureOps.Ideal
import Idealize.ShloMosaic.Lib.ValueIdx

noncomputable section

open scoped BigOperators

namespace Cert.Gcn

open Idealize.ShloMosaic Idealize.ShloMosaic.ValueIdx

/-- The divisor of both means: the f32 pattern of 256. -/
def c256 : EReal := Ideal.ofBits .f32 0x43800000#32
/-- The ε under the reciprocal square root: the f32 pattern both programs print. -/
def cEps : EReal := Ideal.ofBits .f32 0x3727C5AC#32
/-- The f32 pattern of zero, as the rectifier compares against it. -/
def cZero : EReal := Ideal.ofBits .f32 0x00000000#32

variable {N K C : ℕ}

/-- The mean of row `p`. -/
def rowMean (x : (⟨2, ![N, K]⟩ : Shape).Idx → EReal) (p : Fin N) : EReal :=
  Ideal.div (∑ k : Fin K, x (ix2 p k)) c256

/-- Row `p` centred at its mean, at column `k`. -/
def centred (x : (⟨2, ![N, K]⟩ : Shape).Idx → EReal) (p : Fin N) (k : Fin K) : EReal :=
  x (ix2 p k) - rowMean x p

/-- The mean square deviation of row `p`. -/
def rowVar (x : (⟨2, ![N, K]⟩ : Shape).Idx → EReal) (p : Fin N) : EReal :=
  Ideal.div (∑ k : Fin K, centred x p k * centred x p k) c256

/-- The normalised, scaled and shifted row `p`, at column `k`. -/
def lnorm (x : (⟨2, ![N, K]⟩ : Shape).Idx → EReal) (lw lb : (⟨2, ![1, K]⟩ : Shape).Idx → EReal) (p : Fin N) (k : Fin K) :
    EReal :=
  centred x p k * Ideal.rsqrt (rowVar x p + cEps) * lw (ix2 0 k) + lb (ix2 0 k)

/-- The normalised rows times a weight matrix, each row of the product scaled by its entry of the column `d`. -/
def lnProd (x : (⟨2, ![N, K]⟩ : Shape).Idx → EReal) (lw lb : (⟨2, ![1, K]⟩ : Shape).Idx → EReal)
    (w : (⟨2, ![K, C]⟩ : Shape).Idx → EReal) (d : (⟨2, ![N, 1]⟩ : Shape).Idx → EReal) :
    (⟨2, ![N, C]⟩ : Shape).Idx → EReal :=
  fun j => (∑ k : Fin K, lnorm x lw lb ⟨(j 0).val, (j 0).isLt⟩ k * w (ix2 k ⟨(j 1).val, (j 1).isLt⟩))
    * d (ix2 ⟨(j 0).val, (j 0).isLt⟩ 0)

theorem lnProd_apply (x : (⟨2, ![N, K]⟩ : Shape).Idx → EReal) (lw lb : (⟨2, ![1, K]⟩ : Shape).Idx → EReal)
    (w : (⟨2, ![K, C]⟩ : Shape).Idx → EReal) (d : (⟨2, ![N, 1]⟩ : Shape).Idx → EReal) (p : Fin N) (q : Fin C) :
    lnProd x lw lb w d (ix2 p q) = (∑ k : Fin K, lnorm x lw lb p k * w (ix2 k q)) * d (ix2 p 0) := rfl

/-- A matrix product, each row scaled by its entry of the column `d`. -/
def scaledProd (h : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  fun j => (∑ k : Fin K, h (ix2 ⟨(j 0).val, (j 0).isLt⟩ k) * w (ix2 k ⟨(j 1).val, (j 1).isLt⟩))
    * d (ix2 ⟨(j 0).val, (j 0).isLt⟩ 0)

theorem scaledProd_apply (h : (⟨2, ![N, K]⟩ : Shape).Idx → EReal) (w : (⟨2, ![K, C]⟩ : Shape).Idx → EReal)
    (d : (⟨2, ![N, 1]⟩ : Shape).Idx → EReal) (p : Fin N) (q : Fin C) :
    scaledProd h w d (ix2 p q) = (∑ k : Fin K, h (ix2 p k) * w (ix2 k q)) * d (ix2 p 0) := rfl

/-- `d (p, 0) · (a (p, q) + y (p, q)) + b (0, q)`. -/
def combineLin (a y : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun j => d (ix2 ⟨(j 0).val, (j 0).isLt⟩ 0) * (a j + y j) + b (ix2 0 ⟨(j 1).val, (j 1).isLt⟩)

theorem combineLin_apply (a y : (⟨2, ![N, C]⟩ : Shape).Idx → EReal) (d : (⟨2, ![N, 1]⟩ : Shape).Idx → EReal)
    (b : (⟨2, ![1, C]⟩ : Shape).Idx → EReal) (p : Fin N) (q : Fin C) :
    combineLin a y d b (ix2 p q) = d (ix2 p 0) * (a (ix2 p q) + y (ix2 p q)) + b (ix2 0 q) := rfl

/-- The same, rectified: `max · 0`. -/
def combineRelu (a y : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun j => max (combineLin a y d b j) cZero

theorem combineRelu_apply (a y : (⟨2, ![N, C]⟩ : Shape).Idx → EReal) (d : (⟨2, ![N, 1]⟩ : Shape).Idx → EReal)
    (b : (⟨2, ![1, C]⟩ : Shape).Idx → EReal) (p : Fin N) (q : Fin C) :
    combineRelu a y d b (ix2 p q) = max (d (ix2 p 0) * (a (ix2 p q) + y (ix2 p q)) + b (ix2 0 q)) cZero := rfl

end Cert.Gcn

end
-- ==== Proof.KernelSpec.lean ====
/-
  The idealized kernel's result as one function of its ten argument arrays, in the kernel's own order of work.

  From the edge array: the source and destination words of every edge (`src`, `dst`), the destination words as a
  column (`dstc`), the source words with a negative word moved up by the number of nodes, as a column (`srcn`), and
  `dis`, the reciprocal square root of (1 + the number of edges whose destination word names the node), also as a column
  (`dis2d`). One layer takes a matrix `Y` whose rows are already scaled by `dis`, collects for every node the rows of
  its in-neighbours (`agg`: pick row `srcn e` for every edge, add it into row `dst e`), and combines. The three layers:
  normalise-and-multiply, combine with rectifier; multiply, combine with rectifier; multiply, combine.
-/
import proofs.«127040_j36644660970265_2_alg».proof.KernelIdeal
import proofs.«127040_j36644660970265_2_alg».proof.Proof.Gen.KernelIdeal
import proofs.«127040_j36644660970265_2_alg».proof.Proof.Spec

noncomputable section

namespace Cert.KernelIdeal.KSpec

open Cert.KernelIdeal Cert.KernelIdeal.Facts₀ Cert.KernelIdeal.Facts Idealize.ShloMosaic

variable (x0 : FVec Ideal S65536x256 .f32) (x1 : IVec S2x524288 32) (x2 x3 : FVec Ideal S256 .f32)
  (x4 : FVec Ideal S256x128 .f32) (x5 : FVec Ideal S128 .f32) (x6 : FVec Ideal S128x128 .f32) (x7 : FVec Ideal S128 .f32)
  (x8 : FVec Ideal S128x32 .f32) (x9 : FVec Ideal S32 .f32)

/-- The source word of every edge. -/
def src : IVec S524288 32 :=
  shapeCast _ (extractStridedSlice S1x524288 ![0, 0] x1 slices_S2x524288_S1x524288_0_0) shapeCasts_S1x524288_S524288
/-- The destination word of every edge. -/
def dst : IVec S524288 32 :=
  shapeCast _ (extractStridedSlice S1x524288 ![1, 0] x1 slices_S2x524288_S1x524288_1_0) shapeCasts_S1x524288_S524288
/-- The destination words as a column. -/
def dstc : IVec S524288x1 32 := broadcastInDim S524288x1 ![0] bcast_S524288_S524288x1_0 (dst x1)
/-- The source words, a negative one moved up by 65536, as a column. -/
def srcn : IVec S524288x1 32 :=
  broadcastInDim S524288x1 ![0] bcast_S524288_S524288x1_0
    (select (cmpi .slt (src x1) (broadcastInDim S524288 ![] bcast_S_S524288 (constantI S_ 32 0#32)))
      (addi (src x1) (broadcastInDim S524288 ![] bcast_S_S524288 (constantI S_ 32 65536#32))) (src x1))
/-- One over the square root of (in-degree + 1), per node. -/
def dis : FVec Ideal S65536 .f32 :=
  Host.rsqrt (addf (Host.scatterAdd scatter_S65536_S524288x1_S524288_n_0_0_1
      (broadcastInDim S65536 ![] bcast_S_S65536 (constant S_ .f32 0x00000000#32)) (dstc x1)
      (broadcastInDim S524288 ![] bcast_S_S524288 (constant S_ .f32 0x3F800000#32)))
    (broadcastInDim S65536 ![] bcast_S_S65536 (constant S_ .f32 0x3F800000#32)))
/-- The same as a column. -/
def dis2d : FVec Ideal S65536x1 .f32 := shapeCast _ (dis x1) shapeCasts_S65536_S65536x1

/-- For every node, the sum of the rows of `Y` picked by the source words of the edges whose destination word names it
    (128 columns). -/
def agg128 (Y : FVec Ideal S65536x128 .f32) : FVec Ideal S65536x128 .f32 :=
  Host.scatterAdd scatter_S65536x128_S524288x1_S524288x128_1_0_0_1
    (broadcastInDim S65536x128 ![] bcast_S_S65536x128 (constant S_ .f32 0x00000000#32)) (dstc x1)
    (Host.gather gather_S65536x128_S524288x1_S524288x128_1_0_n_n_0_1_1128 Y (srcn x1))
/-- The same for 32 columns. -/
def agg32 (Y : FVec Ideal S65536x32 .f32) : FVec Ideal S65536x32 .f32 :=
  Host.scatterAdd scatter_S65536x32_S524288x1_S524288x32_1_0_0_1
    (broadcastInDim S65536x32 ![] bcast_S_S65536x32 (constant S_ .f32 0x00000000#32)) (dstc x1)
    (Host.gather gather_S65536x32_S524288x1_S524288x32_1_0_n_n_0_1_132 Y (srcn x1))

/-- Layer 1 before aggregation: the normalised rows times the first weights, scaled by `dis`. -/
def y1 : FVec Ideal S65536x128 .f32 :=
  Cert.Gcn.lnProd x0 (shapeCast _ x2 shapeCasts_S256_S1x256) (shapeCast _ x3 shapeCasts_S256_S1x256)
    (truncf .bf16 x4 bitsLt_bf16_f32) (dis2d x1)
/-- Layer 1. -/
def h1 : FVec Ideal S65536x128 .f32 :=
  Cert.Gcn.combineRelu (agg128 x1 (y1 x0 x1 x2 x3 x4)) (y1 x0 x1 x2 x3 x4) (dis2d x1) (shapeCast _ x5 shapeCasts_S128_S1x128)
/-- Layer 2 before aggregation. -/
def y2 : FVec Ideal S65536x128 .f32 :=
  Cert.Gcn.scaledProd (h1 x0 x1 x2 x3 x4 x5) (truncf .bf16 x6 bitsLt_bf16_f32) (dis2d x1)
/-- Layer 2. -/
def h2 : FVec Ideal S65536x128 .f32 :=
  Cert.Gcn.combineRelu (agg128 x1 (y2 x0 x1 x2 x3 x4 x5 x6)) (y2 x0 x1 x2 x3 x4 x5 x6) (dis2d x1)
    (shapeCast _ x7 shapeCasts_S128_S1x128)
/-- Layer 3 before aggregation. -/
def y3 : FVec Ideal S65536x32 .f32 :=
  Cert.Gcn.scaledProd (h2 x0 x1 x2 x3 x4 x5 x6 x7) (truncf .bf16 x8 bitsLt_bf16_f32) (dis2d x1)
/-- The result. -/
def out : FVec Ideal S65536x32 .f32 :=
  Cert.Gcn.combineLin (agg32 x1 (y3 x0 x1 x2 x3 x4 x5 x6 x7 x8)) (y3 x0 x1 x2 x3 x4 x5 x6 x7 x8) (dis2d x1)
    (shapeCast _ x9 shapeCasts_S32_S1x32)

end Cert.KernelIdeal.KSpec

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«127040_j36644660970265_2_alg».proof.Proof.LibMatmul2
import proofs.«127040_j36644660970265_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LnPayload.lean ====
/-
  The body of the fused normalise-and-multiply launch, read at one entry of its 2048 × 128 result block.

  From a 2048 × 256 block of the input, two one-row matrices, the 256 × 128 weight block and a 2048 × 1 column, the body
  sums each row of the block (kept as a column), divides by the literal 256, subtracts that mean along the row, sums the
  squares of the centred row, divides by 256 again, adds ε, takes the reciprocal square root, multiplies the centred row
  by it and by the first one-row matrix and adds the second, multiplies the result into the weight block and scales row
  r of the product by entry (r, 0) of the column. Every step is either entrywise, a row reduction, or a broadcast; so
  entry (r, q) of the result is the specification's normalised row r of the block, multiplied into column q of the weights,
  times the column's entry (r, 0). A change of float format is the identity on the extended reals.
-/
import proofs.«127040_j36644660970265_2_alg».proof.Proof.Gen.KernelIdeal.Skeleton
import proofs.«127040_j36644660970265_2_alg».proof.Proof.Spec
import proofs.«127040_j36644660970265_2_alg».proof.Proof.LibKeepdims
import proofs.«127040_j36644660970265_2_alg».proof.Proof.LibEntryReads

noncomputable section

open scoped BigOperators

namespace Cert.KernelIdeal.RegionValue

open Cert.KernelIdeal Cert.KernelIdeal.Gen Idealize.ShloMosaic Idealize.ShloMosaic.ValueIdx Cert.Gcn

variable (x0 : FVec Ideal S2048x256 .f32)

/-- The column of row means, read at (r, u): the row's sum over the literal 256. -/
theorem mean_col (r : Fin 2048) (u : Fin 1) :
    divf (shapeCast S2048x1 (multiReduction .add [1] S2048 x0 0x00000000#32 reduces_S2048x256_S2048 (.inl rfl) rfl)
        shapeCasts_S2048_S2048x1) (broadcast S2048x1 (Scalar.ofBits (F := Ideal) .f32 0x43800000#32)) (ix2 r u)
      = rowMean x0 r := by
  refine (divf_apply _ _ _).trans ?_
  refine congrArg₂ Ideal.div ?_ rfl
  refine (Cert.Lib.shapeCast_a_a1_apply _ _ r u).trans ?_
  exact Cert.Lib.rowSum_apply x0 _ _ _ _ r

/-- The block minus its row means broadcast along the rows, at (r, k): the centred row. -/
theorem centred_blk (r : Fin 2048) (k : Fin 256) :
    subf x0 (broadcastTo S2048x256
        (divf (shapeCast S2048x1 (multiReduction .add [1] S2048 x0 0x00000000#32 reduces_S2048x256_S2048 (.inl rfl) rfl)
          shapeCasts_S2048_S2048x1) (broadcast S2048x1 (Scalar.ofBits (F := Ideal) .f32 0x43800000#32)))
        broadcasts_S2048x1_S2048x256) (ix2 r k)
      = centred x0 r k := by
  refine (subf_apply _ _ _).trans ?_
  refine congrArg₂ (· - ·) rfl ?_
  refine (Cert.Lib.broadcastTo_a1_ab_apply _ _ r k).trans ?_
  exact mean_col x0 r 0

/-- The column of mean square deviations, read at (r, u). -/
theorem var_col (c : FVec Ideal S2048x256 .f32) (hc : ∀ (r : Fin 2048) (k : Fin 256), c (ix2 r k) = centred x0 r k)
    (r : Fin 2048) (u : Fin 1) :
    divf (shapeCast S2048x1 (multiReduction .add [1] S2048 (mulf c c) 0x00000000#32 reduces_S2048x256_S2048 (.inl rfl) rfl)
        shapeCasts_S2048_S2048x1) (broadcast S2048x1 (Scalar.ofBits (F := Ideal) .f32 0x43800000#32)) (ix2 r u)
      = rowVar x0 r := by
  refine (divf_apply _ _ _).trans ?_
  refine congrArg₂ Ideal.div ?_ rfl
  refine (Cert.Lib.shapeCast_a_a1_apply _ _ r u).trans ?_
  refine (Cert.Lib.rowSum_apply (mulf c c) _ _ _ _ r).trans ?_
  refine Finset.sum_congr rfl fun k _ => ?_
  refine (mulf_apply _ _ _).trans ?_
  rw [hc r k]

/-- A one-row matrix broadcast along the rows, at (r, k): its entry (0, k). -/
theorem row_bcast (v : FVec Ideal S1x256 .f32) (r : Fin 2048) (k : Fin 256) :
    broadcastTo S2048x256 (shapeCast S1x256 v shapeCasts_S1x256_S1x256) broadcasts_S1x256_S2048x256 (ix2 r k)
      = v (ix2 0 k) := by
  rw [shapeCast_self]
  refine broadcastTo_apply v _ (ix2 r k) (ix2 (0 : Fin 1) k) fun ax => ?_
  match ax with
  | ⟨0, _⟩ =>
    show (0 : ℕ) = if (1 : ℕ) = 1 then 0 else r.val
    rw [if_pos rfl]
  | ⟨1, _⟩ =>
    show k.val = if (256 : ℕ) = 1 then 0 else k.val
    rw [if_neg (by decide)]

/-- The body's result at (r, q). -/
theorem pay_ln (x1 x2 : FVec Ideal S1x256 .f32) (x3 : FVec Ideal S256x128 .bf16) (x4 : FVec Ideal S2048x1 .f32)
    (r : Fin 2048) (q : Fin 128) :
    k0_pay1 (F := Ideal) x0 x1 x2 x3 x4 (ix2 r q)
      = (∑ k : Fin 256, lnorm x0 x1 x2 r k * x3 (ix2 k q)) * x4 (ix2 r 0) := by
  unfold k0_pay1
  dsimp only
  refine (mulf_apply _ _ _).trans ?_
  refine congrArg₂ (· * ·) ?_ ?_
  · refine (Cert.Lib.matmul_plain_apply _ dot_S2048x256_S256x128_S2048x128_1_0_0_1_n_n_wf rfl _ _ r q).trans ?_
    refine Finset.sum_congr rfl fun k _ => ?_
    refine congrArg₂ (· * ·) ?_ ?_
    · refine (truncf_apply (ψ := .bf16) _ bitsLt_bf16_f32 _).trans ?_
      refine (addf_apply _ _ _).trans ?_
      refine congrArg₂ (· + ·) ?_ (row_bcast x2 r k)
      refine (mulf_apply _ _ _).trans ?_
      refine congrArg₂ (· * ·) ?_ (row_bcast x1 r k)
      refine (mulf_apply _ _ _).trans ?_
      refine congrArg₂ (· * ·) (centred_blk x0 r k) ?_
      refine (Cert.Lib.broadcastTo_a1_ab_apply _ _ r k).trans ?_
      refine (Cert.Lib.rsqrt_apply _ _).trans ?_
      refine congrArg Ideal.rsqrt ?_
      refine (addf_apply _ _ _).trans ?_
      refine congrArg₂ (· + ·) ?_ rfl
      exact var_col x0 _ (centred_blk x0) r 0
    · rw [shapeCast_self]
  · refine (Cert.Lib.broadcastTo_a1_ab_apply _ _ r q).trans ?_
    rw [shapeCast_self]

/-- The normalised row only sees its own row: if row r of `x` is row p of `A`, entry by entry, their normalised rows
    agree (the two means are sums over that row alone). -/
theorem lnorm_of_row {N N' K : ℕ} (x : (⟨2, ![N, K]⟩ : Shape).Idx → EReal) (A : (⟨2, ![N', K]⟩ : Shape).Idx → EReal)
    (lw lb : (⟨2, ![1, K]⟩ : Shape).Idx → EReal) (r : Fin N) (p : Fin N')
    (h : ∀ k : Fin K, x (ix2 r k) = A (ix2 p k)) (k : Fin K) : lnorm x lw lb r k = lnorm A lw lb p k := by
  have hm : rowMean x r = rowMean A p := by
    unfold rowMean
    rw [Finset.sum_congr rfl fun k _ => h k]
  have hc : ∀ k, centred x r k = centred A p k := fun k => by
    unfold centred
    rw [h k, hm]
  have hv : rowVar x r = rowVar A p := by
    unfold rowVar
    rw [Finset.sum_congr rfl fun k _ => by rw [hc k]]
  unfold lnorm
  rw [hc k, hv]

/-- The body's result at (r, q), when row r of its input block is row p of a taller matrix `A0` and entry (r, 0) of its
    column block is entry (p, 0) of a taller column `A4`: entry (p, q) of the whole-array function of `A0` and `A4`. -/
theorem pay_ln_of_rows (x1 x2 : FVec Ideal S1x256 .f32) (x3 : FVec Ideal S256x128 .bf16) (x4 : FVec Ideal S2048x1 .f32)
    (A0 : (⟨2, ![65536, 256]⟩ : Shape).Idx → EReal) (A4 : (⟨2, ![65536, 1]⟩ : Shape).Idx → EReal)
    (r : Fin 2048) (q : Fin 128) (p : Fin 65536)
    (h0 : ∀ k : Fin 256, x0 (ix2 r k) = A0 (ix2 p k)) (h4 : x4 (ix2 r 0) = A4 (ix2 p 0)) :
    k0_pay1 (F := Ideal) x0 x1 x2 x3 x4 (ix2 r q) = lnProd A0 x1 x2 x3 A4 (ix2 p q) := by
  rw [pay_ln, lnProd_apply, h4]
  refine congrArg (· * A4 (ix2 p 0)) ?_
  exact Finset.sum_congr rfl fun k _ => by rw [lnorm_of_row x0 A0 x1 x2 r p h0 k]

end Cert.KernelIdeal.RegionValue

end
-- ==== Proof.RegionLn.lean ====
/-
  The first launch's result array, as one function of the arrays the launch finds.

  The launch walks 32 grid points; at point t it stages rows 2048·t … 2048·t + 2047 of the input matrix and of the
  scaling column, the two one-row matrices and the weight matrix whole, and writes the body's 2048 × 128 result back to
  the same band of rows of the output. Entry (r, q) of the body's result only reads row r of its input block — row
  2048·t + r of the input matrix — and entry (r, 0) of its column block, so what point t writes back is band t of ONE
  function of the whole arrays: the specification's normalise-multiply-scale. The 32 bands tile the 65536 rows, so after
  the last point the output array is that function.
-/
import proofs.«127040_j36644660970265_2_alg».proof.Proof.PatchedKernelIdealFrame
import proofs.«127040_j36644660970265_2_alg».proof.Proof.LnPayload
import Idealize.ShloMosaic.Lib.Pipeline.Value

noncomputable section

open scoped BigOperators

namespace Cert.KernelIdeal.RegionValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

theorem hz0 : (![0, 0] : Fin 2 → Nat) = fun _ => 0 := funext fun a => by fin_cases a <;> rfl

/-- The launch's index maps, decided over the 32 points: the three banded windows sit at band t, the three whole ones
    at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of band t. -/
def bandRow (t : Fin cfg0.N) (r : Fin 2048) : Fin 65536 :=
  ⟨2048 * t.val + r.val, by have := t.isLt; have hN : cfg0.N = 32 := N_0; have := r.isLt; omega⟩

/-- The input matrix, the two one-row matrices, the weights and the scaling column as the launch finds them, and the
    function of them its output array ends holding. -/
abbrev arr0_0 (c : Dev nD) : S65536x256.Idx → EReal := V c (Pipeline.arrRef spec0 0)
abbrev arr0_1 (c : Dev nD) : S1x256.Idx → EReal := V c (Pipeline.arrRef spec0 1)
abbrev arr0_2 (c : Dev nD) : S1x256.Idx → EReal := V c (Pipeline.arrRef spec0 2)
abbrev arr0_3 (c : Dev nD) : S256x128.Idx → EReal := V c (Pipeline.arrRef spec0 3)
abbrev arr0_4 (c : Dev nD) : S65536x1.Idx → EReal := V c (Pipeline.arrRef spec0 4)
abbrev G0 (c : Dev nD) : S65536x128.Idx → EReal :=
  lnProd (arr0_0 V c) (arr0_1 V c) (arr0_2 V c) (arr0_3 V c) (arr0_4 V c)

/-- The input window's block at point t, at (r, k): row 2048·t + r of the input matrix. -/
theorem iblk0_0_apply (c : Dev nD) (t : Fin cfg0.N) (r : Fin 2048) (k : Fin 256) :
    (iblk0 V c 0 t : S2048x256.Idx → EReal) (ix2 r k) = arr0_0 V c (ix2 (bandRow t r) k) := by
  obtain ⟨e00, e01, -⟩ := idx_facts0 t
  show V c (Pipeline.arrRef spec0 0) (((cfg0.win 0).blk t).view.emb (ix2 r k)) = V c (Pipeline.arrRef spec0 0) (ix2 (bandRow t r) k)
  refine congrArg (V c (Pipeline.arrRef spec0 0)) (funext fun a => Fin.ext ?_)
  match a with
  | ⟨0, _⟩ => show win0_0.index t (0 : Fin 2) * 2048 + 1 * r.val = 2048 * t.val + r.val; omega
  | ⟨1, _⟩ => show win0_0.index t (1 : Fin 2) * 256 + 1 * k.val = k.val; omega

/-- The column window's block at point t, at (r, 0): entry (2048·t + r, 0) of the scaling column. -/
theorem iblk0_4_apply (c : Dev nD) (t : Fin cfg0.N) (r : Fin 2048) :
    (iblk0 V c 4 t : S2048x1.Idx → EReal) (ix2 r 0) = arr0_4 V c (ix2 (bandRow t r) 0) := by
  obtain ⟨-, -, -, -, -, -, -, -, e40, e41, -⟩ := idx_facts0 t
  show V c (Pipeline.arrRef spec0 4) (((cfg0.win 4).blk t).view.emb (ix2 r 0)) = V c (Pipeline.arrRef spec0 4) (ix2 (bandRow t r) 0)
  refine congrArg (V c (Pipeline.arrRef spec0 4)) (funext fun a => Fin.ext ?_)
  match a with
  | ⟨0, _⟩ => show win0_4.index t (0 : Fin 2) * 2048 + 1 * r.val = 2048 * t.val + r.val; omega
  | ⟨1, _⟩ => show win0_4.index t (1 : Fin 2) * 1 + 1 * 0 = 0; omega

/-- The three windows staged whole: their block at every point is their array. -/
theorem iblk0_1_eq (c : Dev nD) (t : Fin cfg0.N) : (iblk0 V c 1 t : S1x256.Idx → EReal) = arr0_1 V c := by
  obtain ⟨-, -, e10, e11, -⟩ := idx_facts0 t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega

theorem iblk0_2_eq (c : Dev nD) (t : Fin cfg0.N) : (iblk0 V c 2 t : S1x256.Idx → EReal) = arr0_2 V c := by
  obtain ⟨-, -, -, -, e20, e21, -⟩ := idx_facts0 t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem iblk0_3_eq (c : Dev nD) (t : Fin cfg0.N) : (iblk0 V c 3 t : S256x128.Idx → EReal) = arr0_3 V c := by
  obtain ⟨-, -, -, -, -, -, e30, e31, -⟩ := idx_facts0 t
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- The body's result of the blocks at point t, at (r, q): the whole-array function at row 2048·t + r. -/
theorem body_blk (c : Dev nD) (t : Fin cfg0.N) (r : Fin 2048) (q : Fin 128) :
    k0_pay1 (F := Ideal) (iblk0 V c 0 t) (iblk0 V c 1 t) (iblk0 V c 2 t) (iblk0 V c 3 t) (iblk0 V c 4 t) (ix2 r q)
      = G0 V c (ix2 (bandRow t r) q) := by
  refine (pay_ln_of_rows (iblk0 V c 0 t) (iblk0 V c 1 t) (iblk0 V c 2 t) (iblk0 V c 3 t) (iblk0 V c 4 t)
    (arr0_0 V c) (arr0_4 V c) r q (bandRow t r) (fun k => iblk0_0_apply V c t r k) (iblk0_4_apply V c t r)).trans ?_
  rw [iblk0_1_eq V c t, iblk0_2_eq V c t, iblk0_3_eq V c t]

/-- What point t writes back is band t of the whole-array function. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S2048x256) hz0, View.ld_unit_zero (S := S1x256) hz0,
    View.ld_unit_zero (S := S256x128) hz0, View.ld_unit_zero (S := S2048x1) hz0]
  obtain ⟨-, -, -, -, -, -, -, -, -, -, e50, e51⟩ := idx_facts0 t
  funext j
  have hj : j = ix2 (⟨(j 0).val, (j 0).isLt⟩ : Fin 2048) (⟨(j 1).val, (j 1).isLt⟩ : Fin 128) :=
    funext fun a => by match a with | ⟨0, _⟩ => rfl | ⟨1, _⟩ => rfl
  show k0_pay1 (F := Ideal) (iblk0 V c 0 t) (iblk0 V c 1 t) (iblk0 V c 2 t) (iblk0 V c 3 t) (iblk0 V c 4 t) j
    = G0 V c (((cfg0.win 5).blk t).view.emb j)
  rw [hj, body_blk V c t]
  refine congrArg (G0 V c) (funext fun a => Fin.ext ?_)
  match a with
  | ⟨0, _⟩ => show 2048 * t.val + (j 0).val = win0_5.index t (0 : Fin 2) * 2048 + 1 * (j 0).val; omega
  | ⟨1, _⟩ => show (j 1).val = win0_5.index t (1 : Fin 2) * 128 + 1 * (j 1).val; omega

/-- An index of the output array is in point t's block iff each coordinate is in the block's range on its axis. -/
theorem mem_blk0 (t : Fin cfg0.N) (i : S65536x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v20).slice (win0_5.rect t)).set ↔ _
  rw [View.set_slice_whole, Rect.mem_set_unit]
  exact Iff.rfl

/-- Every row of the output is in some band: row i of band i / 2048. -/
theorem cover0 (i : S65536x128.Idx) :
    ∃ t : Fin cfg0.N, (cfg0.win 5).flush t = true ∧ i ∈ ((cfg0.win 5).blk t).view.set := by
  have hN : cfg0.N = 32 := N_0
  have hi0 : (i 0).val < 65536 := (i 0).isLt
  have hi1 : (i 1).val < 128 := (i 1).isLt
  let t : Fin cfg0.N := ⟨(i 0).val / 2048, by rw [hN]; omega⟩
  have ht : t.val = (i 0).val / 2048 := rfl
  obtain ⟨-, -, -, -, -, -, -, -, -, -, e50, e51⟩ := idx_facts0 t
  refine ⟨t, flush0_5 t, ?_⟩
  rw [mem_blk0]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 128 ≤ (i 1).val ∧ (i 1).val < win0_5.index t (1 : Fin 2) * 128 + 128
    omega

/-- The output array after the launch: the normalised rows of the input matrix multiplied into the weights, each row
    scaled by its entry of the column. -/
theorem final0 (c : Dev nD) :
    ((dat0 (F := Ideal) V c).arrAt 5 cfg0.N : S65536x128.Idx → EReal)
      = lnProd (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 (G0 V c) (fun t _ => flushed0_eq V c t) cover0

end Cert.KernelIdeal.RegionValue

end
-- ==== Proof.RegionPayload.lean ====
/-
  The stored value of each of the five row-band bodies, read at one entry (r, q) of its band, on the extended reals.

  The two product bodies store (∑ₖ x (r, k) · w (k, q)) · d (r, 0): the band of the left operand is narrowed to the weights'
  format, which changes nothing on the extended reals, multiplied into the whole weight matrix from the zero accumulator, and
  every row of the product is scaled by the band's column of d, broadcast along the row.

  The three combining bodies store d (r, 0) · (a (r, q) + y (r, q)) + b (0, q): the column of d broadcast along the rows, the
  one-row bias broadcast down the rows; the first two then take the maximum with the zero word.

  Then each body on the blocks a band of 2048 rows gives it: if the loaded blocks are band n of the row-banded operands and
  the whole of the small ones, the stored value at (y₀, y₁) is the whole-array function at (n · 2048 + y₀, y₁).
-/
import proofs.«127040_j36644660970265_2_alg».proof.Proof.Gen.KernelIdeal.Skeleton
import proofs.«127040_j36644660970265_2_alg».proof.Proof.LibEntryReads
import proofs.«127040_j36644660970265_2_alg».proof.Proof.Spec
import Idealize.ShloMosaic.Lib.ValueLayout

noncomputable section

open scoped BigOperators

namespace Cert.KernelIdeal.RegionValue

open Cert.KernelIdeal Cert.KernelIdeal.Gen Idealize.ShloMosaic Idealize.ShloMosaic.ValueIdx

/-- The zero offsets of a whole-block access, however they are spelt. -/
theorem zero_off2 : (![0, 0] : Fin 2 → Nat) = fun _ => 0 := funext fun a => by fin_cases a <;> rfl

/-- The product body with a [128, 128] weight matrix, at (r, q). -/
theorem pay2_apply (x0 : Vec Ideal S2048x128 .f32) (x1 : Vec Ideal S128x128 .bf16) (x2 : Vec Ideal S2048x1 .f32)
    (r : Fin 2048) (q : Fin 128) :
    k2_pay1 x0 x1 x2 (ix2 r q) = (∑ k : Fin 128, x0 (ix2 r k) * x1 (ix2 k q)) * x2 (ix2 r 0) := by
  unfold k2_pay1
  rw [mulf_apply, Cert.Lib.broadcastTo_a1_ab_apply,
    Cert.Lib.matmul_plain_apply dot_S2048x128_S128x128_S2048x128_1_0_0_1_n_n dot_S2048x128_S128x128_S2048x128_1_0_0_1_n_n_wf rfl]
  simp only [shapeCast_self, truncf_apply]

/-- The product body with a [128, 32] weight matrix, at (r, q). -/
theorem pay4_apply (x0 : Vec Ideal S2048x128 .f32) (x1 : Vec Ideal S128x32 .bf16) (x2 : Vec Ideal S2048x1 .f32)
    (r : Fin 2048) (q : Fin 32) :
    k4_pay1 x0 x1 x2 (ix2 r q) = (∑ k : Fin 128, x0 (ix2 r k) * x1 (ix2 k q)) * x2 (ix2 r 0) := by
  unfold k4_pay1
  rw [mulf_apply, Cert.Lib.broadcastTo_a1_ab_apply,
    Cert.Lib.matmul_plain_apply dot_S2048x128_S128x32_S2048x32_1_0_0_1_n_n dot_S2048x128_S128x32_S2048x32_1_0_0_1_n_n_wf rfl]
  simp only [shapeCast_self, truncf_apply]

/-- The first rectified combining body, at (r, q). -/
theorem pay1_apply (v0 : Vec Ideal S2048x1 .f32) (v2 v4 : Vec Ideal S2048x128 .f32) (v9 : Vec Ideal S1x128 .f32)
    (r : Fin 2048) (q : Fin 128) :
    k1_pay1 v0 v2 v4 v9 (ix2 r q)
      = max (v0 (ix2 r 0) * (v2 (ix2 r q) + v4 (ix2 r q)) + v9 (ix2 0 q)) (Ideal.ofBits .f32 0x00000000#32) := by
  unfold k1_pay1
  rw [maximumf_apply, addf_apply, mulf_apply, addf_apply, Cert.Lib.broadcastTo_a1_ab_apply, broadcastTo_1b_ab_apply,
    broadcast_apply]
  simp only [shapeCast_self]
  rfl

/-- The second rectified combining body, at (r, q). -/
theorem pay3_apply (v0 : Vec Ideal S2048x1 .f32) (v2 v4 : Vec Ideal S2048x128 .f32) (v9 : Vec Ideal S1x128 .f32)
    (r : Fin 2048) (q : Fin 128) :
    k3_pay1 v0 v2 v4 v9 (ix2 r q)
      = max (v0 (ix2 r 0) * (v2 (ix2 r q) + v4 (ix2 r q)) + v9 (ix2 0 q)) (Ideal.ofBits .f32 0x00000000#32) := by
  unfold k3_pay1
  rw [maximumf_apply, addf_apply, mulf_apply, addf_apply, Cert.Lib.broadcastTo_a1_ab_apply, broadcastTo_1b_ab_apply,
    broadcast_apply]
  simp only [shapeCast_self]
  rfl

/-- The last combining body, without the maximum, at (r, q). -/
theorem pay5_apply (v0 : Vec Ideal S2048x1 .f32) (v2 v4 : Vec Ideal S2048x32 .f32) (v9 : Vec Ideal S1x32 .f32)
    (r : Fin 2048) (q : Fin 32) :
    k5_pay1 v0 v2 v4 v9 (ix2 r q) = v0 (ix2 r 0) * (v2 (ix2 r q) + v4 (ix2 r q)) + v9 (ix2 0 q) := by
  unfold k5_pay1
  rw [addf_apply, mulf_apply, addf_apply, Cert.Lib.broadcastTo_a1_ab_apply, broadcastTo_1b_ab_apply]
  simp only [shapeCast_self]

/-- A band of the scaled product with a [128, 128] weight matrix: when the body's three loaded blocks are band `n` of `h`, the
    whole of `w` and band `n` of the column `d`, its stored value at `y` is the scaled product at row `n · 2048 + y₀`,
    column `y₁`. -/
theorem block2 (x0 : Vec Ideal S2048x128 .f32) (x1 : Vec Ideal S128x128 .bf16) (x2 : Vec Ideal S2048x1 .f32)
    (h : S65536x128.Idx → EReal) (w : S128x128.Idx → EReal) (d : S65536x1.Idx → EReal) (n : ℕ)
    (e0 : ∀ (r : Fin 2048) (k : Fin 128) (p : Fin 65536), p.val = n * 2048 + r.val → x0 (ix2 r k) = h (ix2 p k))
    (e1 : ∀ (k : Fin 128) (q : Fin 128), x1 (ix2 k q) = w (ix2 k q))
    (e2 : ∀ (r : Fin 2048) (p : Fin 65536), p.val = n * 2048 + r.val → x2 (ix2 r 0) = d (ix2 p 0))
    (y : S2048x128.Idx) (i : S65536x128.Idx) (hi0 : (i 0).val = n * 2048 + (y 0).val) (hi1 : (i 1).val = (y 1).val) :
    k2_pay1 x0 x1 x2 y = Cert.Gcn.scaledProd h w d i := by
  obtain ⟨r, q, rfl⟩ : ∃ (r : Fin 2048) (q : Fin 128), y = ix2 r q := ⟨y 0, y 1, eq_ix2 y⟩
  obtain ⟨p, q', rfl⟩ : ∃ (p : Fin 65536) (q' : Fin 128), i = ix2 p q' := ⟨i 0, i 1, eq_ix2 i⟩
  obtain rfl : q = q' := (Fin.ext hi1).symm
  rw [pay2_apply, Cert.Gcn.scaledProd_apply, e2 r p hi0]
  refine congrArg (· * _) (Finset.sum_congr rfl fun k _ => ?_)
  rw [e0 r k p hi0, e1]

/-- A band of the scaled product with a [128, 32] weight matrix: when the body's three loaded blocks are band `n` of `h`, the
    whole of `w` and band `n` of the column `d`, its stored value at `y` is the scaled product at row `n · 2048 + y₀`,
    column `y₁`. -/
theorem block4 (x0 : Vec Ideal S2048x128 .f32) (x1 : Vec Ideal S128x32 .bf16) (x2 : Vec Ideal S2048x1 .f32)
    (h : S65536x128.Idx → EReal) (w : S128x32.Idx → EReal) (d : S65536x1.Idx → EReal) (n : ℕ)
    (e0 : ∀ (r : Fin 2048) (k : Fin 128) (p : Fin 65536), p.val = n * 2048 + r.val → x0 (ix2 r k) = h (ix2 p k))
    (e1 : ∀ (k : Fin 128) (q : Fin 32), x1 (ix2 k q) = w (ix2 k q))
    (e2 : ∀ (r : Fin 2048) (p : Fin 65536), p.val = n * 2048 + r.val → x2 (ix2 r 0) = d (ix2 p 0))
    (y : S2048x32.Idx) (i : S65536x32.Idx) (hi0 : (i 0).val = n * 2048 + (y 0).val) (hi1 : (i 1).val = (y 1).val) :
    k4_pay1 x0 x1 x2 y = Cert.Gcn.scaledProd h w d i := by
  obtain ⟨r, q, rfl⟩ : ∃ (r : Fin 2048) (q : Fin 32), y = ix2 r q := ⟨y 0, y 1, eq_ix2 y⟩
  obtain ⟨p, q', rfl⟩ : ∃ (p : Fin 65536) (q' : Fin 32), i = ix2 p q' := ⟨i 0, i 1, eq_ix2 i⟩
  obtain rfl : q = q' := (Fin.ext hi1).symm
  rw [pay4_apply, Cert.Gcn.scaledProd_apply, e2 r p hi0]
  refine congrArg (· * _) (Finset.sum_congr rfl fun k _ => ?_)
  rw [e0 r k p hi0, e1]

/-- A band of the combination over [65536, 128]: when the body's four loaded blocks are band `n` of the column `d`, band `n` of
    `a` and of `y'`, and the one-row `b`, its stored value at `y` is the combination at row `n · 2048 + y₀`, column `y₁`. -/
theorem block1 (v0 : Vec Ideal S2048x1 .f32) (v2 v4 : Vec Ideal S2048x128 .f32) (v9 : Vec Ideal S1x128 .f32)
    (a y' : S65536x128.Idx → EReal) (d : S65536x1.Idx → EReal) (b : S1x128.Idx → EReal) (n : ℕ)
    (ed : ∀ (r : Fin 2048) (p : Fin 65536), p.val = n * 2048 + r.val → v0 (ix2 r 0) = d (ix2 p 0))
    (ea : ∀ (r : Fin 2048) (q : Fin 128) (p : Fin 65536), p.val = n * 2048 + r.val → v2 (ix2 r q) = a (ix2 p q))
    (ey : ∀ (r : Fin 2048) (q : Fin 128) (p : Fin 65536), p.val = n * 2048 + r.val → v4 (ix2 r q) = y' (ix2 p q))
    (eb : ∀ q : Fin 128, v9 (ix2 0 q) = b (ix2 0 q))
    (y : S2048x128.Idx) (i : S65536x128.Idx) (hi0 : (i 0).val = n * 2048 + (y 0).val) (hi1 : (i 1).val = (y 1).val) :
    k1_pay1 v0 v2 v4 v9 y = Cert.Gcn.combineRelu a y' d b i := by
  obtain ⟨r, q, rfl⟩ : ∃ (r : Fin 2048) (q : Fin 128), y = ix2 r q := ⟨y 0, y 1, eq_ix2 y⟩
  obtain ⟨p, q', rfl⟩ : ∃ (p : Fin 65536) (q' : Fin 128), i = ix2 p q' := ⟨i 0, i 1, eq_ix2 i⟩
  obtain rfl : q = q' := (Fin.ext hi1).symm
  rw [pay1_apply, Cert.Gcn.combineRelu_apply, ed r p hi0, ea r q p hi0, ey r q p hi0, eb q]
  rfl

/-- A band of the combination over [65536, 128]: when the body's four loaded blocks are band `n` of the column `d`, band `n` of
    `a` and of `y'`, and the one-row `b`, its stored value at `y` is the combination at row `n · 2048 + y₀`, column `y₁`. -/
theorem block3 (v0 : Vec Ideal S2048x1 .f32) (v2 v4 : Vec Ideal S2048x128 .f32) (v9 : Vec Ideal S1x128 .f32)
    (a y' : S65536x128.Idx → EReal) (d : S65536x1.Idx → EReal) (b : S1x128.Idx → EReal) (n : ℕ)
    (ed : ∀ (r : Fin 2048) (p : Fin 65536), p.val = n * 2048 + r.val → v0 (ix2 r 0) = d (ix2 p 0))
    (ea : ∀ (r : Fin 2048) (q : Fin 128) (p : Fin 65536), p.val = n * 2048 + r.val → v2 (ix2 r q) = a (ix2 p q))
    (ey : ∀ (r : Fin 2048) (q : Fin 128) (p : Fin 65536), p.val = n * 2048 + r.val → v4 (ix2 r q) = y' (ix2 p q))
    (eb : ∀ q : Fin 128, v9 (ix2 0 q) = b (ix2 0 q))
    (y : S2048x128.Idx) (i : S65536x128.Idx) (hi0 : (i 0).val = n * 2048 + (y 0).val) (hi1 : (i 1).val = (y 1).val) :
    k3_pay1 v0 v2 v4 v9 y = Cert.Gcn.combineRelu a y' d b i := by
  obtain ⟨r, q, rfl⟩ : ∃ (r : Fin 2048) (q : Fin 128), y = ix2 r q := ⟨y 0, y 1, eq_ix2 y⟩
  obtain ⟨p, q', rfl⟩ : ∃ (p : Fin 65536) (q' : Fin 128), i = ix2 p q' := ⟨i 0, i 1, eq_ix2 i⟩
  obtain rfl : q = q' := (Fin.ext hi1).symm
  rw [pay3_apply, Cert.Gcn.combineRelu_apply, ed r p hi0, ea r q p hi0, ey r q p hi0, eb q]
  rfl

/-- A band of the combination over [65536, 32]: when the body's four loaded blocks are band `n` of the column `d`, band `n` of
    `a` and of `y'`, and the one-row `b`, its stored value at `y` is the combination at row `n · 2048 + y₀`, column `y₁`. -/
theorem block5 (v0 : Vec Ideal S2048x1 .f32) (v2 v4 : Vec Ideal S2048x32 .f32) (v9 : Vec Ideal S1x32 .f32)
    (a y' : S65536x32.Idx → EReal) (d : S65536x1.Idx → EReal) (b : S1x32.Idx → EReal) (n : ℕ)
    (ed : ∀ (r : Fin 2048) (p : Fin 65536), p.val = n * 2048 + r.val → v0 (ix2 r 0) = d (ix2 p 0))
    (ea : ∀ (r : Fin 2048) (q : Fin 32) (p : Fin 65536), p.val = n * 2048 + r.val → v2 (ix2 r q) = a (ix2 p q))
    (ey : ∀ (r : Fin 2048) (q : Fin 32) (p : Fin 65536), p.val = n * 2048 + r.val → v4 (ix2 r q) = y' (ix2 p q))
    (eb : ∀ q : Fin 32, v9 (ix2 0 q) = b (ix2 0 q))
    (y : S2048x32.Idx) (i : S65536x32.Idx) (hi0 : (i 0).val = n * 2048 + (y 0).val) (hi1 : (i 1).val = (y 1).val) :
    k5_pay1 v0 v2 v4 v9 y = Cert.Gcn.combineLin a y' d b i := by
  obtain ⟨r, q, rfl⟩ : ∃ (r : Fin 2048) (q : Fin 32), y = ix2 r q := ⟨y 0, y 1, eq_ix2 y⟩
  obtain ⟨p, q', rfl⟩ : ∃ (p : Fin 65536) (q' : Fin 32), i = ix2 p q' := ⟨i 0, i 1, eq_ix2 i⟩
  obtain rfl : q = q' := (Fin.ext hi1).symm
  rw [pay5_apply, Cert.Gcn.combineLin_apply, ed r p hi0, ea r q p hi0, ey r q p hi0, eb q]

end Cert.KernelIdeal.RegionValue

end
-- ==== Proof.RegionCombine.lean ====
/-
  The three combining launches as whole-array functions of what they find in memory, on the extended reals.

  Each runs over 32 points; point t stages rows t · 2048 … t · 2048 + 2047 of the two matrices a and y and of the column
  d, the whole one-row bias b, and writes the same rows of the result back. The body's stored value on those blocks is
  d (p, 0) · (a (p, q) + y (p, q)) + b (0, q) at the same rows — followed by the maximum with zero in the first two launches
  —, and the 32 bands cover the 65536 rows, so the result array ends holding that function of the four arrays.
-/
import proofs.«127040_j36644660970265_2_alg».proof.Proof.PatchedKernelIdealFrame
import proofs.«127040_j36644660970265_2_alg».proof.Proof.RegionPayload
import Idealize.ShloMosaic.Lib.Pipeline.Value

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Launch 1: the rectified combination over [65536, 128] -/

/-- The printed index maps of launch 1, decided over its 32 points: a row-banded window is at band `t`, a window kept whole
    at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0 of launch 1 at point `t` holds rows `t · 2048 …` of its array. -/
theorem iblk1_0_apply (c : Dev nD) (t : Fin cfg1.N) (r : Fin 2048) (k : Fin 128) (p : Fin 65536)
    (hp : p.val = t.val * 2048 + r.val) :
    (iblk1 V c 0 t : Vec Ideal S2048x128 .f32) (ix2 r k)
      = (V c (Pipeline.arrRef spec1 0) : S65536x128.Idx → EReal) (ix2 p k) := by
  have e := idx_facts1 t
  unfold iblk1
  rw [View.read_apply]
  show V c (Pipeline.arrRef spec1 0) _ = V c (Pipeline.arrRef spec1 0) _
  refine congrArg _ ?_
  funext a; apply Fin.ext
  match a with
  | ⟨0, _⟩ => show win1_0.index t (0 : Fin 2) * 2048 + 1 * r.val = p.val; omega
  | ⟨1, _⟩ => show win1_0.index t (1 : Fin 2) * 128 + 1 * k.val = k.val; omega

/-- Window 1 of launch 1 at point `t` holds rows `t · 2048 …` of its array. -/
theorem iblk1_1_apply (c : Dev nD) (t : Fin cfg1.N) (r : Fin 2048) (k : Fin 128) (p : Fin 65536)
    (hp : p.val = t.val * 2048 + r.val) :
    (iblk1 V c 1 t : Vec Ideal S2048x128 .f32) (ix2 r k)
      = (V c (Pipeline.arrRef spec1 1) : S65536x128.Idx → EReal) (ix2 p k) := by
  have e := idx_facts1 t
  unfold iblk1
  rw [View.read_apply]
  show V c (Pipeline.arrRef spec1 1) _ = V c (Pipeline.arrRef spec1 1) _
  refine congrArg _ ?_
  funext a; apply Fin.ext
  match a with
  | ⟨0, _⟩ => show win1_1.index t (0 : Fin 2) * 2048 + 1 * r.val = p.val; omega
  | ⟨1, _⟩ => show win1_1.index t (1 : Fin 2) * 128 + 1 * k.val = k.val; omega

/-- Window 2 of launch 1 at point `t` holds rows `t · 2048 …` of the column `d`. -/
theorem iblk1_2_apply (c : Dev nD) (t : Fin cfg1.N) (r : Fin 2048) (p : Fin 65536) (hp : p.val = t.val * 2048 + r.val) :
    (iblk1 V c 2 t : Vec Ideal S2048x1 .f32) (ix2 r 0)
      = (V c (Pipeline.arrRef spec1 2) : S65536x1.Idx → EReal) (ix2 p 0) := by
  have e := idx_facts1 t
  unfold iblk1
  rw [View.read_apply]
  show V c (Pipeline.arrRef spec1 2) _ = V c (Pipeline.arrRef spec1 2) _
  refine congrArg _ ?_
  funext a; apply Fin.ext
  match a with
  | ⟨0, _⟩ => show win1_2.index t (0 : Fin 2) * 2048 + 1 * r.val = p.val; omega
  | ⟨1, _⟩ => show win1_2.index t (1 : Fin 2) * 1 + 1 * 0 = 0; omega

/-- Window 3 of launch 1 at every point holds the whole of its array (the one-row bias). -/
theorem iblk1_3_apply (c : Dev nD) (t : Fin cfg1.N) (k : Fin 1) (q : Fin 128) :
    (iblk1 V c 3 t : Vec Ideal S1x128 .f32) (ix2 k q)
      = (V c (Pipeline.arrRef spec1 3) : S1x128.Idx → EReal) (ix2 k q) := by
  have e := idx_facts1 t
  unfold iblk1
  rw [View.read_apply]
  show V c (Pipeline.arrRef spec1 3) _ = V c (Pipeline.arrRef spec1 3) _
  refine congrArg _ ?_
  funext a; apply Fin.ext
  match a with
  | ⟨0, _⟩ => show win1_3.index t (0 : Fin 2) * 1 + 1 * k.val = k.val; omega
  | ⟨1, _⟩ => show win1_3.index t (1 : Fin 2) * 128 + 1 * q.val = q.val; omega

/-- What point `t` writes back is band `t` of the combination of the arrays as the launch finds them. -/
theorem flushed1_eq (c : Dev nD) (t : Fin cfg1.N) :
    (dat1 (F := Ideal) V c).flushed 4 t = ((cfg1.win 4).blk t).view.read (Elt Ideal)
      (Cert.Gcn.combineRelu (V c (Pipeline.arrRef spec1 0) : S65536x128.Idx → EReal)
        (V c (Pipeline.arrRef spec1 1) : S65536x128.Idx → EReal) (V c (Pipeline.arrRef spec1 2) : S65536x1.Idx → EReal)
        (V c (Pipeline.arrRef spec1 3) : S1x128.Idx → EReal)) := by
  show (cfg1.win 4).cut (grid1.coords t) ((dat1 V c).after 4 t) = _
  rw [after1_4]
  unfold out1_4
  rw [View.canon_unit_zero zero_off2]
  simp only [View.ld_unit_zero (S := S2048x128) zero_off2, View.ld_unit_zero (S := S1x128) zero_off2,
    View.ld_unit_zero (S := S2048x1) zero_off2]
  have e := idx_facts1 t
  funext j
  show k1_pay1 (iblk1 V c 2 t) (iblk1 V c 0 t) (iblk1 V c 1 t) (iblk1 V c 3 t) j
    = Cert.Gcn.combineRelu _ _ _ _ (((cfg1.win 4).blk t).view.emb j)
  refine block1 _ _ _ _ _ _ _ _ t.val (fun r p hp => iblk1_2_apply V c t r p hp)
    (fun r q p hp => iblk1_0_apply V c t r q p hp) (fun r q p hp => iblk1_1_apply V c t r q p hp)
    (fun q => iblk1_3_apply V c t 0 q) j _ ?_ ?_
  · show win1_4.index t (0 : Fin 2) * 2048 + 1 * (j 0).val = t.val * 2048 + (j 0).val; omega
  · show win1_4.index t (1 : Fin 2) * 128 + 1 * (j 1).val = (j 1).val; omega

/-- An entry of the result is in point `t`'s block iff each coordinate is in the block's range on its axis. -/
theorem mem_blk1 (t : Fin cfg1.N) (i : S65536x128.Idx) :
    i ∈ ((cfg1.win 4).blk t).view.set ↔ ∀ a : Fin 2, win1_4.index t a * S2048x128.size a ≤ (i a).val
      ∧ (i a).val < win1_4.index t a * S2048x128.size a + S2048x128.size a := by
  show i ∈ ((View.whole main_v31).slice (win1_4.rect t)).set ↔ _
  rw [View.set_slice_whole, Rect.mem_set_unit]
  exact Iff.rfl

/-- Row `r` of the result is written by point `r / 2048`: the bands cover the array. -/
theorem cover1 (i : S65536x128.Idx) :
    ∃ t : Fin cfg1.N, (cfg1.win 4).flush t = true ∧ i ∈ ((cfg1.win 4).blk t).view.set := by
  have hi0 : (i 0).val < 65536 := idx2_lt0 i
  have hi1 : (i 1).val < 128 := idx2_lt1 i
  have hN : cfg1.N = 32 := N_1
  obtain ⟨t, ht⟩ : ∃ t : Fin cfg1.N, t.val = (i 0).val / 2048 := ⟨⟨(i 0).val / 2048, by omega⟩, rfl⟩
  have e := idx_facts1 t
  refine ⟨t, flush1_4 t, ?_⟩
  rw [mem_blk1]
  intro a
  match a with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 128 ≤ (i 1).val ∧ (i 1).val < win1_4.index t (1 : Fin 2) * 128 + 128
    omega

/-- The result of launch 1 is the combination of the arrays as the launch finds them. -/
theorem final1 (c : Dev nD) :
    ((dat1 (F := Ideal) V c).arrAt 4 cfg1.N : S65536x128.Idx → EReal)
      = Cert.Gcn.combineRelu (V c (Pipeline.arrRef spec1 0) : S65536x128.Idx → EReal)
        (V c (Pipeline.arrRef spec1 1) : S65536x128.Idx → EReal) (V c (Pipeline.arrRef spec1 2) : S65536x1.Idx → EReal)
        (V c (Pipeline.arrRef spec1 3) : S1x128.Idx → EReal) :=
  (dat1 V c).arrAt_eq_of_cover 4 _ (fun t _ => flushed1_eq V c t) cover1

/-! ## Launch 3: the rectified combination over [65536, 128] -/

/-- The printed index maps of launch 3, decided over its 32 points: a row-banded window is at band `t`, a window kept whole
    at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0 of launch 3 at point `t` holds rows `t · 2048 …` of its array. -/
theorem iblk3_0_apply (c : Dev nD) (t : Fin cfg3.N) (r : Fin 2048) (k : Fin 128) (p : Fin 65536)
    (hp : p.val = t.val * 2048 + r.val) :
    (iblk3 V c 0 t : Vec Ideal S2048x128 .f32) (ix2 r k)
      = (V c (Pipeline.arrRef spec3 0) : S65536x128.Idx → EReal) (ix2 p k) := by
  have e := idx_facts3 t
  unfold iblk3
  rw [View.read_apply]
  show V c (Pipeline.arrRef spec3 0) _ = V c (Pipeline.arrRef spec3 0) _
  refine congrArg _ ?_
  funext a; apply Fin.ext
  match a with
  | ⟨0, _⟩ => show win3_0.index t (0 : Fin 2) * 2048 + 1 * r.val = p.val; omega
  | ⟨1, _⟩ => show win3_0.index t (1 : Fin 2) * 128 + 1 * k.val = k.val; omega

/-- Window 1 of launch 3 at point `t` holds rows `t · 2048 …` of its array. -/
theorem iblk3_1_apply (c : Dev nD) (t : Fin cfg3.N) (r : Fin 2048) (k : Fin 128) (p : Fin 65536)
    (hp : p.val = t.val * 2048 + r.val) :
    (iblk3 V c 1 t : Vec Ideal S2048x128 .f32) (ix2 r k)
      = (V c (Pipeline.arrRef spec3 1) : S65536x128.Idx → EReal) (ix2 p k) := by
  have e := idx_facts3 t
  unfold iblk3
  rw [View.read_apply]
  show V c (Pipeline.arrRef spec3 1) _ = V c (Pipeline.arrRef spec3 1) _
  refine congrArg _ ?_
  funext a; apply Fin.ext
  match a with
  | ⟨0, _⟩ => show win3_1.index t (0 : Fin 2) * 2048 + 1 * r.val = p.val; omega
  | ⟨1, _⟩ => show win3_1.index t (1 : Fin 2) * 128 + 1 * k.val = k.val; omega

/-- Window 2 of launch 3 at point `t` holds rows `t · 2048 …` of the column `d`. -/
theorem iblk3_2_apply (c : Dev nD) (t : Fin cfg3.N) (r : Fin 2048) (p : Fin 65536) (hp : p.val = t.val * 2048 + r.val) :
    (iblk3 V c 2 t : Vec Ideal S2048x1 .f32) (ix2 r 0)
      = (V c (Pipeline.arrRef spec3 2) : S65536x1.Idx → EReal) (ix2 p 0) := by
  have e := idx_facts3 t
  unfold iblk3
  rw [View.read_apply]
  show V c (Pipeline.arrRef spec3 2) _ = V c (Pipeline.arrRef spec3 2) _
  refine congrArg _ ?_
  funext a; apply Fin.ext
  match a with
  | ⟨0, _⟩ => show win3_2.index t (0 : Fin 2) * 2048 + 1 * r.val = p.val; omega
  | ⟨1, _⟩ => show win3_2.index t (1 : Fin 2) * 1 + 1 * 0 = 0; omega

/-- Window 3 of launch 3 at every point holds the whole of its array (the one-row bias). -/
theorem iblk3_3_apply (c : Dev nD) (t : Fin cfg3.N) (k : Fin 1) (q : Fin 128) :
    (iblk3 V c 3 t : Vec Ideal S1x128 .f32) (ix2 k q)
      = (V c (Pipeline.arrRef spec3 3) : S1x128.Idx → EReal) (ix2 k q) := by
  have e := idx_facts3 t
  unfold iblk3
  rw [View.read_apply]
  show V c (Pipeline.arrRef spec3 3) _ = V c (Pipeline.arrRef spec3 3) _
  refine congrArg _ ?_
  funext a; apply Fin.ext
  match a with
  | ⟨0, _⟩ => show win3_3.index t (0 : Fin 2) * 1 + 1 * k.val = k.val; omega
  | ⟨1, _⟩ => show win3_3.index t (1 : Fin 2) * 128 + 1 * q.val = q.val; omega

/-- What point `t` writes back is band `t` of the combination of the arrays as the launch finds them. -/
theorem flushed3_eq (c : Dev nD) (t : Fin cfg3.N) :
    (dat3 (F := Ideal) V c).flushed 4 t = ((cfg3.win 4).blk t).view.read (Elt Ideal)
      (Cert.Gcn.combineRelu (V c (Pipeline.arrRef spec3 0) : S65536x128.Idx → EReal)
        (V c (Pipeline.arrRef spec3 1) : S65536x128.Idx → EReal) (V c (Pipeline.arrRef spec3 2) : S65536x1.Idx → EReal)
        (V c (Pipeline.arrRef spec3 3) : S1x128.Idx → EReal)) := by
  show (cfg3.win 4).cut (grid3.coords t) ((dat3 V c).after 4 t) = _
  rw [after3_4]
  unfold out3_4
  rw [View.canon_unit_zero zero_off2]
  simp only [View.ld_unit_zero (S := S2048x128) zero_off2, View.ld_unit_zero (S := S1x128) zero_off2,
    View.ld_unit_zero (S := S2048x1) zero_off2]
  have e := idx_facts3 t
  funext j
  show k3_pay1 (iblk3 V c 2 t) (iblk3 V c 0 t) (iblk3 V c 1 t) (iblk3 V c 3 t) j
    = Cert.Gcn.combineRelu _ _ _ _ (((cfg3.win 4).blk t).view.emb j)
  refine block3 _ _ _ _ _ _ _ _ t.val (fun r p hp => iblk3_2_apply V c t r p hp)
    (fun r q p hp => iblk3_0_apply V c t r q p hp) (fun r q p hp => iblk3_1_apply V c t r q p hp)
    (fun q => iblk3_3_apply V c t 0 q) j _ ?_ ?_
  · show win3_4.index t (0 : Fin 2) * 2048 + 1 * (j 0).val = t.val * 2048 + (j 0).val; omega
  · show win3_4.index t (1 : Fin 2) * 128 + 1 * (j 1).val = (j 1).val; omega

/-- An entry of the result is in point `t`'s block iff each coordinate is in the block's range on its axis. -/
theorem mem_blk3 (t : Fin cfg3.N) (i : S65536x128.Idx) :
    i ∈ ((cfg3.win 4).blk t).view.set ↔ ∀ a : Fin 2, win3_4.index t a * S2048x128.size a ≤ (i a).val
      ∧ (i a).val < win3_4.index t a * S2048x128.size a + S2048x128.size a := by
  show i ∈ ((View.whole main_v43).slice (win3_4.rect t)).set ↔ _
  rw [View.set_slice_whole, Rect.mem_set_unit]
  exact Iff.rfl

/-- Row `r` of the result is written by point `r / 2048`: the bands cover the array. -/
theorem cover3 (i : S65536x128.Idx) :
    ∃ t : Fin cfg3.N, (cfg3.win 4).flush t = true ∧ i ∈ ((cfg3.win 4).blk t).view.set := by
  have hi0 : (i 0).val < 65536 := idx2_lt0 i
  have hi1 : (i 1).val < 128 := idx2_lt1 i
  have hN : cfg3.N = 32 := N_3
  obtain ⟨t, ht⟩ : ∃ t : Fin cfg3.N, t.val = (i 0).val / 2048 := ⟨⟨(i 0).val / 2048, by omega⟩, rfl⟩
  have e := idx_facts3 t
  refine ⟨t, flush3_4 t, ?_⟩
  rw [mem_blk3]
  intro a
  match a with
  | ⟨0, _⟩ =>
    show win3_4.index t (0 : Fin 2) * 2048 ≤ (i 0).val ∧ (i 0).val < win3_4.index t (0 : Fin 2) * 2048 + 2048
    omega
  | ⟨1, _⟩ =>
    show win3_4.index t (1 : Fin 2) * 128 ≤ (i 1).val ∧ (i 1).val < win3_4.index t (1 : Fin 2) * 128 + 128
    omega

/-- The result of launch 3 is the combination of the arrays as the launch finds them. -/
theorem final3 (c : Dev nD) :
    ((dat3 (F := Ideal) V c).arrAt 4 cfg3.N : S65536x128.Idx → EReal)
      = Cert.Gcn.combineRelu (V c (Pipeline.arrRef spec3 0) : S65536x128.Idx → EReal)
        (V c (Pipeline.arrRef spec3 1) : S65536x128.Idx → EReal) (V c (Pipeline.arrRef spec3 2) : S65536x1.Idx → EReal)
        (V c (Pipeline.arrRef spec3 3) : S1x128.Idx → EReal) :=
  (dat3 V c).arrAt_eq_of_cover 4 _ (fun t _ => flushed3_eq V c t) cover3

/-! ## Launch 5: the combination without the maximum over [65536, 32] -/

/-- The printed index maps of launch 5, decided over its 32 points: a row-banded window is at band `t`, a window kept whole
    at block (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0 of launch 5 at point `t` holds rows `t · 2048 …` of its array. -/
theorem iblk5_0_apply (c : Dev nD) (t : Fin cfg5.N) (r : Fin 2048) (k : Fin 32) (p : Fin 65536)
    (hp : p.val = t.val * 2048 + r.val) :
    (iblk5 V c 0 t : Vec Ideal S2048x32 .f32) (ix2 r k)
      = (V c (Pipeline.arrRef spec5 0) : S65536x32.Idx → EReal) (ix2 p k) := by
  have e := idx_facts5 t
  unfold iblk5
  rw [View.read_apply]
  show V c (Pipeline.arrRef spec5 0) _ = V c (Pipeline.arrRef spec5 0) _
  refine congrArg _ ?_
  funext a; apply Fin.ext
  match a with
  | ⟨0, _⟩ => show win5_0.index t (0 : Fin 2) * 2048 + 1 * r.val = p.val; omega
  | ⟨1, _⟩ => show win5_0.index t (1 : Fin 2) * 32 + 1 * k.val = k.val; omega

/-- Window 1 of launch 5 at point `t` holds rows `t · 2048 …` of its array. -/
theorem iblk5_1_apply (c : Dev nD) (t : Fin cfg5.N) (r : Fin 2048) (k : Fin 32) (p : Fin 65536)
    (hp : p.val = t.val * 2048 + r.val) :
    (iblk5 V c 1 t : Vec Ideal S2048x32 .f32) (ix2 r k)
      = (V c (Pipeline.arrRef spec5 1) : S65536x32.Idx → EReal) (ix2 p k) := by
  have e := idx_facts5 t
  unfold iblk5
  rw [View.read_apply]
  show V c (Pipeline.arrRef spec5 1) _ = V c (Pipeline.arrRef spec5 1) _
  refine congrArg _ ?_
  funext a; apply Fin.ext
  match a with
  | ⟨0, _⟩ => show win5_1.index t (0 : Fin 2) * 2048 + 1 * r.val = p.val; omega
  | ⟨1, _⟩ => show win5_1.index t (1 : Fin 2) * 32 + 1 * k.val = k.val; omega

/-- Window 2 of launch 5 at point `t` holds rows `t · 2048 …` of the column `d`. -/
theorem iblk5_2_apply (c : Dev nD) (t : Fin cfg5.N) (r : Fin 2048) (p : Fin 65536) (hp : p.val = t.val * 2048 + r.val) :
    (iblk5 V c 2 t : Vec Ideal S2048x1 .f32) (ix2 r 0)
      = (V c (Pipeline.arrRef spec5 2) : S65536x1.Idx → EReal) (ix2 p 0) := by
  have e := idx_facts5 t
  unfold iblk5
  rw [View.read_apply]
  show V c (Pipeline.arrRef spec5 2) _ = V c (Pipeline.arrRef spec5 2) _
  refine congrArg _ ?_
  funext a; apply Fin.ext
  match a with
  | ⟨0, _⟩ => show win5_2.index t (0 : Fin 2) * 2048 + 1 * r.val = p.val; omega
  | ⟨1, _⟩ => show win5_2.index t (1 : Fin 2) * 1 + 1 * 0 = 0; omega

/-- Window 3 of launch 5 at every point holds the whole of its array (the one-row bias). -/
theorem iblk5_3_apply (c : Dev nD) (t : Fin cfg5.N) (k : Fin 1) (q : Fin 32) :
    (iblk5 V c 3 t : Vec Ideal S1x32 .f32) (ix2 k q)
      = (V c (Pipeline.arrRef spec5 3) : S1x32.Idx → EReal) (ix2 k q) := by
  have e := idx_facts5 t
  unfold iblk5
  rw [View.read_apply]
  show V c (Pipeline.arrRef spec5 3) _ = V c (Pipeline.arrRef spec5 3) _
  refine congrArg _ ?_
  funext a; apply Fin.ext
  match a with
  | ⟨0, _⟩ => show win5_3.index t (0 : Fin 2) * 1 + 1 * k.val = k.val; omega
  | ⟨1, _⟩ => show win5_3.index t (1 : Fin 2) * 32 + 1 * q.val = q.val; omega

/-- What point `t` writes back is band `t` of the combination of the arrays as the launch finds them. -/
theorem flushed5_eq (c : Dev nD) (t : Fin cfg5.N) :
    (dat5 (F := Ideal) V c).flushed 4 t = ((cfg5.win 4).blk t).view.read (Elt Ideal)
      (Cert.Gcn.combineLin (V c (Pipeline.arrRef spec5 0) : S65536x32.Idx → EReal)
        (V c (Pipeline.arrRef spec5 1) : S65536x32.Idx → EReal) (V c (Pipeline.arrRef spec5 2) : S65536x1.Idx → EReal)
        (V c (Pipeline.arrRef spec5 3) : S1x32.Idx → EReal)) := by
  show (cfg5.win 4).cut (grid5.coords t) ((dat5 V c).after 4 t) = _
  rw [after5_4]
  unfold out5_4
  rw [View.canon_unit_zero zero_off2]
  simp only [View.ld_unit_zero (S := S2048x32) zero_off2, View.ld_unit_zero (S := S1x32) zero_off2,
    View.ld_unit_zero (S := S2048x1) zero_off2]
  have e := idx_facts5 t
  funext j
  show k5_pay1 (iblk5 V c 2 t) (iblk5 V c 0 t) (iblk5 V c 1 t) (iblk5 V c 3 t) j
    = Cert.Gcn.combineLin _ _ _ _ (((cfg5.win 4).blk t).view.emb j)
  refine block5 _ _ _ _ _ _ _ _ t.val (fun r p hp => iblk5_2_apply V c t r p hp)
    (fun r q p hp => iblk5_0_apply V c t r q p hp) (fun r q p hp => iblk5_1_apply V c t r q p hp)
    (fun q => iblk5_3_apply V c t 0 q) j _ ?_ ?_
  · show win5_4.index t (0 : Fin 2) * 2048 + 1 * (j 0).val = t.val * 2048 + (j 0).val; omega
  · show win5_4.index t (1 : Fin 2) * 32 + 1 * (j 1).val = (j 1).val; omega

/-- An entry of the result is in point `t`'s block iff each coordinate is in the block's range on its axis. -/
theorem mem_blk5 (t : Fin cfg5.N) (i : S65536x32.Idx) :
    i ∈ ((cfg5.win 4).blk t).view.set ↔ ∀ a : Fin 2, win5_4.index t a * S2048x32.size a ≤ (i a).val
      ∧ (i a).val < win5_4.index t a * S2048x32.size a + S2048x32.size a := by
  show i ∈ ((View.whole main_v55).slice (win5_4.rect t)).set ↔ _
  rw [View.set_slice_whole, Rect.mem_set_unit]
  exact Iff.rfl

/-- Row `r` of the result is written by point `r / 2048`: the bands cover the array. -/
theorem cover5 (i : S65536x32.Idx) :
    ∃ t : Fin cfg5.N, (cfg5.win 4).flush t = true ∧ i ∈ ((cfg5.win 4).blk t).view.set := by
  have hi0 : (i 0).val < 65536 := idx2_lt0 i
  have hi1 : (i 1).val < 32 := idx2_lt1 i
  have hN : cfg5.N = 32 := N_5
  obtain ⟨t, ht⟩ : ∃ t : Fin cfg5.N, t.val = (i 0).val / 2048 := ⟨⟨(i 0).val / 2048, by omega⟩, rfl⟩
  have e := idx_facts5 t
  refine ⟨t, flush5_4 t, ?_⟩
  rw [mem_blk5]
  intro a
  match a with
  | ⟨0, _⟩ =>
    show win5_4.index t (0 : Fin 2) * 2048 ≤ (i 0).val ∧ (i 0).val < win5_4.index t (0 : Fin 2) * 2048 + 2048
    omega
  | ⟨1, _⟩ =>
    show win5_4.index t (1 : Fin 2) * 32 ≤ (i 1).val ∧ (i 1).val < win5_4.index t (1 : Fin 2) * 32 + 32
    omega

/-- The result of launch 5 is the combination of the arrays as the launch finds them. -/
theorem final5 (c : Dev nD) :
    ((dat5 (F := Ideal) V c).arrAt 4 cfg5.N : S65536x32.Idx → EReal)
      = Cert.Gcn.combineLin (V c (Pipeline.arrRef spec5 0) : S65536x32.Idx → EReal)
        (V c (Pipeline.arrRef spec5 1) : S65536x32.Idx → EReal) (V c (Pipeline.arrRef spec5 2) : S65536x1.Idx → EReal)
        (V c (Pipeline.arrRef spec5 3) : S1x32.Idx → EReal) :=
  (dat5 V c).arrAt_eq_of_cover 4 _ (fun t _ => flushed5_eq V c t) cover5

end Cert.KernelIdeal.RegionValue

end
-- ==== Proof.RegionMatmul.lean ====
/-
  The two product launches as whole-array functions of what they find in memory, on the extended reals.

  Each runs over 32 points; point t stages rows t · 2048 … t · 2048 + 2047 of the left operand and of the column d, the
  whole weight matrix, and writes the same rows of the result back. The body's stored value on those blocks is the scaled
  product at the same rows, and the 32 bands cover the 65536 rows: the result array ends holding
  (p, q) ↦ (∑ₖ h (p, k) · w (k, q)) · d (p, 0).
-/
import proofs.«127040_j36644660970265_2_alg».proof.Proof.PatchedKernelIdealFrame
import proofs.«127040_j36644660970265_2_alg».proof.Proof.RegionPayload
import Idealize.ShloMosaic.Lib.Pipeline.Value

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Launch 2: the scaled product with a [128, 128] weight matrix -/

/-- The printed index maps of launch 2, decided over its 32 points: a row-banded window is at band `t`, a window kept whole
    at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Window 0 of launch 2 at point `t` holds rows `t · 2048 …` of its array. -/
theorem iblk2_0_apply (c : Dev nD) (t : Fin cfg2.N) (r : Fin 2048) (k : Fin 128) (p : Fin 65536)
    (hp : p.val = t.val * 2048 + r.val) :
    (iblk2 V c 0 t : Vec Ideal S2048x128 .f32) (ix2 r k)
      = (V c (Pipeline.arrRef spec2 0) : S65536x128.Idx → EReal) (ix2 p k) := by
  have e := idx_facts2 t
  unfold iblk2
  rw [View.read_apply]
  show V c (Pipeline.arrRef spec2 0) _ = V c (Pipeline.arrRef spec2 0) _
  refine congrArg _ ?_
  funext a; apply Fin.ext
  match a with
  | ⟨0, _⟩ => show win2_0.index t (0 : Fin 2) * 2048 + 1 * r.val = p.val; omega
  | ⟨1, _⟩ => show win2_0.index t (1 : Fin 2) * 128 + 1 * k.val = k.val; omega

/-- Window 1 of launch 2 at every point holds the whole of its array (the weights). -/
theorem iblk2_1_apply (c : Dev nD) (t : Fin cfg2.N) (k : Fin 128) (q : Fin 128) :
    (iblk2 V c 1 t : Vec Ideal S128x128 .bf16) (ix2 k q)
      = (V c (Pipeline.arrRef spec2 1) : S128x128.Idx → EReal) (ix2 k q) := by
  have e := idx_facts2 t
  unfold iblk2
  rw [View.read_apply]
  show V c (Pipeline.arrRef spec2 1) _ = V c (Pipeline.arrRef spec2 1) _
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Window 2 of launch 2 at point `t` holds rows `t · 2048 …` of the column `d`. -/
theorem iblk2_2_apply (c : Dev nD) (t : Fin cfg2.N) (r : Fin 2048) (p : Fin 65536) (hp : p.val = t.val * 2048 + r.val) :
    (iblk2 V c 2 t : Vec Ideal S2048x1 .f32) (ix2 r 0)
      = (V c (Pipeline.arrRef spec2 2) : S65536x1.Idx → EReal) (ix2 p 0) := by
  have e := idx_facts2 t
  unfold iblk2
  rw [View.read_apply]
  show V c (Pipeline.arrRef spec2 2) _ = V c (Pipeline.arrRef spec2 2) _
  refine congrArg _ ?_
  funext a; apply Fin.ext
  match a with
  | ⟨0, _⟩ => show win2_2.index t (0 : Fin 2) * 2048 + 1 * r.val = p.val; omega
  | ⟨1, _⟩ => show win2_2.index t (1 : Fin 2) * 1 + 1 * 0 = 0; omega

/-- What point `t` writes back is band `t` of the scaled product of the arrays as the launch finds them. -/
theorem flushed2_eq (c : Dev nD) (t : Fin cfg2.N) :
    (dat2 (F := Ideal) V c).flushed 3 t = ((cfg2.win 3).blk t).view.read (Elt Ideal)
      (Cert.Gcn.scaledProd (V c (Pipeline.arrRef spec2 0) : S65536x128.Idx → EReal)
        (V c (Pipeline.arrRef spec2 1) : S128x128.Idx → EReal) (V c (Pipeline.arrRef spec2 2) : S65536x1.Idx → EReal)) := by
  show (cfg2.win 3).cut (grid2.coords t) ((dat2 V c).after 3 t) = _
  rw [after2_3]
  unfold out2_3
  rw [View.canon_unit_zero zero_off2]
  simp only [View.ld_unit_zero (S := S2048x128) zero_off2, View.ld_unit_zero (S := S128x128) zero_off2,
    View.ld_unit_zero (S := S2048x1) zero_off2]
  have e := idx_facts2 t
  funext j
  show k2_pay1 (iblk2 V c 0 t) (iblk2 V c 1 t) (iblk2 V c 2 t) j
    = Cert.Gcn.scaledProd _ _ _ (((cfg2.win 3).blk t).view.emb j)
  refine block2 _ _ _ _ _ _ t.val (fun r k p hp => iblk2_0_apply V c t r k p hp) (fun k q => iblk2_1_apply V c t k q)
    (fun r p hp => iblk2_2_apply V c t r p hp) j _ ?_ ?_
  · show win2_3.index t (0 : Fin 2) * 2048 + 1 * (j 0).val = t.val * 2048 + (j 0).val; omega
  · show win2_3.index t (1 : Fin 2) * 128 + 1 * (j 1).val = (j 1).val; omega

/-- An entry of the result is in point `t`'s block iff each coordinate is in the block's range on its axis. -/
theorem mem_blk2 (t : Fin cfg2.N) (i : S65536x128.Idx) :
    i ∈ ((cfg2.win 3).blk t).view.set ↔ ∀ a : Fin 2, win2_3.index t a * S2048x128.size a ≤ (i a).val
      ∧ (i a).val < win2_3.index t a * S2048x128.size a + S2048x128.size a := by
  show i ∈ ((View.whole main_v32).slice (win2_3.rect t)).set ↔ _
  rw [View.set_slice_whole, Rect.mem_set_unit]
  exact Iff.rfl

/-- Row `r` of the result is written by point `r / 2048`: the bands cover the array. -/
theorem cover2 (i : S65536x128.Idx) :
    ∃ t : Fin cfg2.N, (cfg2.win 3).flush t = true ∧ i ∈ ((cfg2.win 3).blk t).view.set := by
  have hi0 : (i 0).val < 65536 := idx2_lt0 i
  have hi1 : (i 1).val < 128 := idx2_lt1 i
  have hN : cfg2.N = 32 := N_2
  obtain ⟨t, ht⟩ : ∃ t : Fin cfg2.N, t.val = (i 0).val / 2048 := ⟨⟨(i 0).val / 2048, by omega⟩, rfl⟩
  have e := idx_facts2 t
  refine ⟨t, flush2_3 t, ?_⟩
  rw [mem_blk2]
  intro a
  match a with
  | ⟨0, _⟩ =>
    show win2_3.index t (0 : Fin 2) * 2048 ≤ (i 0).val ∧ (i 0).val < win2_3.index t (0 : Fin 2) * 2048 + 2048
    omega
  | ⟨1, _⟩ =>
    show win2_3.index t (1 : Fin 2) * 128 ≤ (i 1).val ∧ (i 1).val < win2_3.index t (1 : Fin 2) * 128 + 128
    omega

/-- The result of launch 2 is the scaled product of the arrays as the launch finds them. -/
theorem final2 (c : Dev nD) :
    ((dat2 (F := Ideal) V c).arrAt 3 cfg2.N : S65536x128.Idx → EReal)
      = Cert.Gcn.scaledProd (V c (Pipeline.arrRef spec2 0) : S65536x128.Idx → EReal)
        (V c (Pipeline.arrRef spec2 1) : S128x128.Idx → EReal) (V c (Pipeline.arrRef spec2 2) : S65536x1.Idx → EReal) :=
  (dat2 V c).arrAt_eq_of_cover 3 _ (fun t _ => flushed2_eq V c t) cover2

/-! ## Launch 4: the scaled product with a [128, 32] weight matrix -/

/-- The printed index maps of launch 4, decided over its 32 points: a row-banded window is at band `t`, a window kept whole
    at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Window 0 of launch 4 at point `t` holds rows `t · 2048 …` of its array. -/
theorem iblk4_0_apply (c : Dev nD) (t : Fin cfg4.N) (r : Fin 2048) (k : Fin 128) (p : Fin 65536)
    (hp : p.val = t.val * 2048 + r.val) :
    (iblk4 V c 0 t : Vec Ideal S2048x128 .f32) (ix2 r k)
      = (V c (Pipeline.arrRef spec4 0) : S65536x128.Idx → EReal) (ix2 p k) := by
  have e := idx_facts4 t
  unfold iblk4
  rw [View.read_apply]
  show V c (Pipeline.arrRef spec4 0) _ = V c (Pipeline.arrRef spec4 0) _
  refine congrArg _ ?_
  funext a; apply Fin.ext
  match a with
  | ⟨0, _⟩ => show win4_0.index t (0 : Fin 2) * 2048 + 1 * r.val = p.val; omega
  | ⟨1, _⟩ => show win4_0.index t (1 : Fin 2) * 128 + 1 * k.val = k.val; omega

/-- Window 1 of launch 4 at every point holds the whole of its array (the weights). -/
theorem iblk4_1_apply (c : Dev nD) (t : Fin cfg4.N) (k : Fin 128) (q : Fin 32) :
    (iblk4 V c 1 t : Vec Ideal S128x32 .bf16) (ix2 k q)
      = (V c (Pipeline.arrRef spec4 1) : S128x32.Idx → EReal) (ix2 k q) := by
  have e := idx_facts4 t
  unfold iblk4
  rw [View.read_apply]
  show V c (Pipeline.arrRef spec4 1) _ = V c (Pipeline.arrRef spec4 1) _
  refine congrArg _ ?_
  funext a; apply Fin.ext
  match a with
  | ⟨0, _⟩ => show win4_1.index t (0 : Fin 2) * 128 + 1 * k.val = k.val; omega
  | ⟨1, _⟩ => show win4_1.index t (1 : Fin 2) * 32 + 1 * q.val = q.val; omega

/-- Window 2 of launch 4 at point `t` holds rows `t · 2048 …` of the column `d`. -/
theorem iblk4_2_apply (c : Dev nD) (t : Fin cfg4.N) (r : Fin 2048) (p : Fin 65536) (hp : p.val = t.val * 2048 + r.val) :
    (iblk4 V c 2 t : Vec Ideal S2048x1 .f32) (ix2 r 0)
      = (V c (Pipeline.arrRef spec4 2) : S65536x1.Idx → EReal) (ix2 p 0) := by
  have e := idx_facts4 t
  unfold iblk4
  rw [View.read_apply]
  show V c (Pipeline.arrRef spec4 2) _ = V c (Pipeline.arrRef spec4 2) _
  refine congrArg _ ?_
  funext a; apply Fin.ext
  match a with
  | ⟨0, _⟩ => show win4_2.index t (0 : Fin 2) * 2048 + 1 * r.val = p.val; omega
  | ⟨1, _⟩ => show win4_2.index t (1 : Fin 2) * 1 + 1 * 0 = 0; omega

/-- What point `t` writes back is band `t` of the scaled product of the arrays as the launch finds them. -/
theorem flushed4_eq (c : Dev nD) (t : Fin cfg4.N) :
    (dat4 (F := Ideal) V c).flushed 3 t = ((cfg4.win 3).blk t).view.read (Elt Ideal)
      (Cert.Gcn.scaledProd (V c (Pipeline.arrRef spec4 0) : S65536x128.Idx → EReal)
        (V c (Pipeline.arrRef spec4 1) : S128x32.Idx → EReal) (V c (Pipeline.arrRef spec4 2) : S65536x1.Idx → EReal)) := by
  show (cfg4.win 3).cut (grid4.coords t) ((dat4 V c).after 3 t) = _
  rw [after4_3]
  unfold out4_3
  rw [View.canon_unit_zero zero_off2]
  simp only [View.ld_unit_zero (S := S2048x128) zero_off2, View.ld_unit_zero (S := S128x32) zero_off2,
    View.ld_unit_zero (S := S2048x1) zero_off2]
  have e := idx_facts4 t
  funext j
  show k4_pay1 (iblk4 V c 0 t) (iblk4 V c 1 t) (iblk4 V c 2 t) j
    = Cert.Gcn.scaledProd _ _ _ (((cfg4.win 3).blk t).view.emb j)
  refine block4 _ _ _ _ _ _ t.val (fun r k p hp => iblk4_0_apply V c t r k p hp) (fun k q => iblk4_1_apply V c t k q)
    (fun r p hp => iblk4_2_apply V c t r p hp) j _ ?_ ?_
  · show win4_3.index t (0 : Fin 2) * 2048 + 1 * (j 0).val = t.val * 2048 + (j 0).val; omega
  · show win4_3.index t (1 : Fin 2) * 32 + 1 * (j 1).val = (j 1).val; omega

/-- An entry of the result is in point `t`'s block iff each coordinate is in the block's range on its axis. -/
theorem mem_blk4 (t : Fin cfg4.N) (i : S65536x32.Idx) :
    i ∈ ((cfg4.win 3).blk t).view.set ↔ ∀ a : Fin 2, win4_3.index t a * S2048x32.size a ≤ (i a).val
      ∧ (i a).val < win4_3.index t a * S2048x32.size a + S2048x32.size a := by
  show i ∈ ((View.whole main_v44).slice (win4_3.rect t)).set ↔ _
  rw [View.set_slice_whole, Rect.mem_set_unit]
  exact Iff.rfl

/-- Row `r` of the result is written by point `r / 2048`: the bands cover the array. -/
theorem cover4 (i : S65536x32.Idx) :
    ∃ t : Fin cfg4.N, (cfg4.win 3).flush t = true ∧ i ∈ ((cfg4.win 3).blk t).view.set := by
  have hi0 : (i 0).val < 65536 := idx2_lt0 i
  have hi1 : (i 1).val < 32 := idx2_lt1 i
  have hN : cfg4.N = 32 := N_4
  obtain ⟨t, ht⟩ : ∃ t : Fin cfg4.N, t.val = (i 0).val / 2048 := ⟨⟨(i 0).val / 2048, by omega⟩, rfl⟩
  have e := idx_facts4 t
  refine ⟨t, flush4_3 t, ?_⟩
  rw [mem_blk4]
  intro a
  match a with
  | ⟨0, _⟩ =>
    show win4_3.index t (0 : Fin 2) * 2048 ≤ (i 0).val ∧ (i 0).val < win4_3.index t (0 : Fin 2) * 2048 + 2048
    omega
  | ⟨1, _⟩ =>
    show win4_3.index t (1 : Fin 2) * 32 ≤ (i 1).val ∧ (i 1).val < win4_3.index t (1 : Fin 2) * 32 + 32
    omega

/-- The result of launch 4 is the scaled product of the arrays as the launch finds them. -/
theorem final4 (c : Dev nD) :
    ((dat4 (F := Ideal) V c).arrAt 3 cfg4.N : S65536x32.Idx → EReal)
      = Cert.Gcn.scaledProd (V c (Pipeline.arrRef spec4 0) : S65536x128.Idx → EReal)
        (V c (Pipeline.arrRef spec4 1) : S128x32.Idx → EReal) (V c (Pipeline.arrRef spec4 2) : S65536x1.Idx → EReal) :=
  (dat4 V c).arrAt_eq_of_cover 3 _ (fun t _ => flushed4_eq V c t) cover4

end Cert.KernelIdeal.RegionValue

end
-- ==== Proof.KernelFold.lean ====
/-
  The last boundary's contents at the result array, computed from the arguments.

  Walking the run boundary by boundary: the first stretch of host operations cuts the two index vectors out of the edge
  array, counts the in-degrees and takes their reciprocal square roots, and recasts the small operands; each launch
  leaves in its output array the whole-array function of its input arrays that its bands add up to; each later stretch
  picks the rows named by the source words and adds them into the rows named by the destination words. Every buffer a
  step reads is either produced by the step before or carried unchanged from where it was produced, so the contents at
  each boundary are the specification's terms of the argument arrays, and the result array ends at its last term.
-/
import proofs.«127040_j36644660970265_2_alg».proof.Proof.KernelKeep
import proofs.«127040_j36644660970265_2_alg».proof.Proof.KernelSpec
import proofs.«127040_j36644660970265_2_alg».proof.Proof.RegionLn
import proofs.«127040_j36644660970265_2_alg».proof.Proof.RegionCombine
import proofs.«127040_j36644660970265_2_alg».proof.Proof.RegionMatmul

set_option maxRecDepth 16384

noncomputable section

namespace Cert.KernelIdeal.Named

open Cert.KernelIdeal Cert.KernelIdeal.Facts₀ Cert.KernelIdeal.Facts Cert.KernelIdeal.GenP
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg) (c : Dev nD)

theorem w1_v1 : W1 m ρ c (Proc.devRef .tc main_v1) = KSpec.src (m ((c.tc : Thread nD τ).loc main_arg1)) := by
  show StableHlo.after hostOps0 (W0 m ρ c) (Proc.devRef .tc main_v1) = _
  simp only [hostOps0]
  after_results
  all_goals rfl
theorem w1_v3 : W1 m ρ c (Proc.devRef .tc main_v3) = KSpec.dst (m ((c.tc : Thread nD τ).loc main_arg1)) := by
  show StableHlo.after hostOps0 (W0 m ρ c) (Proc.devRef .tc main_v3) = _
  simp only [hostOps0]
  after_results
  all_goals rfl
theorem w1_v11 : W1 m ρ c (Proc.devRef .tc main_v11) = KSpec.dis2d (m ((c.tc : Thread nD τ).loc main_arg1)) := by
  show StableHlo.after hostOps0 (W0 m ρ c) (Proc.devRef .tc main_v11) = _
  simp only [hostOps0]
  after_results
  all_goals rfl
theorem w1_v12 : W1 m ρ c (Proc.devRef .tc main_v12) = shapeCast _ (m ((c.tc : Thread nD τ).loc main_arg2)) shapeCasts_S256_S1x256 := by
  show StableHlo.after hostOps0 (W0 m ρ c) (Proc.devRef .tc main_v12) = _
  simp only [hostOps0]
  after_results
  all_goals rfl
theorem w1_v13 : W1 m ρ c (Proc.devRef .tc main_v13) = shapeCast _ (m ((c.tc : Thread nD τ).loc main_arg3)) shapeCasts_S256_S1x256 := by
  show StableHlo.after hostOps0 (W0 m ρ c) (Proc.devRef .tc main_v13) = _
  simp only [hostOps0]
  after_results
  all_goals rfl
theorem w1_v14 : W1 m ρ c (Proc.devRef .tc main_v14) = shapeCast _ (m ((c.tc : Thread nD τ).loc main_arg5)) shapeCasts_S128_S1x128 := by
  show StableHlo.after hostOps0 (W0 m ρ c) (Proc.devRef .tc main_v14) = _
  simp only [hostOps0]
  after_results
  all_goals rfl
theorem w1_v15 : W1 m ρ c (Proc.devRef .tc main_v15) = shapeCast _ (m ((c.tc : Thread nD τ).loc main_arg7)) shapeCasts_S128_S1x128 := by
  show StableHlo.after hostOps0 (W0 m ρ c) (Proc.devRef .tc main_v15) = _
  simp only [hostOps0]
  after_results
  all_goals rfl
theorem w1_v16 : W1 m ρ c (Proc.devRef .tc main_v16) = shapeCast _ (m ((c.tc : Thread nD τ).loc main_arg9)) shapeCasts_S32_S1x32 := by
  show StableHlo.after hostOps0 (W0 m ρ c) (Proc.devRef .tc main_v16) = _
  simp only [hostOps0]
  after_results
  all_goals rfl
theorem w1_v17 : W1 m ρ c (Proc.devRef .tc main_v17) = (truncf .bf16 ((m ((c.tc : Thread nD τ).loc main_arg4)) : FVec Ideal S256x128 .f32) bitsLt_bf16_f32 : FVec Ideal S256x128 .bf16) := by
  show StableHlo.after hostOps0 (W0 m ρ c) (Proc.devRef .tc main_v17) = _
  simp only [hostOps0]
  after_results
  all_goals rfl
theorem w1_v18 : W1 m ρ c (Proc.devRef .tc main_v18) = (truncf .bf16 ((m ((c.tc : Thread nD τ).loc main_arg6)) : FVec Ideal S128x128 .f32) bitsLt_bf16_f32 : FVec Ideal S128x128 .bf16) := by
  show StableHlo.after hostOps0 (W0 m ρ c) (Proc.devRef .tc main_v18) = _
  simp only [hostOps0]
  after_results
  all_goals rfl
theorem w1_v19 : W1 m ρ c (Proc.devRef .tc main_v19) = (truncf .bf16 ((m ((c.tc : Thread nD τ).loc main_arg8)) : FVec Ideal S128x32 .f32) bitsLt_bf16_f32 : FVec Ideal S128x32 .bf16) := by
  show StableHlo.after hostOps0 (W0 m ρ c) (Proc.devRef .tc main_v19) = _
  simp only [hostOps0]
  after_results
  all_goals rfl
theorem w1_arg0 : W1 m ρ c (Proc.devRef .tc main_arg0) = (m ((c.tc : Thread nD τ).loc main_arg0)) := (keep_arg0_1 m ρ c).trans rfl
theorem w2_v20 : W2 m ρ c (Proc.devRef .tc main_v20) = KSpec.y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((RegionValue.final0 (V1 m ρ) c).trans ?_)
  show Cert.Gcn.lnProd (W1 m ρ c (Proc.devRef .tc main_arg0)) (W1 m ρ c (Proc.devRef .tc main_v12)) (W1 m ρ c (Proc.devRef .tc main_v13)) (W1 m ρ c (Proc.devRef .tc main_v17)) (W1 m ρ c (Proc.devRef .tc main_v11)) = _
  rw [w1_arg0 m ρ c, w1_v12 m ρ c, w1_v13 m ρ c, w1_v17 m ρ c, w1_v11 m ρ c]
  rfl
theorem w2_v1 : W2 m ρ c (Proc.devRef .tc main_v1) = KSpec.src (m ((c.tc : Thread nD τ).loc main_arg1)) := (keep_v1_2 m ρ c).trans (w1_v1 m ρ c)
theorem w2_v3 : W2 m ρ c (Proc.devRef .tc main_v3) = KSpec.dst (m ((c.tc : Thread nD τ).loc main_arg1)) := (keep_v3_2 m ρ c).trans (w1_v3 m ρ c)
set_option maxHeartbeats 2000000 in
theorem w3_v30 : W3 m ρ c (Proc.devRef .tc main_v30) = KSpec.agg128 (m ((c.tc : Thread nD τ).loc main_arg1)) (KSpec.y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps1 (W2 m ρ c) (Proc.devRef .tc main_v30) = _
  generalize hW : W2 m ρ c = Wv
  simp only [hostOps1]
  after_results
  subst hW
  rw [w2_v3 m ρ c, w2_v20 m ρ c, w2_v1 m ρ c]
  all_goals rfl
theorem w3_v20 : W3 m ρ c (Proc.devRef .tc main_v20) = KSpec.y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (keep_v20_3 m ρ c).trans (w2_v20 m ρ c)
theorem w3_v11 : W3 m ρ c (Proc.devRef .tc main_v11) = KSpec.dis2d (m ((c.tc : Thread nD τ).loc main_arg1)) := ((keep_v11_3 m ρ c).trans (keep_v11_2 m ρ c)).trans (w1_v11 m ρ c)
theorem w3_v14 : W3 m ρ c (Proc.devRef .tc main_v14) = shapeCast _ (m ((c.tc : Thread nD τ).loc main_arg5)) shapeCasts_S128_S1x128 := ((keep_v14_3 m ρ c).trans (keep_v14_2 m ρ c)).trans (w1_v14 m ρ c)
theorem w4_v31 : W4 m ρ c (Proc.devRef .tc main_v31) = KSpec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 4).trans ((RegionValue.final1 (V3 m ρ) c).trans ?_)
  show Cert.Gcn.combineRelu (W3 m ρ c (Proc.devRef .tc main_v30)) (W3 m ρ c (Proc.devRef .tc main_v20)) (W3 m ρ c (Proc.devRef .tc main_v11)) (W3 m ρ c (Proc.devRef .tc main_v14)) = _
  rw [w3_v30 m ρ c, w3_v20 m ρ c, w3_v11 m ρ c, w3_v14 m ρ c]
  rfl
theorem w4_v18 : W4 m ρ c (Proc.devRef .tc main_v18) = (truncf .bf16 ((m ((c.tc : Thread nD τ).loc main_arg6)) : FVec Ideal S128x128 .f32) bitsLt_bf16_f32 : FVec Ideal S128x128 .bf16) := (((keep_v18_4 m ρ c).trans (keep_v18_3 m ρ c)).trans (keep_v18_2 m ρ c)).trans (w1_v18 m ρ c)
theorem w4_v11 : W4 m ρ c (Proc.devRef .tc main_v11) = KSpec.dis2d (m ((c.tc : Thread nD τ).loc main_arg1)) := (((keep_v11_4 m ρ c).trans (keep_v11_3 m ρ c)).trans (keep_v11_2 m ρ c)).trans (w1_v11 m ρ c)
theorem w5_v32 : W5 m ρ c (Proc.devRef .tc main_v32) = KSpec.y2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W5_arr m ρ c 3).trans ((RegionValue.final2 (V4 m ρ) c).trans ?_)
  show Cert.Gcn.scaledProd (W4 m ρ c (Proc.devRef .tc main_v31)) (W4 m ρ c (Proc.devRef .tc main_v18)) (W4 m ρ c (Proc.devRef .tc main_v11)) = _
  rw [w4_v31 m ρ c, w4_v18 m ρ c, w4_v11 m ρ c]
  rfl
theorem w5_v1 : W5 m ρ c (Proc.devRef .tc main_v1) = KSpec.src (m ((c.tc : Thread nD τ).loc main_arg1)) := ((((keep_v1_5 m ρ c).trans (keep_v1_4 m ρ c)).trans (keep_v1_3 m ρ c)).trans (keep_v1_2 m ρ c)).trans (w1_v1 m ρ c)
theorem w5_v3 : W5 m ρ c (Proc.devRef .tc main_v3) = KSpec.dst (m ((c.tc : Thread nD τ).loc main_arg1)) := ((((keep_v3_5 m ρ c).trans (keep_v3_4 m ρ c)).trans (keep_v3_3 m ρ c)).trans (keep_v3_2 m ρ c)).trans (w1_v3 m ρ c)
set_option maxHeartbeats 2000000 in
theorem w6_v42 : W6 m ρ c (Proc.devRef .tc main_v42) = KSpec.agg128 (m ((c.tc : Thread nD τ).loc main_arg1)) (KSpec.y2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show StableHlo.after hostOps3 (W5 m ρ c) (Proc.devRef .tc main_v42) = _
  generalize hW : W5 m ρ c = Wv
  simp only [hostOps3]
  after_results
  subst hW
  rw [w5_v3 m ρ c, w5_v32 m ρ c, w5_v1 m ρ c]
  all_goals rfl
theorem w6_v32 : W6 m ρ c (Proc.devRef .tc main_v32) = KSpec.y2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (keep_v32_6 m ρ c).trans (w5_v32 m ρ c)
theorem w6_v11 : W6 m ρ c (Proc.devRef .tc main_v11) = KSpec.dis2d (m ((c.tc : Thread nD τ).loc main_arg1)) := (((((keep_v11_6 m ρ c).trans (keep_v11_5 m ρ c)).trans (keep_v11_4 m ρ c)).trans (keep_v11_3 m ρ c)).trans (keep_v11_2 m ρ c)).trans (w1_v11 m ρ c)
theorem w6_v15 : W6 m ρ c (Proc.devRef .tc main_v15) = shapeCast _ (m ((c.tc : Thread nD τ).loc main_arg7)) shapeCasts_S128_S1x128 := (((((keep_v15_6 m ρ c).trans (keep_v15_5 m ρ c)).trans (keep_v15_4 m ρ c)).trans (keep_v15_3 m ρ c)).trans (keep_v15_2 m ρ c)).trans (w1_v15 m ρ c)
theorem w7_v43 : W7 m ρ c (Proc.devRef .tc main_v43) = KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W7_arr m ρ c 4).trans ((RegionValue.final3 (V6 m ρ) c).trans ?_)
  show Cert.Gcn.combineRelu (W6 m ρ c (Proc.devRef .tc main_v42)) (W6 m ρ c (Proc.devRef .tc main_v32)) (W6 m ρ c (Proc.devRef .tc main_v11)) (W6 m ρ c (Proc.devRef .tc main_v15)) = _
  rw [w6_v42 m ρ c, w6_v32 m ρ c, w6_v11 m ρ c, w6_v15 m ρ c]
  rfl
theorem w7_v19 : W7 m ρ c (Proc.devRef .tc main_v19) = (truncf .bf16 ((m ((c.tc : Thread nD τ).loc main_arg8)) : FVec Ideal S128x32 .f32) bitsLt_bf16_f32 : FVec Ideal S128x32 .bf16) := ((((((keep_v19_7 m ρ c).trans (keep_v19_6 m ρ c)).trans (keep_v19_5 m ρ c)).trans (keep_v19_4 m ρ c)).trans (keep_v19_3 m ρ c)).trans (keep_v19_2 m ρ c)).trans (w1_v19 m ρ c)
theorem w7_v11 : W7 m ρ c (Proc.devRef .tc main_v11) = KSpec.dis2d (m ((c.tc : Thread nD τ).loc main_arg1)) := ((((((keep_v11_7 m ρ c).trans (keep_v11_6 m ρ c)).trans (keep_v11_5 m ρ c)).trans (keep_v11_4 m ρ c)).trans (keep_v11_3 m ρ c)).trans (keep_v11_2 m ρ c)).trans (w1_v11 m ρ c)
theorem w8_v44 : W8 m ρ c (Proc.devRef .tc main_v44) = KSpec.y3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 3).trans ((RegionValue.final4 (V7 m ρ) c).trans ?_)
  show Cert.Gcn.scaledProd (W7 m ρ c (Proc.devRef .tc main_v43)) (W7 m ρ c (Proc.devRef .tc main_v19)) (W7 m ρ c (Proc.devRef .tc main_v11)) = _
  rw [w7_v43 m ρ c, w7_v19 m ρ c, w7_v11 m ρ c]
  rfl
theorem w8_v1 : W8 m ρ c (Proc.devRef .tc main_v1) = KSpec.src (m ((c.tc : Thread nD τ).loc main_arg1)) := (((((((keep_v1_8 m ρ c).trans (keep_v1_7 m ρ c)).trans (keep_v1_6 m ρ c)).trans (keep_v1_5 m ρ c)).trans (keep_v1_4 m ρ c)).trans (keep_v1_3 m ρ c)).trans (keep_v1_2 m ρ c)).trans (w1_v1 m ρ c)
theorem w8_v3 : W8 m ρ c (Proc.devRef .tc main_v3) = KSpec.dst (m ((c.tc : Thread nD τ).loc main_arg1)) := (((((((keep_v3_8 m ρ c).trans (keep_v3_7 m ρ c)).trans (keep_v3_6 m ρ c)).trans (keep_v3_5 m ρ c)).trans (keep_v3_4 m ρ c)).trans (keep_v3_3 m ρ c)).trans (keep_v3_2 m ρ c)).trans (w1_v3 m ρ c)
set_option maxHeartbeats 2000000 in
theorem w9_v54 : W9 m ρ c (Proc.devRef .tc main_v54) = KSpec.agg32 (m ((c.tc : Thread nD τ).loc main_arg1)) (KSpec.y3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show StableHlo.after hostOps5 (W8 m ρ c) (Proc.devRef .tc main_v54) = _
  generalize hW : W8 m ρ c = Wv
  simp only [hostOps5]
  after_results
  subst hW
  rw [w8_v3 m ρ c, w8_v44 m ρ c, w8_v1 m ρ c]
  all_goals rfl
theorem w9_v44 : W9 m ρ c (Proc.devRef .tc main_v44) = KSpec.y3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (keep_v44_9 m ρ c).trans (w8_v44 m ρ c)
theorem w9_v11 : W9 m ρ c (Proc.devRef .tc main_v11) = KSpec.dis2d (m ((c.tc : Thread nD τ).loc main_arg1)) := ((((((((keep_v11_9 m ρ c).trans (keep_v11_8 m ρ c)).trans (keep_v11_7 m ρ c)).trans (keep_v11_6 m ρ c)).trans (keep_v11_5 m ρ c)).trans (keep_v11_4 m ρ c)).trans (keep_v11_3 m ρ c)).trans (keep_v11_2 m ρ c)).trans (w1_v11 m ρ c)
theorem w9_v16 : W9 m ρ c (Proc.devRef .tc main_v16) = shapeCast _ (m ((c.tc : Thread nD τ).loc main_arg9)) shapeCasts_S32_S1x32 := ((((((((keep_v16_9 m ρ c).trans (keep_v16_8 m ρ c)).trans (keep_v16_7 m ρ c)).trans (keep_v16_6 m ρ c)).trans (keep_v16_5 m ρ c)).trans (keep_v16_4 m ρ c)).trans (keep_v16_3 m ρ c)).trans (keep_v16_2 m ρ c)).trans (w1_v16 m ρ c)
theorem w10_v55 : W10 m ρ c (Proc.devRef .tc main_v55) = KSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 4).trans ((RegionValue.final5 (V9 m ρ) c).trans ?_)
  show Cert.Gcn.combineLin (W9 m ρ c (Proc.devRef .tc main_v54)) (W9 m ρ c (Proc.devRef .tc main_v44)) (W9 m ρ c (Proc.devRef .tc main_v11)) (W9 m ρ c (Proc.devRef .tc main_v16)) = _
  rw [w9_v54 m ρ c, w9_v44 m ρ c, w9_v11 m ρ c, w9_v16 m ρ c]
  rfl

end Cert.KernelIdeal.Named

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibGcnLayer.lean ====
/-
  One graph-convolution layer, written two ways, agrees on the extended reals.

  A layer of a graph-convolution network over a graph with `N` nodes and `E` edges, each edge `e` carrying a source word and a
  destination word, sends a feature matrix `XW : [N, C]` to

      out[p, q] = Σ_{e : dst e = p} XW[src e, q] · dis[src e] · dis[p]  +  XW[p, q] · dis[p]²  +  bias,

  where `dis` is a vector of nonnegative reals (the inverse square roots of the degrees). Written one way, each edge's
  row is multiplied by the edge's weight `dis[src e] · dis[dst e]` and the rows are added into their destinations. Written the
  other way, the matrix is scaled by `dis` row by row first (`Y[p, q] = XW[p, q] · dis[p]`), the rows of `Y` are added into
  their destinations, the self term `Y[p, q]` is added, and the destination's factor `dis[p]` multiplies the whole sum at the end.

  The two agree entry by entry on the extended reals with no finiteness assumption on `XW` and no range assumption on the
  index words: both scatters sum over the SAME set of landing updates; at a landing update the destination word names row
  `p` exactly (a scatter reads its word signed and does not clamp it), so the edge's weight is `dis[src e] · dis[p]`; and
  multiplication by a nonnegative REAL distributes over sums of arbitrary extended reals, while multiplication of
  extended reals is commutative and associative.

  Beside the layer: the index normalisation `v < 0 ? v + n : v` is the identity at a nonnegative word; the clamped row of a
  word that names a row is that row; a landing update sits in the column it lands on; and the inverse square root of
  "one plus a count of ones" is a nonnegative real.
-/
import Mathlib.Data.EReal.Inv
import Idealize.ShloMosaic.PureOps.Ideal
import Idealize.ShloMosaic.PureOps.Ideal.Laws
import Idealize.ShloMosaic.Lib.ValueIdx
import Idealize.ShloMosaic.Lib.Affine
import proofs.«127040_j36644660970265_2_alg».proof.Proof.LibIndexedRows
import proofs.«127040_j36644660970265_2_alg».proof.Proof.LibERealSum

noncomputable section

namespace Cert.Lib

open scoped BigOperators
open Idealize.ShloMosaic Idealize.ShloMosaic.ValueIdx

/-! ## The algebra of one layer -/

/-- The layer's two arrangements, over an abstract finite set of landing updates: for a nonnegative real `r`,
    `r · ((0 + Σ a_j · d_j) + x · r) + b = ((0 + Σ a_j · (d_j · r)) + x · (r · r)) + b` for arbitrary extended reals
    `a_j`, `d_j`, `x`, `b`: a nonnegative real distributes over sums, and multiplication is commutative and associative. -/
theorem layer_algebra {ι : Type*} (S : Finset ι) (a d : ι → EReal) (x b : EReal) {r : ℝ} (hr : 0 ≤ r) :
    (r : EReal) * ((0 + ∑ j ∈ S, a j * d j) + x * (r : EReal)) + b
      = ((0 + ∑ j ∈ S, a j * (d j * (r : EReal))) + x * ((r : EReal) * (r : EReal))) + b := by
  have h0 : (0 : EReal) ≤ (r : EReal) := EReal.coe_nonneg.2 hr
  have ht : (r : EReal) ≠ ⊤ := EReal.coe_ne_top r
  have hs : (r : EReal) * ∑ j ∈ S, a j * d j = ∑ j ∈ S, a j * (d j * (r : EReal)) := by
    rw [mul_comm, sum_mul_coe S (fun j => a j * d j) hr]
    exact Finset.sum_congr rfl (fun j _ => mul_assoc _ _ _)
  rw [zero_add, zero_add, EReal.left_distrib_of_nonneg_of_ne_top h0 ht, hs, mul_left_comm (r : EReal) x (r : EReal)]

/-! ## Index words -/

/-- The index normalisation `v < 0 ? v + n : v` at an index where the word is nonnegative (read signed): the word itself. -/
theorem select_norm_apply {s : Shape} {w : Nat} (v n z : IVec s w) (j : s.Idx) (hz : z j = 0#w) (hv : 0 ≤ (v j).toInt) :
    select (cmpi .slt v z) (addi v n) v j = v j := by
  have hc : cmpi .slt v z j = 0#1 := by
    apply eq_zero_of_ne_one
    show ¬ IntOp.cmpi .slt (v j) (z j) = 1#1
    rw [IntOp.cmpi_slt, hz, BitVec.toInt_zero]
    omega
  rw [select_apply, hc, select_zero]

/-- A word that, read signed, is the number of a row of an `N`-row array, names that row: the clamp does nothing. -/
theorem clampRow_of_toInt {N : Nat} (hN : 0 < N) {w : Nat} (b : BitVec w) (r : Fin N) (h : b.toInt = (r.val : Int)) :
    clampRow N hN b = r := by
  have h2 : b.toInt.toNat = r.val := by rw [h]; exact Int.toNat_natCast _
  have hlt := r.isLt
  refine Fin.ext ?_
  show min b.toInt.toNat (N - 1) = r.val
  rw [h2]
  omega

/-- An update that lands on entry `i` of the operand sits in `i`'s column: the window is the whole row, starting at column 0. -/
theorem addRows_hit_col {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    c.val = (i 1).val := by
  unfold ScatterDims.resultIdx? at h
  split at h
  · have hi := congrFun (Option.some.inj h) 1
    have hv : ((addRowsDims N E C wf).start (ix2 e c) idx 1 + (addRowsDims N E C wf).window (ix2 e c) 1).toNat = (i 1).val :=
      congrArg Fin.val hi
    have hm : (1 : Fin 2) ∉ (addRowsDims N E C wf).scatterDimsToOperandDims := by simp
    have hs : (addRowsDims N E C wf).start (ix2 e c) idx 1 = 0 := by
      unfold ScatterDims.start
      rw [dif_neg hm]
    have hk : (1 : Fin 2) ∈ (addRowsDims N E C wf).sKept := by simp [ScatterDims.sKept, Shape.kept]
    have hw : (addRowsDims N E C wf).window (ix2 e c) 1 = c.val := by
      unfold ScatterDims.window
      rw [dif_pos hk]
      rfl
    rw [hs, hw] at hv
    omega
  · exact absurd h (by simp)

/-! ## Degrees -/

/-- The f32 word `0x3F800000` is the number one. -/
theorem ofBits_one_f32 : Ideal.ofBits .f32 0x3F800000#32 = 1 := by
  simp [Ideal.ofBits, Ideal.ieee, -EReal.coe_mul]; norm_num

/-- The f32 word `0x00000000` is the number zero. -/
theorem ofBits_zero_f32 : Ideal.ofBits .f32 0x00000000#32 = 0 := Ideal.ofBits_zero_f32

/-- The inverse square root of "one plus a scatter of ones into zeros" is a nonnegative real: the scatter counts the
    updates that land on the entry, a natural number, so its successor is a positive real. -/
theorem rsqrt_count_real {s si u : Shape} {w : Nat} (d : ScatterDims s si u) (Z : s.Idx → EReal) (hZ : ∀ i, Z i = 0)
    (U : u.Idx → EReal) (hU : ∀ j, U j = 1) (idx : IVec si w) (i : s.Idx) :
    ∃ r : ℝ, 0 ≤ r ∧ Ideal.rsqrt (Host.scatterAdd (F := Ideal) (φ := .f32) d Z idx U i + 1) = (r : EReal) := by
  have hones : ∑ j ∈ Finset.univ.filter (fun j => d.resultIdx? j idx = some i), U j
      = (((Finset.univ.filter (fun j => d.resultIdx? j idx = some i)).card : ℝ) : EReal) := by
    rw [Finset.sum_congr rfl (fun j _ => hU j)]
    refine (sum_coe _ (fun _ => (1 : ℝ))).trans ?_
    simp
  have hpos : (0 : ℝ) < ((Finset.univ.filter (fun j => d.resultIdx? j idx = some i)).card : ℝ) + 1 := by positivity
  have hsum : Host.scatterAdd (F := Ideal) (φ := .f32) d Z idx U i + 1
      = ((((Finset.univ.filter (fun j => d.resultIdx? j idx = some i)).card : ℝ) + 1 : ℝ) : EReal) := by
    show Z i + ∑ j ∈ Finset.univ.filter (fun j => d.resultIdx? j idx = some i), U j + 1 = _
    rw [hZ, zero_add, hones, EReal.coe_add, EReal.coe_one]
  refine ⟨(Real.sqrt (((Finset.univ.filter (fun j => d.resultIdx? j idx = some i)).card : ℝ) + 1))⁻¹,
    inv_nonneg.2 (Real.sqrt_nonneg _), ?_⟩
  rw [hsum, Ideal.rsqrt_coe, if_neg (not_lt.2 hpos.le), if_neg hpos.ne']

/-! ## The layer, entry by entry -/

/-- The factor of the source row of update `(e, c)`: `dis` at the row the source word of edge `e` names (read signed, clamped). -/
def srcDis {N E C : Nat} (hN : 0 < N) (dis : (⟨1, ![N]⟩ : Shape).Idx → EReal) (srcn : IVec ⟨2, ![E, 1]⟩ 32)
    (j : (⟨2, ![E, C]⟩ : Shape).Idx) : EReal :=
  dis (ix1 (clampRow N hN (srcn (ix2 (j 0 : Fin E) 0))))

/-- One graph-convolution layer at entry `(p, q)`: scaling the rows by `dis` before the rows are added into their
    destinations and multiplying by the destination's `dis` afterwards, is the same as weighting each edge's row by
    `dis[src] · dis[dst]` and adding `XW[p, q] · dis[p]²`. `dstc` is the destination column the scatter reads; `srcn`, `dstn`
    are the (normalised) source and destination columns the gathers read; `hdst` says that wherever `dstc` names a row, the
    gather through `dstn` reads that row. No range assumption on the words, no finiteness assumption on `XW`. -/
theorem gcn_layer_apply {N E C : Nat} (hN : 0 < N)
    (wfR : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (XW Y : (⟨2, ![N, C]⟩ : Shape).Idx → EReal) (dis : (⟨1, ![N]⟩ : Shape).Idx → EReal)
    (hY : ∀ (p : Fin N) (q : Fin C), Y (ix2 p q) = XW (ix2 p q) * dis (ix1 p))
    (hdis : ∀ p : Fin N, ∃ r : ℝ, 0 ≤ r ∧ dis (ix1 p) = (r : EReal))
    (Z : (⟨2, ![N, C]⟩ : Shape).Idx → EReal) (hZ : ∀ j, Z j = 0)
    (dstc srcn dstn : IVec ⟨2, ![E, 1]⟩ 32)
    (hdst : ∀ (e : Fin E) (i : Fin N), (dstc (ix2 e 0)).toInt = (i.val : Int) → clampRow N hN (dstn (ix2 e 0)) = i)
    (NB : (⟨2, ![E, C]⟩ : Shape).Idx → EReal)
    (hNB : ∀ (e : Fin E) (q : Fin C), NB (ix2 e q)
      = Host.gather (entriesDims N E wfE) dis srcn (ix1 e) * Host.gather (entriesDims N E wfE) dis dstn (ix1 e))
    (p : Fin N) (q : Fin C) (bias : EReal) :
    dis (ix1 p) * (Host.scatterAdd (F := Ideal) (φ := .f32) (addRowsDims N E C wfS) Z dstc
        (Host.gather (rowsDims N E C wfR) Y srcn) (ix2 p q) + Y (ix2 p q)) + bias
      = (Host.scatterAdd (F := Ideal) (φ := .f32) (addRowsDims N E C wfS) Z dstc
          (fun j => Host.gather (rowsDims N E C wfR) XW srcn j * NB j) (ix2 p q)
        + XW (ix2 p q) * (dis (ix1 p) * dis (ix1 p))) + bias := by
  obtain ⟨r, hr, hrp⟩ := hdis p
  -- a gathered row of the scaled matrix is the gathered row of the matrix times the source row's factor
  have hGY : ∀ j, Host.gather (rowsDims N E C wfR) Y srcn j
      = Host.gather (rowsDims N E C wfR) XW srcn j * srcDis hN dis srcn j := by
    intro j
    obtain ⟨e, c, rfl⟩ : ∃ (e : Fin E) (c : Fin C), j = ix2 e c := ⟨j 0, j 1, eq_ix2 j⟩
    rw [gather_rows_apply hN, gather_rows_apply hN, hY]
    rfl
  -- at an update that lands on row p the edge's weight is the source row's factor times dis p
  have hNBj : ∀ j ∈ Finset.univ.filter (fun j => (addRowsDims N E C wfS).resultIdx? j dstc = some (ix2 p q)),
      NB j = srcDis hN dis srcn j * (r : EReal) := by
    intro j hj
    obtain ⟨e, c, rfl⟩ : ∃ (e : Fin E) (c : Fin C), j = ix2 e c := ⟨j 0, j 1, eq_ix2 j⟩
    have hrow : clampRow N hN (dstn (ix2 e 0)) = p :=
      hdst e p (addRows_hit wfS dstc e c (ix2 p q) (Finset.mem_filter.1 hj).2)
    rw [hNB, gather_entries_apply hN, gather_entries_apply hN, hrow, hrp]
    rfl
  have e1 : ∑ j ∈ Finset.univ.filter (fun j => (addRowsDims N E C wfS).resultIdx? j dstc = some (ix2 p q)),
        Host.gather (rowsDims N E C wfR) Y srcn j
      = ∑ j ∈ Finset.univ.filter (fun j => (addRowsDims N E C wfS).resultIdx? j dstc = some (ix2 p q)),
        Host.gather (rowsDims N E C wfR) XW srcn j * srcDis hN dis srcn j :=
    Finset.sum_congr rfl (fun j _ => hGY j)
  have e2 : ∑ j ∈ Finset.univ.filter (fun j => (addRowsDims N E C wfS).resultIdx? j dstc = some (ix2 p q)),
        Host.gather (rowsDims N E C wfR) XW srcn j * NB j
      = ∑ j ∈ Finset.univ.filter (fun j => (addRowsDims N E C wfS).resultIdx? j dstc = some (ix2 p q)),
        Host.gather (rowsDims N E C wfR) XW srcn j * (srcDis hN dis srcn j * (r : EReal)) :=
    Finset.sum_congr rfl (fun j hj => by rw [hNBj j hj])
  -- the two scatters: the operand's entry plus the sum over the updates that land on it
  show dis (ix1 p) * ((Z (ix2 p q)
        + ∑ j ∈ Finset.univ.filter (fun j => (addRowsDims N E C wfS).resultIdx? j dstc = some (ix2 p q)),
          Host.gather (rowsDims N E C wfR) Y srcn j) + Y (ix2 p q)) + bias
    = ((Z (ix2 p q)
        + ∑ j ∈ Finset.univ.filter (fun j => (addRowsDims N E C wfS).resultIdx? j dstc = some (ix2 p q)),
          Host.gather (rowsDims N E C wfR) XW srcn j * NB j) + XW (ix2 p q) * (dis (ix1 p) * dis (ix1 p))) + bias
  rw [e1, e2, hZ, hY, hrp]
  exact layer_algebra _ _ _ _ _ hr

end Cert.Lib

end
-- ==== Proof.RefLn.lean ====
/-
  The reference's layer normalisation followed by its first matrix product, read entry by entry on the extended reals.

  The host program sums each row of the 65536 × 256 input from the zero word, divides by the literal 256 (the row's
  mean), subtracts the mean, sums the squares of the centred row from the zero word and divides by 256 again (the mean
  square deviation), adds ε, takes the reciprocal square root, and multiplies the centred row by it, by the scale vector
  and adds the shift vector, both broadcast along the rows; the normalised matrix is then multiplied into the 256 × 128
  weight matrix. Entry (p, k) of the normalised matrix only sees row p of the input, and it is the specification's
  `lnorm` of row p at column k, with the scale and shift vectors read as one-row matrices: entry (0, k) of the one-row
  matrix is entry k of the vector.
-/
import proofs.«127040_j36644660970265_2_alg».proof.Proof.Gen.ReferenceIdeal.Read
import proofs.«127040_j36644660970265_2_alg».proof.Proof.Spec

noncomputable section

open scoped BigOperators

namespace Cert.ReferenceIdeal.RefLn

open Cert.ReferenceIdeal Cert.ReferenceIdeal.Read Idealize.ShloMosaic Idealize.ShloMosaic.ValueIdx Cert.Gcn

/-- A vector [b] cast to the one-row matrix [1, b] reads, at (0, k), the vector at k: both sit at row-major position k. -/
theorem shapeCast_vec_row_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_one, Shape.rowMajor_val_two]
    show k.val = u.val * b + k.val
    rw [hu, Nat.zero_mul, Nat.zero_add])

variable (x0 : S65536x256.Idx → EReal)

/-- The index of row p's k-th summand, through the column [65536, 1] the row sum is kept as. -/
theorem idx_sum (p : Fin 65536) (k : Fin 256) : idx_main_v4 (idx_main_v5 (ix2 p (0 : Fin 1))) k = ix2 p k :=
  funext fun a => Fin.ext (by match a with | ⟨0, _⟩ => rfl | ⟨1, _⟩ => rfl)

theorem idx_sumsq (p : Fin 65536) (k : Fin 256) : idx_main_v11 (idx_main_v12 (ix2 p (0 : Fin 1))) k = ix2 p k :=
  funext fun a => Fin.ext (by match a with | ⟨0, _⟩ => rfl | ⟨1, _⟩ => rfl)

/-- A column broadcast along the rows is read at (p, 0). -/
theorem idx_col8 (p : Fin 65536) (k : Fin 256) : idx_main_v8 (ix2 p k) = ix2 p (0 : Fin 1) :=
  funext fun a => Fin.ext (by match a with | ⟨0, _⟩ => rfl | ⟨1, _⟩ => rfl)
theorem idx_col15 (p : Fin 65536) (k : Fin 256) : idx_main_v15 (ix2 p k) = ix2 p (0 : Fin 1) :=
  funext fun a => Fin.ext (by match a with | ⟨0, _⟩ => rfl | ⟨1, _⟩ => rfl)
theorem idx_col20 (p : Fin 65536) (k : Fin 256) : idx_main_v20 (ix2 p k) = ix2 p (0 : Fin 1) :=
  funext fun a => Fin.ext (by match a with | ⟨0, _⟩ => rfl | ⟨1, _⟩ => rfl)

/-- A vector broadcast to a one-row matrix and then along the rows is read at k. -/
theorem idx_vec22 (p : Fin 65536) (k : Fin 256) : idx_main_v22 (idx_main_v23 (ix2 p k)) = ix1 k :=
  funext fun a => Fin.ext (by match a with | ⟨0, _⟩ => rfl)
theorem idx_vec25 (p : Fin 65536) (k : Fin 256) : idx_main_v25 (idx_main_v26 (ix2 p k)) = ix1 k :=
  funext fun a => Fin.ext (by match a with | ⟨0, _⟩ => rfl)

/-- The column of row means, at (p, 0): the row's sum from zero, over 256. -/
theorem mean_apply (p : Fin 65536) : val_main_v7 (F := Ideal) x0 (ix2 p (0 : Fin 1)) = rowMean x0 p := by
  rw [val_main_v7_apply, val_main_v5_apply, val_main_v4_apply, val_main_v6_apply, val_main_cst_0_apply, val_main_cst_apply]
  simp only [idx_sum, Ideal.hostDivf_def, Ideal.ofBits_def, Ideal.ofBits_zero_f32, zero_add]
  rfl

/-- The centred input at (p, k). -/
theorem centred_apply9 (p : Fin 65536) (k : Fin 256) : val_main_v9 (F := Ideal) x0 (ix2 p k) = centred x0 p k := by
  rw [val_main_v9_apply, val_main_v8_apply, idx_col8, mean_apply]
  rfl
theorem centred_apply16 (p : Fin 65536) (k : Fin 256) : val_main_v16 (F := Ideal) x0 (ix2 p k) = centred x0 p k := by
  rw [val_main_v16_apply, val_main_v15_apply, idx_col15, mean_apply]
  rfl

/-- The column of mean square deviations, at (p, 0). -/
theorem var_apply (p : Fin 65536) : val_main_v14 (F := Ideal) x0 (ix2 p (0 : Fin 1)) = rowVar x0 p := by
  rw [val_main_v14_apply, val_main_v12_apply, val_main_v11_apply, val_main_v13_apply, val_main_cst_2_apply, val_main_cst_1_apply]
  simp only [idx_sumsq, val_main_v10_apply, centred_apply9, Ideal.hostDivf_def, Ideal.mulf_def, Ideal.ofBits_def,
    Ideal.ofBits_zero_f32, zero_add]
  rfl

/-- The normalised, scaled and shifted input at (p, k) is the specification's row function, the two vectors read as
    one-row matrices. -/
theorem lnorm_apply (x2 x3 : S256.Idx → EReal) (h2 h3 : (⟨1, ![256]⟩ : Shape).ShapeCasts ⟨2, ![1, 256]⟩)
    (p : Fin 65536) (k : Fin 256) :
    val_main_v27 (F := Ideal) x0 x2 x3 (ix2 p k)
      = lnorm x0 (shapeCast ⟨2, ![1, 256]⟩ x2 h2) (shapeCast ⟨2, ![1, 256]⟩ x3 h3) p k := by
  rw [val_main_v27_apply, val_main_v24_apply, val_main_v21_apply, val_main_v20_apply, val_main_v19_apply,
    val_main_v18_apply, val_main_v17_apply, val_main_cst_3_apply, val_main_v23_apply, val_main_v22_apply,
    val_main_v26_apply, val_main_v25_apply, idx_col20, idx_vec22, idx_vec25, var_apply, centred_apply16]
  unfold lnorm
  rw [shapeCast_vec_row_apply, shapeCast_vec_row_apply]
  rfl

/-- The reference's first product at (p, q): the normalised row p against column q of the weight matrix. -/
theorem xw1_apply (x2 x3 : S256.Idx → EReal) (x4 : S256x128.Idx → EReal)
    (h2 h3 : (⟨1, ![256]⟩ : Shape).ShapeCasts ⟨2, ![1, 256]⟩) (p : Fin 65536) (q : Fin 128) :
    val_main_v28 (F := Ideal) x0 x2 x3 x4 (ix2 p q)
      = ∑ k : Fin 256, lnorm x0 (shapeCast ⟨2, ![1, 256]⟩ x2 h2) (shapeCast ⟨2, ![1, 256]⟩ x3 h3) p k * x4 (ix2 k q) := by
  rw [val_main_v28_apply]
  refine Finset.sum_congr rfl fun k _ => ?_
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er, lnorm_apply x0 x2 x3 h2 h3 p k]

end Cert.ReferenceIdeal.RefLn

end
-- ==== Proof.RefLayerFacts.lean ====
/-
  The reference's three graph-convolution layers, read entry by entry: the facts one layer's algebra asks of its pieces.

  In every layer the reference recomputes, from the edge array alone, the factor `dis` of every node (the reciprocal
  square root of one plus the number of edges whose destination word names the node: a nonnegative real), the source and
  destination words of every edge as columns (a negative word moved up by the number of nodes before a gather reads it),
  the weight of every edge (the factor of its source row times the factor of its destination row) broadcast along the
  feature columns, the squared factor of every node broadcast along the columns, and the bias vector broadcast along the
  rows. The three layers spell the same functions of the edge array; the kernel's host program computes them once, and
  they are the same functions again.
-/
import proofs.«127040_j36644660970265_2_alg».proof.Proof.Gen.ReferenceIdeal.Read
import proofs.«127040_j36644660970265_2_alg».proof.Proof.KernelSpec
import proofs.«127040_j36644660970265_2_alg».proof.Proof.LibGcnLayer
import proofs.«127040_j36644660970265_2_alg».proof.Proof.LibKeepdims
import proofs.«127040_j36644660970265_2_alg».proof.Proof.RefLn

noncomputable section

open scoped BigOperators

namespace Cert.ReferenceIdeal.RefFacts

open Cert.ReferenceIdeal Cert.ReferenceIdeal.Read Idealize.ShloMosaic Idealize.ShloMosaic.ValueIdx

variable (x1 : IVec S2x524288 32)

/-- The factor of every node in layer 1 is a nonnegative real: the reciprocal square root of one plus a count. -/
theorem dis_real1 (p : Fin 65536) : ∃ r : ℝ, 0 ≤ r ∧ val_main_v35 (F := Ideal) x1 (ix1 p) = (r : EReal) := by
  have hZ : ∀ i, val_main_v30 (F := Ideal) i = 0 := fun i => by
    rw [val_main_v30_apply, val_main_cst_5_apply, Ideal.ofBits_def, Ideal.ofBits_zero_f32]
  have hU : ∀ j, val_main_v29 (F := Ideal) j = 1 := fun j => by
    rw [val_main_v29_apply, val_main_cst_4_apply, Ideal.ofBits_def, Cert.Lib.ofBits_one_f32]
  have h1 : val_main_v33 (F := Ideal) (ix1 p) = 1 := by
    rw [val_main_v33_apply, val_main_cst_6_apply, Ideal.ofBits_def, Cert.Lib.ofBits_one_f32]
  obtain ⟨r, hr, h⟩ := Cert.Lib.rsqrt_count_real scatter_S65536_S524288x1_S524288_n_0_0_1 (val_main_v30 (F := Ideal)) hZ
    (val_main_v29 (F := Ideal)) hU (val_main_v31 (F := Ideal) x1) (ix1 p)
  refine ⟨r, hr, ?_⟩
  rw [val_main_v35_apply, val_main_v34_apply, h1, Ideal.hostUnary_rsqrt_def, Ideal.addf_def]
  exact h

/-- The factor of every node in layer 2 is a nonnegative real: the reciprocal square root of one plus a count. -/
theorem dis_real2 (p : Fin 65536) : ∃ r : ℝ, 0 ≤ r ∧ val_main_v80 (F := Ideal) x1 (ix1 p) = (r : EReal) := by
  have hZ : ∀ i, val_main_v75 (F := Ideal) i = 0 := fun i => by
    rw [val_main_v75_apply, val_main_cst_14_apply, Ideal.ofBits_def, Ideal.ofBits_zero_f32]
  have hU : ∀ j, val_main_v74 (F := Ideal) j = 1 := fun j => by
    rw [val_main_v74_apply, val_main_cst_13_apply, Ideal.ofBits_def, Cert.Lib.ofBits_one_f32]
  have h1 : val_main_v78 (F := Ideal) (ix1 p) = 1 := by
    rw [val_main_v78_apply, val_main_cst_15_apply, Ideal.ofBits_def, Cert.Lib.ofBits_one_f32]
  obtain ⟨r, hr, h⟩ := Cert.Lib.rsqrt_count_real scatter_S65536_S524288x1_S524288_n_0_0_1 (val_main_v75 (F := Ideal)) hZ
    (val_main_v74 (F := Ideal)) hU (val_main_v76 (F := Ideal) x1) (ix1 p)
  refine ⟨r, hr, ?_⟩
  rw [val_main_v80_apply, val_main_v79_apply, h1, Ideal.hostUnary_rsqrt_def, Ideal.addf_def]
  exact h

/-- The factor of every node in layer 3 is a nonnegative real: the reciprocal square root of one plus a count. -/
theorem dis_real3 (p : Fin 65536) : ∃ r : ℝ, 0 ≤ r ∧ val_main_v125 (F := Ideal) x1 (ix1 p) = (r : EReal) := by
  have hZ : ∀ i, val_main_v120 (F := Ideal) i = 0 := fun i => by
    rw [val_main_v120_apply, val_main_cst_24_apply, Ideal.ofBits_def, Ideal.ofBits_zero_f32]
  have hU : ∀ j, val_main_v119 (F := Ideal) j = 1 := fun j => by
    rw [val_main_v119_apply, val_main_cst_23_apply, Ideal.ofBits_def, Cert.Lib.ofBits_one_f32]
  have h1 : val_main_v123 (F := Ideal) (ix1 p) = 1 := by
    rw [val_main_v123_apply, val_main_cst_25_apply, Ideal.ofBits_def, Cert.Lib.ofBits_one_f32]
  obtain ⟨r, hr, h⟩ := Cert.Lib.rsqrt_count_real scatter_S65536_S524288x1_S524288_n_0_0_1 (val_main_v120 (F := Ideal)) hZ
    (val_main_v119 (F := Ideal)) hU (val_main_v121 (F := Ideal) x1) (ix1 p)
  refine ⟨r, hr, ?_⟩
  rw [val_main_v125_apply, val_main_v124_apply, h1, Ideal.hostUnary_rsqrt_def, Ideal.addf_def]
  exact h

/-! ## Layer 1 -/

/-- The destination column of layer 1 at (e, 0): the destination word of edge e. -/
theorem dstc1_apply (e : Fin 524288) : val_main_v62 (F := Ideal) x1 (ix2 e (0 : Fin 1)) = val_main_v3 (F := Ideal) x1 (ix1 e) := by
  rw [val_main_v62_apply]
  exact congrArg (val_main_v3 (F := Ideal) x1) (funext fun a => Fin.ext (by match a with | ⟨0, _⟩ => rfl))

/-- The normalised destination column of layer 1 at (e, 0), where the destination word is nonnegative: the word. -/
theorem dstn1_apply (e : Fin 524288) (h : 0 ≤ BitVec.toInt (val_main_v3 (F := Ideal) x1 (ix1 e))) :
    val_main_v48 (F := Ideal) x1 (ix2 e (0 : Fin 1)) = val_main_v3 (F := Ideal) x1 (ix1 e) := by
  rw [val_main_v48_apply]
  have hi : idx_main_v48 (ix2 e (0 : Fin 1)) = ix1 e := funext fun a => Fin.ext (by match a with | ⟨0, _⟩ => rfl)
  rw [hi]
  show select (cmpi .slt (val_main_v3 (F := Ideal) x1) (val_main_v43 (F := Ideal)))
    (addi (val_main_v3 (F := Ideal) x1) (val_main_v45 (F := Ideal))) (val_main_v3 (F := Ideal) x1) (ix1 e) = _
  exact Cert.Lib.select_norm_apply _ _ _ _ (by rw [val_main_v43_apply, val_main_c_8_apply]) h

/-- Where the destination column names row i, the gather through the normalised destination column reads row i. -/
theorem dst_hit1 (e : Fin 524288) (i : Fin 65536)
    (h : BitVec.toInt (val_main_v62 (F := Ideal) x1 (ix2 e (0 : Fin 1))) = (i.val : Int)) :
    Cert.Lib.clampRow 65536 (by decide) (val_main_v48 (F := Ideal) x1 (ix2 e (0 : Fin 1))) = i := by
  rw [dstc1_apply] at h
  rw [dstn1_apply x1 e (by rw [h]; exact Int.natCast_nonneg _)]
  exact Cert.Lib.clampRow_of_toInt _ _ i h

/-- The edge weights of layer 1, broadcast along the 128 columns, at (e, q): the factor of the source row times the factor
    of the destination row, both picked out of the layer's `dis` by the edge's words. -/
theorem nb_apply1 (wfE : GatherDims.WF ⟨1, ![65536]⟩ ⟨2, ![524288, 1]⟩ ⟨1, ![524288]⟩ [] [0] [] [0] [] 1 ![1])
    (e : Fin 524288) (q : Fin 128) :
    val_main_v59 (F := Ideal) x1 (ix2 e q)
      = Host.gather (Cert.Lib.entriesDims 65536 524288 wfE) (val_main_v35 (F := Ideal) x1) (val_main_v41 (F := Ideal) x1) (ix1 e)
        * Host.gather (Cert.Lib.entriesDims 65536 524288 wfE) (val_main_v35 (F := Ideal) x1) (val_main_v48 (F := Ideal) x1) (ix1 e) := by
  rw [val_main_v59_apply, val_main_v58_apply, val_main_v50_apply]
  have hi : idx_main_v58 (idx_main_v59 (ix2 e q)) = ix1 e := funext fun a => Fin.ext (by match a with | ⟨0, _⟩ => rfl)
  rw [hi]
  rfl

/-- The squared factor of layer 1, broadcast along the 128 columns, at (p, q). -/
theorem self_apply1 (p : Fin 65536) (q : Fin 128) :
    val_main_v66 (F := Ideal) x1 (ix2 p q)
      = val_main_v35 (F := Ideal) x1 (ix1 p) * val_main_v35 (F := Ideal) x1 (ix1 p) := by
  rw [val_main_v66_apply, val_main_v65_apply, val_main_v64_apply]
  have hi : idx_main_v65 (idx_main_v66 (ix2 p q)) = ix1 p := funext fun a => Fin.ext (by match a with | ⟨0, _⟩ => rfl)
  rw [hi]
  rfl

/-! ## Layer 2 -/

/-- The destination column of layer 2 at (e, 0): the destination word of edge e. -/
theorem dstc2_apply (e : Fin 524288) : val_main_v107 (F := Ideal) x1 (ix2 e (0 : Fin 1)) = val_main_v3 (F := Ideal) x1 (ix1 e) := by
  rw [val_main_v107_apply]
  exact congrArg (val_main_v3 (F := Ideal) x1) (funext fun a => Fin.ext (by match a with | ⟨0, _⟩ => rfl))

/-- The normalised destination column of layer 2 at (e, 0), where the destination word is nonnegative: the word. -/
theorem dstn2_apply (e : Fin 524288) (h : 0 ≤ BitVec.toInt (val_main_v3 (F := Ideal) x1 (ix1 e))) :
    val_main_v93 (F := Ideal) x1 (ix2 e (0 : Fin 1)) = val_main_v3 (F := Ideal) x1 (ix1 e) := by
  rw [val_main_v93_apply]
  have hi : idx_main_v93 (ix2 e (0 : Fin 1)) = ix1 e := funext fun a => Fin.ext (by match a with | ⟨0, _⟩ => rfl)
  rw [hi]
  show select (cmpi .slt (val_main_v3 (F := Ideal) x1) (val_main_v88 (F := Ideal)))
    (addi (val_main_v3 (F := Ideal) x1) (val_main_v90 (F := Ideal))) (val_main_v3 (F := Ideal) x1) (ix1 e) = _
  exact Cert.Lib.select_norm_apply _ _ _ _ (by rw [val_main_v88_apply, val_main_c_18_apply]) h

/-- Where the destination column names row i, the gather through the normalised destination column reads row i. -/
theorem dst_hit2 (e : Fin 524288) (i : Fin 65536)
    (h : BitVec.toInt (val_main_v107 (F := Ideal) x1 (ix2 e (0 : Fin 1))) = (i.val : Int)) :
    Cert.Lib.clampRow 65536 (by decide) (val_main_v93 (F := Ideal) x1 (ix2 e (0 : Fin 1))) = i := by
  rw [dstc2_apply] at h
  rw [dstn2_apply x1 e (by rw [h]; exact Int.natCast_nonneg _)]
  exact Cert.Lib.clampRow_of_toInt _ _ i h

/-- The edge weights of layer 2, broadcast along the 128 columns, at (e, q): the factor of the source row times the factor
    of the destination row, both picked out of the layer's `dis` by the edge's words. -/
theorem nb_apply2 (wfE : GatherDims.WF ⟨1, ![65536]⟩ ⟨2, ![524288, 1]⟩ ⟨1, ![524288]⟩ [] [0] [] [0] [] 1 ![1])
    (e : Fin 524288) (q : Fin 128) :
    val_main_v104 (F := Ideal) x1 (ix2 e q)
      = Host.gather (Cert.Lib.entriesDims 65536 524288 wfE) (val_main_v80 (F := Ideal) x1) (val_main_v86 (F := Ideal) x1) (ix1 e)
        * Host.gather (Cert.Lib.entriesDims 65536 524288 wfE) (val_main_v80 (F := Ideal) x1) (val_main_v93 (F := Ideal) x1) (ix1 e) := by
  rw [val_main_v104_apply, val_main_v103_apply, val_main_v95_apply]
  have hi : idx_main_v103 (idx_main_v104 (ix2 e q)) = ix1 e := funext fun a => Fin.ext (by match a with | ⟨0, _⟩ => rfl)
  rw [hi]
  rfl

/-- The squared factor of layer 2, broadcast along the 128 columns, at (p, q). -/
theorem self_apply2 (p : Fin 65536) (q : Fin 128) :
    val_main_v111 (F := Ideal) x1 (ix2 p q)
      = val_main_v80 (F := Ideal) x1 (ix1 p) * val_main_v80 (F := Ideal) x1 (ix1 p) := by
  rw [val_main_v111_apply, val_main_v110_apply, val_main_v109_apply]
  have hi : idx_main_v110 (idx_main_v111 (ix2 p q)) = ix1 p := funext fun a => Fin.ext (by match a with | ⟨0, _⟩ => rfl)
  rw [hi]
  rfl

/-! ## Layer 3 -/

/-- The destination column of layer 3 at (e, 0): the destination word of edge e. -/
theorem dstc3_apply (e : Fin 524288) : val_main_v152 (F := Ideal) x1 (ix2 e (0 : Fin 1)) = val_main_v3 (F := Ideal) x1 (ix1 e) := by
  rw [val_main_v152_apply]
  exact congrArg (val_main_v3 (F := Ideal) x1) (funext fun a => Fin.ext (by match a with | ⟨0, _⟩ => rfl))

/-- The normalised destination column of layer 3 at (e, 0), where the destination word is nonnegative: the word. -/
theorem dstn3_apply (e : Fin 524288) (h : 0 ≤ BitVec.toInt (val_main_v3 (F := Ideal) x1 (ix1 e))) :
    val_main_v138 (F := Ideal) x1 (ix2 e (0 : Fin 1)) = val_main_v3 (F := Ideal) x1 (ix1 e) := by
  rw [val_main_v138_apply]
  have hi : idx_main_v138 (ix2 e (0 : Fin 1)) = ix1 e := funext fun a => Fin.ext (by match a with | ⟨0, _⟩ => rfl)
  rw [hi]
  show select (cmpi .slt (val_main_v3 (F := Ideal) x1) (val_main_v133 (F := Ideal)))
    (addi (val_main_v3 (F := Ideal) x1) (val_main_v135 (F := Ideal))) (val_main_v3 (F := Ideal) x1) (ix1 e) = _
  exact Cert.Lib.select_norm_apply _ _ _ _ (by rw [val_main_v133_apply, val_main_c_28_apply]) h

/-- Where the destination column names row i, the gather through the normalised destination column reads row i. -/
theorem dst_hit3 (e : Fin 524288) (i : Fin 65536)
    (h : BitVec.toInt (val_main_v152 (F := Ideal) x1 (ix2 e (0 : Fin 1))) = (i.val : Int)) :
    Cert.Lib.clampRow 65536 (by decide) (val_main_v138 (F := Ideal) x1 (ix2 e (0 : Fin 1))) = i := by
  rw [dstc3_apply] at h
  rw [dstn3_apply x1 e (by rw [h]; exact Int.natCast_nonneg _)]
  exact Cert.Lib.clampRow_of_toInt _ _ i h

/-- The edge weights of layer 3, broadcast along the 32 columns, at (e, q): the factor of the source row times the factor
    of the destination row, both picked out of the layer's `dis` by the edge's words. -/
theorem nb_apply3 (wfE : GatherDims.WF ⟨1, ![65536]⟩ ⟨2, ![524288, 1]⟩ ⟨1, ![524288]⟩ [] [0] [] [0] [] 1 ![1])
    (e : Fin 524288) (q : Fin 32) :
    val_main_v149 (F := Ideal) x1 (ix2 e q)
      = Host.gather (Cert.Lib.entriesDims 65536 524288 wfE) (val_main_v125 (F := Ideal) x1) (val_main_v131 (F := Ideal) x1) (ix1 e)
        * Host.gather (Cert.Lib.entriesDims 65536 524288 wfE) (val_main_v125 (F := Ideal) x1) (val_main_v138 (F := Ideal) x1) (ix1 e) := by
  rw [val_main_v149_apply, val_main_v148_apply, val_main_v140_apply]
  have hi : idx_main_v148 (idx_main_v149 (ix2 e q)) = ix1 e := funext fun a => Fin.ext (by match a with | ⟨0, _⟩ => rfl)
  rw [hi]
  rfl

/-- The squared factor of layer 3, broadcast along the 32 columns, at (p, q). -/
theorem self_apply3 (p : Fin 65536) (q : Fin 32) :
    val_main_v156 (F := Ideal) x1 (ix2 p q)
      = val_main_v125 (F := Ideal) x1 (ix1 p) * val_main_v125 (F := Ideal) x1 (ix1 p) := by
  rw [val_main_v156_apply, val_main_v155_apply, val_main_v154_apply]
  have hi : idx_main_v155 (idx_main_v156 (ix2 p q)) = ix1 p := funext fun a => Fin.ext (by match a with | ⟨0, _⟩ => rfl)
  rw [hi]
  rfl

/-! ## The biases -/

/-- The bias of layer 1, broadcast to a one-row matrix and along the rows, at (p, q): entry q of the vector. -/
theorem bias_apply1 (x5 : S128.Idx → EReal) (p : Fin 65536) (q : Fin 128) :
    val_main_v70 (F := Ideal) x5 (ix2 p q) = x5 (ix1 q) := by
  rw [val_main_v70_apply, val_main_v69_apply]
  exact congrArg x5 (funext fun a => Fin.ext (by match a with | ⟨0, _⟩ => rfl))

/-- The bias of layer 2, broadcast to a one-row matrix and along the rows, at (p, q): entry q of the vector. -/
theorem bias_apply2 (x7 : S128.Idx → EReal) (p : Fin 65536) (q : Fin 128) :
    val_main_v115 (F := Ideal) x7 (ix2 p q) = x7 (ix1 q) := by
  rw [val_main_v115_apply, val_main_v114_apply]
  exact congrArg x7 (funext fun a => Fin.ext (by match a with | ⟨0, _⟩ => rfl))

/-- The bias of layer 3, broadcast to a one-row matrix and along the rows, at (p, q): entry q of the vector. -/
theorem bias_apply3 (x9 : S32.Idx → EReal) (p : Fin 65536) (q : Fin 32) :
    val_main_v160 (F := Ideal) x9 (ix2 p q) = x9 (ix1 q) := by
  rw [val_main_v160_apply, val_main_v159_apply]
  exact congrArg x9 (funext fun a => Fin.ext (by match a with | ⟨0, _⟩ => rfl))

/-- A vector cast to a one-row matrix reads, at (0, q), the vector at q (the kernel's spelling of the same row). -/
theorem bias_row_apply {b : ℕ} (x : (⟨1, ![b]⟩ : Shape).Idx → EReal) (h : (⟨1, ![b]⟩ : Shape).ShapeCasts ⟨2, ![1, b]⟩)
    (q : Fin b) : shapeCast ⟨2, ![1, b]⟩ x h (ix2 (0 : Fin 1) q) = x (ix1 q) :=
  Cert.ReferenceIdeal.RefLn.shapeCast_vec_row_apply x h 0 q

/-! ## The three layers spell the same functions of the edge array -/

theorem dis2_eq : val_main_v80 (F := Ideal) x1 = val_main_v35 (F := Ideal) x1 := rfl
theorem dis3_eq : val_main_v125 (F := Ideal) x1 = val_main_v35 (F := Ideal) x1 := rfl
theorem dstc2_eq : val_main_v107 (F := Ideal) x1 = val_main_v62 (F := Ideal) x1 := rfl
theorem dstc3_eq : val_main_v152 (F := Ideal) x1 = val_main_v62 (F := Ideal) x1 := rfl
theorem dstn2_eq : val_main_v93 (F := Ideal) x1 = val_main_v48 (F := Ideal) x1 := rfl
theorem dstn3_eq : val_main_v138 (F := Ideal) x1 = val_main_v48 (F := Ideal) x1 := rfl
theorem srcn1_eq : val_main_v56 (F := Ideal) x1 = val_main_v41 (F := Ideal) x1 := rfl
theorem srcn2_eq : val_main_v101 (F := Ideal) x1 = val_main_v86 (F := Ideal) x1 := rfl
theorem srcn3_eq : val_main_v146 (F := Ideal) x1 = val_main_v131 (F := Ideal) x1 := rfl
theorem srce2_eq : val_main_v86 (F := Ideal) x1 = val_main_v41 (F := Ideal) x1 := rfl
theorem srce3_eq : val_main_v131 (F := Ideal) x1 = val_main_v41 (F := Ideal) x1 := rfl

/-! ## The same facts in the first layer's terms

Layers 2 and 3 read at an index, written with the first layer's copies of the factor vector, the edge weights and the
bias rows as the kernel's host program spells them. -/

theorem srcn2_eq1 : val_main_v101 (F := Ideal) x1 = val_main_v56 (F := Ideal) x1 := rfl
theorem srcn3_eq1 : val_main_v146 (F := Ideal) x1 = val_main_v56 (F := Ideal) x1 := rfl
theorem weight2_eq : val_main_v95 (F := Ideal) x1 = val_main_v50 (F := Ideal) x1 := rfl
theorem weight3_eq : val_main_v140 (F := Ideal) x1 = val_main_v50 (F := Ideal) x1 := rfl

/-- The edge weights broadcast along the columns, at (e, q): the weight of edge e. -/
theorem nb1 (e : Fin 524288) (q : Fin 128) :
    val_main_v59 (F := Ideal) x1 (ix2 e q) = val_main_v50 (F := Ideal) x1 (ix1 e) := by
  rw [val_main_v59_apply, val_main_v58_apply]
  exact congrArg (val_main_v50 (F := Ideal) x1) (funext fun a => Fin.ext (by match a with | ⟨0, _⟩ => rfl))
theorem nb2 (e : Fin 524288) (q : Fin 128) :
    val_main_v104 (F := Ideal) x1 (ix2 e q) = val_main_v50 (F := Ideal) x1 (ix1 e) := by
  rw [val_main_v104_apply, val_main_v103_apply, weight2_eq]
  exact congrArg (val_main_v50 (F := Ideal) x1) (funext fun a => Fin.ext (by match a with | ⟨0, _⟩ => rfl))
theorem nb3 (e : Fin 524288) (q : Fin 32) :
    val_main_v149 (F := Ideal) x1 (ix2 e q) = val_main_v50 (F := Ideal) x1 (ix1 e) := by
  rw [val_main_v149_apply, val_main_v148_apply, weight3_eq]
  exact congrArg (val_main_v50 (F := Ideal) x1) (funext fun a => Fin.ext (by match a with | ⟨0, _⟩ => rfl))

/-- The squared factors broadcast along the columns, at (p, q). -/
theorem self2 (p : Fin 65536) (q : Fin 128) :
    val_main_v111 (F := Ideal) x1 (ix2 p q)
      = val_main_v35 (F := Ideal) x1 (ix1 p) * val_main_v35 (F := Ideal) x1 (ix1 p) :=
  (self_apply2 x1 p q).trans (by rw [dis2_eq])
theorem self3 (p : Fin 65536) (q : Fin 32) :
    val_main_v156 (F := Ideal) x1 (ix2 p q)
      = val_main_v35 (F := Ideal) x1 (ix1 p) * val_main_v35 (F := Ideal) x1 (ix1 p) :=
  (self_apply3 x1 p q).trans (by rw [dis3_eq])

/-- The bias rows against the kernel's one-row matrices. -/
theorem bias1 (x5 : (⟨S128, .f32⟩ : BufTy).Contents (Elt Ideal)) (p : Fin 65536) (q : Fin 128) :
    val_main_v70 (F := Ideal) x5 (ix2 p q)
      = shapeCast _ x5 Cert.KernelIdeal.Facts₀.shapeCasts_S128_S1x128 (ix2 (0 : Fin 1) q) :=
  (bias_apply1 x5 p q).trans (bias_row_apply x5 _ q).symm
theorem bias2 (x7 : (⟨S128, .f32⟩ : BufTy).Contents (Elt Ideal)) (p : Fin 65536) (q : Fin 128) :
    val_main_v115 (F := Ideal) x7 (ix2 p q)
      = shapeCast _ x7 Cert.KernelIdeal.Facts₀.shapeCasts_S128_S1x128 (ix2 (0 : Fin 1) q) :=
  (bias_apply2 x7 p q).trans (bias_row_apply x7 _ q).symm
theorem bias3 (x9 : (⟨S32, .f32⟩ : BufTy).Contents (Elt Ideal)) (p : Fin 65536) (q : Fin 32) :
    val_main_v160 (F := Ideal) x9 (ix2 p q)
      = shapeCast _ x9 Cert.KernelIdeal.Facts₀.shapeCasts_S32_S1x32 (ix2 (0 : Fin 1) q) :=
  (bias_apply3 x9 p q).trans (bias_row_apply x9 _ q).symm

/-- The scatters' operands are zero everywhere, and the rectifiers compare against the zero word. -/
theorem zeros61 (j : S65536x128.Idx) : val_main_v61 (F := Ideal) j = 0 := by
  rw [val_main_v61_apply, val_main_cst_12_apply, Ideal.ofBits_def, Ideal.ofBits_zero_f32]
theorem zeros106 (j : S65536x128.Idx) : val_main_v106 (F := Ideal) j = 0 := by
  rw [val_main_v106_apply, val_main_cst_22_apply, Ideal.ofBits_def, Ideal.ofBits_zero_f32]
theorem zeros151 (j : S65536x32.Idx) : val_main_v151 (F := Ideal) j = 0 := by
  rw [val_main_v151_apply, val_main_cst_32_apply, Ideal.ofBits_def, Ideal.ofBits_zero_f32]
theorem relu0_zero (j : S65536x128.Idx) : val_main_call0_v0 (F := Ideal) j = Cert.Gcn.cZero := by
  rw [val_main_call0_v0_apply, val_main_call0_cst_apply, Ideal.ofBits_def]
  rfl
theorem relu1_zero (j : S65536x128.Idx) : val_main_call1_v0 (F := Ideal) j = Cert.Gcn.cZero := by
  rw [val_main_call1_v0_apply, val_main_call1_cst_apply, Ideal.ofBits_def]
  rfl

/-! ## The kernel's host program computes the same functions -/

/-- The kernel's column of factors at (p, 0) is its vector of factors at p. -/
theorem kdis2d_apply (p : Fin 65536) :
    Cert.KernelIdeal.KSpec.dis2d x1 (ix2 p (0 : Fin 1)) = Cert.KernelIdeal.KSpec.dis x1 (ix1 p) := by
  unfold Cert.KernelIdeal.KSpec.dis2d
  exact Cert.Lib.shapeCast_a_a1_apply _ _ p 0

theorem kdis_eq1 : Cert.KernelIdeal.KSpec.dis x1 = val_main_v35 (F := Ideal) x1 := rfl
theorem kdis_eq2 : Cert.KernelIdeal.KSpec.dis x1 = val_main_v80 (F := Ideal) x1 := rfl
theorem kdis_eq3 : Cert.KernelIdeal.KSpec.dis x1 = val_main_v125 (F := Ideal) x1 := rfl
theorem kdstc_eq1 : Cert.KernelIdeal.KSpec.dstc x1 = val_main_v62 (F := Ideal) x1 := rfl
theorem kdstc_eq2 : Cert.KernelIdeal.KSpec.dstc x1 = val_main_v107 (F := Ideal) x1 := rfl
theorem kdstc_eq3 : Cert.KernelIdeal.KSpec.dstc x1 = val_main_v152 (F := Ideal) x1 := rfl
theorem ksrcn_eq1 : Cert.KernelIdeal.KSpec.srcn x1 = val_main_v56 (F := Ideal) x1 := rfl
theorem ksrcn_eq2 : Cert.KernelIdeal.KSpec.srcn x1 = val_main_v101 (F := Ideal) x1 := rfl
theorem ksrcn_eq3 : Cert.KernelIdeal.KSpec.srcn x1 = val_main_v146 (F := Ideal) x1 := rfl
theorem ksrce_eq1 : Cert.KernelIdeal.KSpec.srcn x1 = val_main_v41 (F := Ideal) x1 := rfl
theorem ksrce_eq2 : Cert.KernelIdeal.KSpec.srcn x1 = val_main_v86 (F := Ideal) x1 := rfl
theorem ksrce_eq3 : Cert.KernelIdeal.KSpec.srcn x1 = val_main_v131 (F := Ideal) x1 := rfl

end Cert.ReferenceIdeal.RefFacts

end
-- ==== Proof.RefLayer1.lean ====
/-
  The reference's first graph-convolution layer is the kernel-shaped specification's.

  The first layer normalises every row of the input, multiplies the normalised rows into the [256, 128] weight matrix
  (`XW`), weights each edge's row of `XW` by the edge weight `dis[src] · dis[dst]`, adds the rows into their destinations,
  adds `XW · dis²` and the bias, and takes the maximum with zero. The specification's product narrows the weights to a
  shorter format first, which changes nothing on the extended reals, and scales the rows by `dis`; so its scaled product is
  `XW` times `dis` row by row, and entry by entry the layer is the general graph-convolution identity at 128 columns under
  the maximum: `dis` is a nonnegative real, and a destination word that names a row is nonnegative, so its moved-up copy
  names the same row.
-/
import proofs.«127040_j36644660970265_2_alg».proof.Proof.Gen.ReferenceIdeal.Read
import proofs.«127040_j36644660970265_2_alg».proof.Proof.KernelSpec
import proofs.«127040_j36644660970265_2_alg».proof.Proof.LibGcnLayer
import proofs.«127040_j36644660970265_2_alg».proof.Proof.RefLn
import proofs.«127040_j36644660970265_2_alg».proof.Proof.RefLayerFacts

noncomputable section

open scoped BigOperators

namespace Cert.ReferenceIdeal.RefLayers

open Cert.ReferenceIdeal Cert.ReferenceIdeal.Read Idealize.ShloMosaic
  Idealize.ShloMosaic.ValueIdx Cert.Gcn Cert.Lib
open Cert.ReferenceIdeal.Facts₀ Cert.ReferenceIdeal.Facts

section Layer1

variable (x0 : (⟨S65536x256, .f32⟩ : BufTy).Contents (Elt Ideal)) (x1 : (⟨S2x524288, .i32⟩ : BufTy).Contents (Elt Ideal))
  (x2 x3 : (⟨S256, .f32⟩ : BufTy).Contents (Elt Ideal)) (x4 : (⟨S256x128, .f32⟩ : BufTy).Contents (Elt Ideal))
  (x5 : (⟨S128, .f32⟩ : BufTy).Contents (Elt Ideal))

/-- The specification's scaled first product is the reference's first product times `dis`. -/
theorem y1_apply (p : Fin 65536) (q : Fin 128) :
    KernelIdeal.KSpec.y1 x0 x1 x2 x3 x4 (ix2 p q)
      = val_main_v28 (F := Ideal) x0 x2 x3 x4 (ix2 p q) * val_main_v35 (F := Ideal) x1 (ix1 p) := by
  unfold KernelIdeal.KSpec.y1
  rw [lnProd_apply, RefFacts.kdis2d_apply, RefFacts.kdis_eq1,
    RefLn.xw1_apply x0 x2 x3 x4 KernelIdeal.Facts₀.shapeCasts_S256_S1x256 KernelIdeal.Facts₀.shapeCasts_S256_S1x256 p q]
  rfl

/-- Layer 1: the reference's rectified first layer is the specification's. -/
theorem ref_h1 : val_main_v72 (F := Ideal) x0 x1 x2 x3 x4 x5 = KernelIdeal.KSpec.h1 x0 x1 x2 x3 x4 x5 := by
  funext j
  obtain ⟨p, q, rfl⟩ : ∃ (p : Fin 65536) (q : Fin 128), j = ix2 p q := ⟨j 0, j 1, eq_ix2 j⟩
  have hY := y1_apply x0 x1 x2 x3 x4
  -- the reference's side, entry (p, q): the maximum with zero of the scattered weighted rows plus XW · dis² plus the bias
  rw [val_main_v72_apply, val_main_v71_apply, val_main_v68_apply, val_main_v67_apply, Ideal.maximumf_def, Ideal.addf_def,
    Ideal.addf_def, Ideal.mulf_def, RefFacts.relu0_zero, RefFacts.self_apply1, RefFacts.bias_apply1]
  unfold val_main_v63 val_main_v60 val_main_v57
  -- the specification's side, entry (p, q): the maximum with zero of dis · (the scattered scaled rows + the scaled row) + the bias
  unfold KernelIdeal.KSpec.h1
  rw [combineRelu_apply, RefFacts.kdis2d_apply, RefFacts.kdis_eq1, RefFacts.bias_row_apply]
  unfold KernelIdeal.KSpec.agg128
  rw [RefFacts.kdstc_eq1, RefFacts.ksrcn_eq1]
  generalize KernelIdeal.KSpec.y1 x0 x1 x2 x3 x4 = Y at hY ⊢
  generalize val_main_v28 (F := Ideal) x0 x2 x3 x4 = XW at hY ⊢
  exact congrArg (max · cZero) (gcn_layer_apply (N := 65536) (E := 524288) (C := 128) (by decide)
    gather_S65536x128_S524288x1_S524288x128_1_0_n_n_0_1_1128_wf gather_S65536_S524288x1_S524288_n_0_n_n_0_1_1_wf
    scatter_S65536x128_S524288x1_S524288x128_1_0_0_1_wf XW Y (val_main_v35 (F := Ideal) x1) hY (RefFacts.dis_real1 x1)
    (val_main_v61 (F := Ideal)) (fun j => RefFacts.zeros61 j)
    (val_main_v62 (F := Ideal) x1) (val_main_v56 (F := Ideal) x1) (val_main_v48 (F := Ideal) x1) (RefFacts.dst_hit1 x1)
    (val_main_v59 (F := Ideal) x1)
    (fun e q => by rw [RefFacts.srcn1_eq]; exact RefFacts.nb_apply1 x1 gather_S65536_S524288x1_S524288_n_0_n_n_0_1_1_wf e q)
    p q (x5 (ix1 q))).symm

end Layer1

end Cert.ReferenceIdeal.RefLayers

end
-- ==== Proof.RefLayer2.lean ====
/-
  The reference's second graph-convolution layer is the kernel's, given that their first layers agree.

  The reference multiplies the first layer's result into the second weight matrix, gathers the product's rows by the
  edges' source words, weights every gathered row by the product of its edge's two factors, adds the rows into their
  destinations, adds the product scaled by the squared factor of its row, adds the bias and rectifies. The kernel scales
  the product's rows by the factor first, adds the gathered rows of the scaled matrix into their destinations, adds the
  scaled matrix itself, multiplies by the destination's factor, adds the bias and rectifies. Entry by entry the two are
  the two arrangements of one layer, which agree on the extended reals because the factors are nonnegative reals; a
  change of float format is the identity there, so the kernel's narrowed weights are the reference's.
-/
import proofs.«127040_j36644660970265_2_alg».proof.Proof.Gen.ReferenceIdeal.Read
import proofs.«127040_j36644660970265_2_alg».proof.Proof.KernelSpec
import proofs.«127040_j36644660970265_2_alg».proof.Proof.LibGcnLayer
import proofs.«127040_j36644660970265_2_alg».proof.Proof.LibEntryReads
import proofs.«127040_j36644660970265_2_alg».proof.Proof.RefLayerFacts

noncomputable section

open scoped BigOperators

namespace Cert.ReferenceIdeal.RefLayers

open Cert.ReferenceIdeal Cert.ReferenceIdeal.Read Idealize.ShloMosaic Idealize.ShloMosaic.ValueIdx
open Cert.ReferenceIdeal.RefFacts

variable (x0 : (⟨S65536x256, .f32⟩ : BufTy).Contents (Elt Ideal)) (x1 : IVec S2x524288 32)
  (x2 x3 : (⟨S256, .f32⟩ : BufTy).Contents (Elt Ideal)) (x4 : (⟨S256x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal))

/-- The kernel's scaled second product at (p, q) is the reference's second product there times the factor of row p. -/
theorem y2_apply (h1 : val_main_v72 (F := Ideal) x0 x1 x2 x3 x4 x5 = Cert.KernelIdeal.KSpec.h1 x0 x1 x2 x3 x4 x5)
    (p : Fin 65536) (q : Fin 128) :
    Cert.KernelIdeal.KSpec.y2 x0 x1 x2 x3 x4 x5 x6 (ix2 p q)
      = val_main_v73 (F := Ideal) x0 x1 x2 x3 x4 x5 x6 (ix2 p q) * val_main_v35 (F := Ideal) x1 (ix1 p) := by
  unfold Cert.KernelIdeal.KSpec.y2
  rw [Cert.Gcn.scaledProd_apply, kdis2d_apply, kdis_eq1]
  refine congrArg (· * val_main_v35 (F := Ideal) x1 (ix1 p)) ?_
  unfold val_main_v73
  rw [h1]
  exact (Cert.Lib.dotGeneral_plain_apply dot_S65536x128_S128x128_S65536x128_1_0_0_1_n_n
    dot_S65536x128_S128x128_S65536x128_1_0_0_1_n_n.wf rfl _ _ p q).symm

/-- The second layer. -/
theorem ref_h2_of (h1 : val_main_v72 (F := Ideal) x0 x1 x2 x3 x4 x5 = Cert.KernelIdeal.KSpec.h1 x0 x1 x2 x3 x4 x5) :
    val_main_v117 (F := Ideal) x0 x1 x2 x3 x4 x5 x6 x7 = Cert.KernelIdeal.KSpec.h2 x0 x1 x2 x3 x4 x5 x6 x7 := by
  funext j
  obtain ⟨p, q, rfl⟩ : ∃ (p : Fin 65536) (q : Fin 128), j = ix2 p q := ⟨j 0, j 1, eq_ix2 j⟩
  unfold Cert.KernelIdeal.KSpec.h2
  rw [Cert.Gcn.combineRelu_apply, kdis2d_apply, kdis_eq1, ← bias2 x7 p q]
  rw [val_main_v117_apply, val_main_v116_apply, val_main_v113_apply, val_main_v112_apply, relu1_zero, self2]
  simp only [Ideal.maximumf_def, Ideal.addf_def, Ideal.mulf_def]
  refine congrArg (max · Cert.Gcn.cZero) ?_
  exact (Cert.Lib.gcn_layer_apply (N := 65536) (E := 524288) (C := 128) (by decide)
    gather_S65536x128_S524288x1_S524288x128_1_0_n_n_0_1_1128.wf gather_S65536_S524288x1_S524288_n_0_n_n_0_1_1.wf
    scatter_S65536x128_S524288x1_S524288x128_1_0_0_1.wf
    (val_main_v73 (F := Ideal) x0 x1 x2 x3 x4 x5 x6) (Cert.KernelIdeal.KSpec.y2 x0 x1 x2 x3 x4 x5 x6) (val_main_v35 (F := Ideal) x1)
    (y2_apply x0 x1 x2 x3 x4 x5 x6 h1) (dis_real1 x1) (val_main_v106 (F := Ideal)) zeros106
    (val_main_v107 (F := Ideal) x1) (val_main_v101 (F := Ideal) x1) (val_main_v93 (F := Ideal) x1) (dst_hit2 x1)
    (val_main_v104 (F := Ideal) x1) (fun e q => nb_apply2 x1 _ e q) p q (val_main_v115 (F := Ideal) x7 (ix2 p q))).symm

end Cert.ReferenceIdeal.RefLayers

end
-- ==== Proof.RefLayer3.lean ====
/-
  The reference's third graph-convolution layer is the kernel-shaped specification's, given that its second layer is.

  The third layer multiplies the second layer's output into the [128, 32] weight matrix (`XW`), weights each edge's row of
  `XW` by the edge weight `dis[src] · dis[dst]`, adds the rows into their destinations, and adds `XW · dis²` and the bias;
  there is no rectifier. The specification's product narrows the weights to a shorter format first, which changes nothing on
  the extended reals, and scales the rows by `dis`; so its scaled product is `XW` times `dis` row by row, and entry by
  entry the layer is the general graph-convolution identity at 32 columns: `dis` is a nonnegative real, and a destination
  word that names a row is nonnegative, so its moved-up copy names the same row.
-/
import proofs.«127040_j36644660970265_2_alg».proof.Proof.Gen.ReferenceIdeal.Read
import proofs.«127040_j36644660970265_2_alg».proof.Proof.KernelSpec
import proofs.«127040_j36644660970265_2_alg».proof.Proof.LibGcnLayer
import proofs.«127040_j36644660970265_2_alg».proof.Proof.LibEntryReads
import proofs.«127040_j36644660970265_2_alg».proof.Proof.RefLayerFacts

noncomputable section

open scoped BigOperators

namespace Cert.ReferenceIdeal.RefLayers

open Cert.ReferenceIdeal Cert.ReferenceIdeal.Read Idealize.ShloMosaic
  Idealize.ShloMosaic.ValueIdx Cert.Gcn Cert.Lib
open Cert.ReferenceIdeal.Facts₀ Cert.ReferenceIdeal.Facts

section Layer3

variable (x0 : (⟨S65536x256, .f32⟩ : BufTy).Contents (Elt Ideal)) (x1 : (⟨S2x524288, .i32⟩ : BufTy).Contents (Elt Ideal))
  (x2 x3 : (⟨S256, .f32⟩ : BufTy).Contents (Elt Ideal)) (x4 : (⟨S256x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x32, .f32⟩ : BufTy).Contents (Elt Ideal))
  (x9 : (⟨S32, .f32⟩ : BufTy).Contents (Elt Ideal))

/-- The specification's scaled third product is the reference's third product times `dis`, once the second layers agree. -/
theorem y3_apply_of (h2 : val_main_v117 (F := Ideal) x0 x1 x2 x3 x4 x5 x6 x7 = KernelIdeal.KSpec.h2 x0 x1 x2 x3 x4 x5 x6 x7)
    (p : Fin 65536) (q : Fin 32) :
    KernelIdeal.KSpec.y3 x0 x1 x2 x3 x4 x5 x6 x7 x8 (ix2 p q)
      = val_main_v118 (F := Ideal) x0 x1 x2 x3 x4 x5 x6 x7 x8 (ix2 p q) * val_main_v125 (F := Ideal) x1 (ix1 p) := by
  unfold KernelIdeal.KSpec.y3 val_main_v118
  rw [scaledProd_apply, RefFacts.kdis2d_apply, RefFacts.kdis_eq3,
    dotGeneral_plain_apply dot_S65536x128_S128x32_S65536x32_1_0_0_1_n_n dot_S65536x128_S128x32_S65536x32_1_0_0_1_n_n_wf rfl, h2]
  rfl

/-- Layer 3: the reference's last layer is the specification's result, once the second layers agree. -/
theorem ref_out_of (h2 : val_main_v117 (F := Ideal) x0 x1 x2 x3 x4 x5 x6 x7 = KernelIdeal.KSpec.h2 x0 x1 x2 x3 x4 x5 x6 x7) :
    val_main_v161 (F := Ideal) x0 x1 x2 x3 x4 x5 x6 x7 x8 x9 = KernelIdeal.KSpec.out x0 x1 x2 x3 x4 x5 x6 x7 x8 x9 := by
  funext j
  obtain ⟨p, q, rfl⟩ : ∃ (p : Fin 65536) (q : Fin 32), j = ix2 p q := ⟨j 0, j 1, eq_ix2 j⟩
  have hY := y3_apply_of x0 x1 x2 x3 x4 x5 x6 x7 x8 h2
  -- the reference's side, entry (p, q): the scattered weighted rows, plus XW · dis², plus the bias
  rw [val_main_v161_apply, val_main_v158_apply, val_main_v157_apply, Ideal.addf_def, Ideal.addf_def, Ideal.mulf_def,
    RefFacts.self_apply3, RefFacts.bias_apply3]
  unfold val_main_v153 val_main_v150 val_main_v147
  -- the specification's side, entry (p, q): dis · (the scattered scaled rows + the scaled row) + the bias
  unfold KernelIdeal.KSpec.out
  rw [combineLin_apply, RefFacts.kdis2d_apply, RefFacts.kdis_eq3, RefFacts.bias_row_apply]
  unfold KernelIdeal.KSpec.agg32
  rw [RefFacts.kdstc_eq3, RefFacts.ksrcn_eq3]
  generalize KernelIdeal.KSpec.y3 x0 x1 x2 x3 x4 x5 x6 x7 x8 = Y at hY ⊢
  generalize val_main_v118 (F := Ideal) x0 x1 x2 x3 x4 x5 x6 x7 x8 = XW at hY ⊢
  exact (gcn_layer_apply (N := 65536) (E := 524288) (C := 32) (by decide)
    gather_S65536x32_S524288x1_S524288x32_1_0_n_n_0_1_132_wf gather_S65536_S524288x1_S524288_n_0_n_n_0_1_1_wf
    scatter_S65536x32_S524288x1_S524288x32_1_0_0_1_wf XW Y (val_main_v125 (F := Ideal) x1) hY (RefFacts.dis_real3 x1)
    (val_main_v151 (F := Ideal)) (fun j => RefFacts.zeros151 j)
    (val_main_v152 (F := Ideal) x1) (val_main_v146 (F := Ideal) x1) (val_main_v138 (F := Ideal) x1) (RefFacts.dst_hit3 x1)
    (val_main_v149 (F := Ideal) x1)
    (fun e q => by rw [RefFacts.srcn3_eq]; exact RefFacts.nb_apply3 x1 gather_S65536_S524288x1_S524288_n_0_n_n_0_1_1_wf e q)
    p q (x9 (ix1 q))).symm

end Layer3

end Cert.ReferenceIdeal.RefLayers

end
-- ==== Proof.RefLayers.lean ====
/-
  The reference's three layers, chained.

  Each layer of the reference — multiply the features by the layer's weights, weigh every edge's source row by
  dis (source) · dis (destination), add the rows into their destinations, add the node's own row times dis · dis and the
  bias, rectify in the first two layers — is the kernel-ordered layer of the specification: scale rows by dis first, add
  the in-neighbours' rows and the node's own, multiply by dis and add the bias. Layer by layer, each given the one
  before, the reference's result is the specification's last term.
-/
import proofs.«127040_j36644660970265_2_alg».proof.Proof.RefLayer1
import proofs.«127040_j36644660970265_2_alg».proof.Proof.RefLayer2
import proofs.«127040_j36644660970265_2_alg».proof.Proof.RefLayer3

noncomputable section

namespace Cert.ReferenceIdeal.RefLayers

open Cert.ReferenceIdeal Idealize.ShloMosaic

/-- The reference's result is the specification's last term of the same ten arrays. -/
theorem ref_out (x0 : (⟨S65536x256, .f32⟩ : BufTy).Contents (Elt Ideal)) (x1 : (⟨S2x524288, .i32⟩ : BufTy).Contents (Elt Ideal))
    (x2 x3 : (⟨S256, .f32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x32, .f32⟩ : BufTy).Contents (Elt Ideal))
    (x9 : (⟨S32, .f32⟩ : BufTy).Contents (Elt Ideal)) :
    Cert.ReferenceIdeal.Read.val_main_v161 (F := Ideal) x0 x1 x2 x3 x4 x5 x6 x7 x8 x9
      = Cert.KernelIdeal.KSpec.out x0 x1 x2 x3 x4 x5 x6 x7 x8 x9 :=
  ref_out_of x0 x1 x2 x3 x4 x5 x6 x7 x8 x9 (ref_h2_of x0 x1 x2 x3 x4 x5 x6 x7 (ref_h1 x0 x1 x2 x3 x4 x5))

end Cert.ReferenceIdeal.RefLayers

end
-- ==== Proof.lean ====
/-
  The certificate of a three-layer graph convolution network over 65536 nodes and 524288 edges.

  The kernel normalises every row of the features, multiplies by the first weights and scales row p by
  dis p = (1 + in-degree of p)^(-1/2); every layer then adds into each node the already scaled rows of its in-neighbours,
  adds the node's own row, multiplies by dis p once more and adds the bias. The reference multiplies each neighbour's
  unscaled row by dis (source) · dis (destination) edge by edge and the node's own row by dis p · dis p. The two agree on
  the extended reals because dis p is a nonnegative REAL — one over the square root of a positive whole number — and
  multiplication by a nonnegative real distributes over a finite sum of arbitrary extended reals, while products
  commute and associate; no input needs to be finite for that, and no index word needs to name a node: an edge whose
  destination word names no node is dropped by both programs, and one that lands on node p has destination p exactly.

  Each kernel program's frame — every weakly fair execution terminates, nothing faults, the arguments end as they were —
  is the run through its six launches and the host stretches between them; the reference's frame is its run with the
  result forgotten; the idealisation rewrote nothing, so there is nothing to state about it beyond the program's own text.
-/
import proofs.«127040_j36644660970265_2_alg».proof.Defs
import proofs.«127040_j36644660970265_2_alg».proof.Proof.Gen.Kernel
import proofs.«127040_j36644660970265_2_alg».proof.Proof.Gen.KernelIdeal
import proofs.«127040_j36644660970265_2_alg».proof.Proof.Gen.ReferenceIdeal
import proofs.«127040_j36644660970265_2_alg».proof.Proof.Gen.Pre_finite_inputs
import proofs.«127040_j36644660970265_2_alg».proof.Proof.Gen.ReferenceIdeal.Run
import proofs.«127040_j36644660970265_2_alg».proof.Proof.Gen.ReferenceIdeal.Read
import proofs.«127040_j36644660970265_2_alg».proof.Proof.PatchedKernelFrame
import proofs.«127040_j36644660970265_2_alg».proof.Proof.PatchedKernelIdealFrame
import proofs.«127040_j36644660970265_2_alg».proof.Proof.KernelRun
import proofs.«127040_j36644660970265_2_alg».proof.Proof.KernelFold
import proofs.«127040_j36644660970265_2_alg».proof.Proof.RefLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the result array at the
    specification's last term of the arguments. -/
theorem algebraic : Cert.algebraic_KernelIdeal_ReferenceIdeal := by
  intro m ρ m' ρ' _ hagree
  refine ⟨fun c => Cert.KernelIdeal.KSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Named.w10_v55 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v161_eq, Cert.ReferenceIdeal.RefLayers.ref_out,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
